-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v55)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v55) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v79) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x40 : Shape := ⟨2, ![128, 40]⟩
abbrev S40 : Shape := ⟨1, ![40]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x40 : S_.BroadcastsInDim S128x40 (![] : Fin 0 → Fin S128x40.rank)
  reducesTo_S128x40_S_d0_1 : S128x40.ReducesTo [0, 1] S_
  bcast_S_S40 : S_.BroadcastsInDim S40 (![] : Fin 0 → Fin S40.rank)
  reducesTo_S40_S_d0 : S40.ReducesTo [0] S_

variable [Facts]

def fn_part1 {F : FTy → Type} [FloatOps F] (main_arg5 : FVec F S128 .f32) (main_arg6 : FVec F S128x40 .f32) (main_arg7 : FVec F S40 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x40 .f32 := Host.absf main_arg6
  let main_cst_8 : FVec F S_ .f32 := constant S_ .f32 0x7F800000#32
  let main_v25 : FVec F S128x40 .f32 := broadcastInDim S128x40 ![] bcast_S_S128x40 main_cst_8
  let main_v26 : IVec S128x40 1 := cmpf .olt main_v24 main_v25
  let main_c_9 : IVec S_ 1 := constantI S_ 1 1#1
  let main_v27 : IVec S_ 1 := (fun x v => Host.reduce IntOp.andi x v reducesTo_S128x40_S_d0_1 h_S_) main_v26 main_c_9
  let main_v28 : IVec S_ 1 := andi main_v23 main_v27
  let main_v29 : FVec F S40 .f32 := Host.absf main_arg7
  let main_cst_10 : FVec F S_ .f32 := constant S_ .f32 0x7F800000#32
  let main_v30 : FVec F S40 .f32 := broadcastInDim S40 ![] bcast_S_S40 main_cst_10
  let main_v31 : IVec S40 1 := cmpf .olt main_v29 main_v30
  let main_c_11 : IVec S_ 1 := constantI S_ 1 1#1
  let main_v32 : IVec S_ 1 := (fun x v => Host.reduce IntOp.andi x v reducesTo_S40_S_d0 h_S_) main_v31 main_c_11
  let main_v33 : IVec S_ 1 := andi main_v28 main_v32
  main_v33

def fn {F : FTy → Type} [FloatOps F] (main_arg0 : FVec F S100000x128 .f32) (main_arg1 : IVec S2x1600000 32) (main_arg2 : FVec F S128x128 .f32) (main_arg3 : FVec F S128 .f32) (main_arg4 : FVec F S128x128 .f32) (main_arg5 : FVec F S128 .f32) (main_arg6 : FVec F S128x40 .f32) (main_arg7 : FVec F S40 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x40 : Shape := ⟨2, ![128, 40]⟩
abbrev S40 : Shape := ⟨1, ![40]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1x128 : Shape := ⟨2, ![1, 128]⟩
abbrev S1x40 : Shape := ⟨2, ![1, 40]⟩
abbrev S5000x128 : Shape := ⟨2, ![5000, 128]⟩
abbrev S5000x1 : Shape := ⟨2, ![5000, 1]⟩
abbrev S1600000x128 : Shape := ⟨2, ![1600000, 128]⟩
abbrev S100000x40 : Shape := ⟨2, ![100000, 40]⟩
abbrev S5000x40 : Shape := ⟨2, ![5000, 40]⟩
abbrev S1600000x40 : Shape := ⟨2, ![1600000, 40]⟩
abbrev S5000 : Shape := ⟨1, ![5000]⟩

abbrev nBuf : Space → Nat
  | .hbm => 78
  | .vmem => 34
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x40, .f32⟩
  | .hbm, ⟨7, _⟩ => ⟨S40, .f32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S_, .f32⟩
  | .hbm, ⟨13, _⟩ => ⟨S1600000, .f32⟩
  | .hbm, ⟨14, _⟩ => ⟨S_, .f32⟩
  | .hbm, ⟨15, _⟩ => ⟨S100000, .f32⟩
  | .hbm, ⟨16, _⟩ => ⟨S1600000x1, .i32⟩
  | .hbm, ⟨17, _⟩ => ⟨S100000, .f32⟩
  | .hbm, ⟨18, _⟩ => ⟨S_, .f32⟩
  | .hbm, ⟨19, _⟩ => ⟨S100000, .f32⟩
  | .hbm, ⟨20, _⟩ => ⟨S1600000x1, .i32⟩
  | .hbm, ⟨21, _⟩ => ⟨S100000, .f32⟩
  | .hbm, ⟨22, _⟩ => ⟨S_, .f32⟩
  | .hbm, ⟨23, _⟩ => ⟨S100000, .f32⟩
  | .hbm, ⟨24, _⟩ => ⟨S100000, .f32⟩
  | .hbm, ⟨25, _⟩ => ⟨S_, .f32⟩
  | .hbm, ⟨26, _⟩ => ⟨S100000, .f32⟩
  | .hbm, ⟨27, _⟩ => ⟨S100000, .f32⟩
  | .hbm, ⟨28, _⟩ => ⟨S100000, .f32⟩
  | .hbm, ⟨29, _⟩ => ⟨S100000x1, .f32⟩
  | .hbm, ⟨30, _⟩ => ⟨S100000, .f32⟩
  | .hbm, ⟨31, _⟩ => ⟨S100000x1, .f32⟩
  | .hbm, ⟨32, _⟩ => ⟨S1x128, .f32⟩
  | .hbm, ⟨33, _⟩ => ⟨S1x128, .f32⟩
  | .hbm, ⟨34, _⟩ => ⟨S1x40, .f32⟩
  | .hbm, ⟨35, _⟩ => ⟨S100000x128, .f32⟩
  | .hbm, ⟨36, _⟩ => ⟨S_, .i32⟩
  | .hbm, ⟨37, _⟩ => ⟨S1600000, .i32⟩
  | .hbm, ⟨38, _⟩ => ⟨S1600000, .i1⟩
  | .hbm, ⟨39, _⟩ => ⟨S_, .i32⟩
  | .hbm, ⟨40, _⟩ => ⟨S1600000, .i32⟩
  | .hbm, ⟨41, _⟩ => ⟨S1600000, .i32⟩
  | .hbm, ⟨42, _⟩ => ⟨S1600000, .i32⟩
  | .hbm, ⟨43, _⟩ => ⟨S1600000x1, .i32⟩
  | .hbm, ⟨44, _⟩ => ⟨S1600000x128, .f32⟩
  | .hbm, ⟨45, _⟩ => ⟨S_, .f32⟩
  | .hbm, ⟨46, _⟩ => ⟨S100000x128, .f32⟩
  | .hbm, ⟨47, _⟩ => ⟨S1600000x1, .i32⟩
  | .hbm, ⟨48, _⟩ => ⟨S100000x128, .f32⟩
  | .hbm, ⟨49, _⟩ => ⟨S100000x128, .f32⟩
  | .hbm, ⟨50, _⟩ => ⟨S_, .i32⟩
  | .hbm, ⟨51, _⟩ => ⟨S1600000, .i32⟩
  | .hbm, ⟨52, _⟩ => ⟨S1600000, .i1⟩
  | .hbm, ⟨53, _⟩ => ⟨S_, .i32⟩
  | .hbm, ⟨54, _⟩ => ⟨S1600000, .i32⟩
  | .hbm, ⟨55, _⟩ => ⟨S1600000, .i32⟩
  | .hbm, ⟨56, _⟩ => ⟨S1600000, .i32⟩
  | .hbm, ⟨57, _⟩ => ⟨S1600000x1, .i32⟩
  | .hbm, ⟨58, _⟩ => ⟨S1600000x128, .f32⟩
  | .hbm, ⟨59, _⟩ => ⟨S_, .f32⟩
  | .hbm, ⟨60, _⟩ => ⟨S100000x128, .f32⟩
  | .hbm, ⟨61, _⟩ => ⟨S1600000x1, .i32⟩
  | .hbm, ⟨62, _⟩ => ⟨S100000x128, .f32⟩
  | .hbm, ⟨63, _⟩ => ⟨S100000x40, .f32⟩
  | .hbm, ⟨64, _⟩ => ⟨S_, .i32⟩
  | .hbm, ⟨65, _⟩ => ⟨S1600000, .i32⟩
  | .hbm, ⟨66, _⟩ => ⟨S1600000, .i1⟩
  | .hbm, ⟨67, _⟩ => ⟨S_, .i32⟩
  | .hbm, ⟨68, _⟩ => ⟨S1600000, .i32⟩
  | .hbm, ⟨69, _⟩ => ⟨S1600000, .i32⟩
  | .hbm, ⟨70, _⟩ => ⟨S1600000, .i32⟩
  | .hbm, ⟨71, _⟩ => ⟨S1600000x1, .i32⟩
  | .hbm, ⟨72, _⟩ => ⟨S1600000x40, .f32⟩
  | .hbm, ⟨73, _⟩ => ⟨S_, .f32⟩
  | .hbm, ⟨74, _⟩ => ⟨S100000x40, .f32⟩
  | .hbm, ⟨75, _⟩ => ⟨S1600000x1, .i32⟩
  | .hbm, ⟨76, _⟩ => ⟨S100000x40, .f32⟩
  | .hbm, ⟨77, _⟩ => ⟨S100000x40, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x1, .f32⟩
  | .local _ .vmem, ⟨4, _⟩ => ⟨S5000x1, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S5000x1, .f32⟩
  | .local _ .vmem, ⟨10, _⟩ => ⟨S5000x1, .f32⟩
  | .local _ .vmem, ⟨11, _⟩ => ⟨S1x128, .f32⟩
  | .local _ .vmem, ⟨12, _⟩ => ⟨S128x128, .f32⟩
  | .local _ .vmem, ⟨13, _⟩ => ⟨S5000x1, .f32⟩
  | .local _ .vmem, ⟨14, _⟩ => ⟨S5000x1, .f32⟩
  | .local _ .vmem, ⟨15, _⟩ => ⟨S5000x128, .f32⟩
  | .local _ .vmem, ⟨16, _⟩ => ⟨S5000x128, .f32⟩
  | .local _ .vmem, ⟨17, _⟩ => ⟨S5000x128, .f32⟩
  | .local _ .vmem, ⟨18, _⟩ => ⟨S5000x128, .f32⟩
  | .local _ .vmem, ⟨19, _⟩ => ⟨S5000x1, .f32⟩
  | .local _ .vmem, ⟨20, _⟩ => ⟨S5000x1, .f32⟩
  | .local _ .vmem, ⟨21, _⟩ => ⟨S1x128, .f32⟩
  | .local _ .vmem, ⟨22, _⟩ => ⟨S128x40, .f32⟩
  | .local _ .vmem, ⟨23, _⟩ => ⟨S5000x1, .f32⟩
  | .local _ .vmem, ⟨24, _⟩ => ⟨S5000x1, .f32⟩
  | .local _ .vmem, ⟨25, _⟩ => ⟨S5000x40, .f32⟩
  | .local _ .vmem, ⟨26, _⟩ => ⟨S5000x40, .f32⟩
  | .local _ .vmem, ⟨27, _⟩ => ⟨S5000x40, .f32⟩
  | .local _ .vmem, ⟨28, _⟩ => ⟨S5000x40, .f32⟩
  | .local _ .vmem, ⟨29, _⟩ => ⟨S5000x1, .f32⟩
  | .local _ .vmem, ⟨30, _⟩ => ⟨S5000x1, .f32⟩
  | .local _ .vmem, ⟨31, _⟩ => ⟨S1x40, .f32⟩
  | .local _ .vmem, ⟨32, _⟩ => ⟨S5000x40, .f32⟩
  | .local _ .vmem, ⟨33, _⟩ => ⟨S5000x40, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_2 : Ref sig .tc := ⟨.hbm, 22, rfl⟩
abbrev main_v11 : Ref sig .tc := ⟨.hbm, 23, rfl⟩
abbrev main_v12 : Ref sig .tc := ⟨.hbm, 24, rfl⟩
abbrev main_cst_3 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_c : Ref sig .tc := ⟨.hbm, 36, rfl⟩
abbrev main_v23 : Ref sig .tc := ⟨.hbm, 37, rfl⟩
abbrev main_v24 : Ref sig .tc := ⟨.hbm, 38, rfl⟩
abbrev main_c_4 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_cst_5 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_c_6 : Ref sig .tc := ⟨.hbm, 50, rfl⟩
abbrev main_v34 : Ref sig .tc := ⟨.hbm, 51, rfl⟩
abbrev main_v35 : Ref sig .tc := ⟨.hbm, 52, rfl⟩
abbrev main_c_7 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_c_9 : Ref sig .tc := ⟨.hbm, 64, rfl⟩
abbrev main_v45 : Ref sig .tc := ⟨.hbm, 65, rfl⟩
abbrev main_v46 : Ref sig .tc := ⟨.hbm, 66, rfl⟩
abbrev main_c_10 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_cst_11 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg4_1 : Ref sig .tc := ⟨.vmem, 14, rfl⟩
abbrev cc1_stg5_0 : Ref sig .tc := ⟨.vmem, 15, rfl⟩
abbrev cc1_stg5_1 : Ref sig .tc := ⟨.vmem, 16, rfl⟩
abbrev cc2_stg0_0 : Ref sig .tc := ⟨.vmem, 17, rfl⟩
abbrev cc2_stg0_1 : Ref sig .tc := ⟨.vmem, 18, rfl⟩
abbrev cc2_stg1_0 : Ref sig .tc := ⟨.vmem, 19, rfl⟩
abbrev cc2_stg1_1 : Ref sig .tc := ⟨.vmem, 20, rfl⟩
abbrev cc2_stg2_0 : Ref sig .tc := ⟨.vmem, 21, rfl⟩
abbrev cc2_stg3_0 : Ref sig .tc := ⟨.vmem, 22, rfl⟩
abbrev cc2_stg4_0 : Ref sig .tc := ⟨.vmem, 23, rfl⟩
abbrev cc2_stg4_1 : Ref sig .tc := ⟨.vmem, 24, rfl⟩
abbrev cc2_stg5_0 : Ref sig .tc := ⟨.vmem, 25, rfl⟩
abbrev cc2_stg5_1 : Ref sig .tc := ⟨.vmem, 26, rfl⟩
abbrev cc3_stg0_0 : Ref sig .tc := ⟨.vmem, 27, rfl⟩
abbrev cc3_stg0_1 : Ref sig .tc := ⟨.vmem, 28, rfl⟩
abbrev cc3_stg1_0 : Ref sig .tc := ⟨.vmem, 29, rfl⟩
abbrev cc3_stg1_1 : Ref sig .tc := ⟨.vmem, 30, rfl⟩
abbrev cc3_stg2_0 : Ref sig .tc := ⟨.vmem, 31, rfl⟩
abbrev cc3_stg3_0 : Ref sig .tc := ⟨.vmem, 32, rfl⟩
abbrev cc3_stg3_1 : Ref sig .tc := ⟨.vmem, 33, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem4_0 : DmaSem sig := 13
abbrev cc1_sem4_1 : DmaSem sig := 14
abbrev cc1_sem5_0 : DmaSem sig := 15
abbrev cc1_sem5_1 : DmaSem sig := 16
abbrev cc2_sem0_0 : DmaSem sig := 17
abbrev cc2_sem0_1 : DmaSem sig := 18
abbrev cc2_sem1_0 : DmaSem sig := 19
abbrev cc2_sem1_1 : DmaSem sig := 20
abbrev cc2_sem2_0 : DmaSem sig := 21
abbrev cc2_sem3_0 : DmaSem sig := 22
abbrev cc2_sem4_0 : DmaSem sig := 23
abbrev cc2_sem4_1 : DmaSem sig := 24
abbrev cc2_sem5_0 : DmaSem sig := 25
abbrev cc2_sem5_1 : DmaSem sig := 26
abbrev cc3_sem0_0 : DmaSem sig := 27
abbrev cc3_sem0_1 : DmaSem sig := 28
abbrev cc3_sem1_0 : DmaSem sig := 29
abbrev cc3_sem1_1 : DmaSem sig := 30
abbrev cc3_sem2_0 : DmaSem sig := 31
abbrev cc3_sem3_0 : DmaSem sig := 32
abbrev cc3_sem3_1 : DmaSem sig := 33

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x1 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128x40 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S5000x1 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 2 → Memref sig .tc .vmem S5000x40 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x40 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x1 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S1x40 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S5000x40 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  shapeCasts_S100000_S100000x1 : S100000.ShapeCasts S100000x1
  shapeCasts_S128_S1x128 : S128.ShapeCasts S1x128
  shapeCasts_S40_S1x40 : S40.ShapeCasts S1x40
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  bcast_S_S100000x128 : S_.BroadcastsInDim S100000x128 (![] : Fin 0 → Fin S100000x128.rank)
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S128x40_S128x40_0_0 : ∀ a, (![0, 0] : Fin 2 → Nat) a + S128x40.size a ≤ S128x40.size a
  h_S128x40 : 0 < S128x40.numel
  broadcasts_S5000x1_S5000x40 : S5000x1.Broadcasts S5000x40
  inb_S5000x40_S5000x40_0_0 : ∀ a, (![0, 0] : Fin 2 → Nat) a + S5000x40.size a ≤ S5000x40.size a
  h_S5000x40 : 0 < S5000x40.numel
  bcast_S_S100000x40 : S_.BroadcastsInDim S100000x40 (![] : Fin 0 → Fin S100000x40.rank)
  shapeCasts_S5000x40_S5000x40 : S5000x40.ShapeCasts S5000x40
  inb_S1x40_S1x40_0_0 : ∀ a, (![0, 0] : Fin 2 → Nat) a + S1x40.size a ≤ S1x40.size a
  h_S1x40 : 0 < S1x40.numel
  shapeCasts_S1x40_S1x40 : S1x40.ShapeCasts S1x40
  broadcasts_S1x40_S5000x40 : S1x40.Broadcasts S5000x40
  reduces_S5000x40_S5000 : S5000x40.Reduces [1] S5000
  shapeCasts_S5000_S5000x1 : S5000.ShapeCasts S5000x1
  scatter_S100000_S1600000x1_S1600000_n_0_0_1_wf : ScatterDims.WF S100000 S1600000x1 S1600000 [] [0] [0] 1
  dot_S5000x128_S128x128_S5000x128_1_0_0_1_n_n_wf : DotDims.WF S5000x128 S128x128 S5000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x128_S128x40_S5000x40_1_0_0_1_n_n_wf : DotDims.WF S5000x128 S128x40 S5000x40 [1] [0] [0] [1] [] []
  gather_S100000x40_S1600000x1_S1600000x40_1_0_n_n_0_1_140_wf : GatherDims.WF S100000x40 S1600000x1 S1600000x40 [1] [0] [] [0] [] 1 ![1, 40]
  scatter_S100000x40_S1600000x1_S1600000x40_1_0_0_1_wf : ScatterDims.WF S100000x40 S1600000x1 S1600000x40 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S100000x1.size a
  hwx0_2 : ∀ i : grid0.Coords, EltTy.bits .f32 = 32 ∨ (Rect.block (s := S100000x1) S5000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S100000x128.size a
  hwx0_3 : ∀ i : grid0.Coords, EltTy.bits .f32 = 32 ∨ (Rect.block (s := S100000x128) S5000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S100000x1.size a
  hwx1_1 : ∀ i : grid1.Coords, EltTy.bits .f32 = 32 ∨ (Rect.block (s := S100000x1) S5000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x1.size a ≤ S100000x1.size a
  hwx1_4 : ∀ i : grid1.Coords, EltTy.bits .f32 = 32 ∨ (Rect.block (s := S100000x1) S5000x1.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S100000x128.size a
  hwx1_5 : ∀ i : grid1.Coords, EltTy.bits .f32 = 32 ∨ (Rect.block (s := S100000x128) S5000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x1.size a ≤ S100000x1.size a
  hwx2_1 : ∀ i : grid2.Coords, EltTy.bits .f32 = 32 ∨ (Rect.block (s := S100000x1) S5000x1.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x40.size a ≤ S128x40.size a
  hwx2_3 : ∀ i : grid2.Coords, EltTy.bits .f32 = 32 ∨ (Rect.block (s := S128x40) S128x40.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S5000x1.size a ≤ S100000x1.size a
  hwx2_4 : ∀ i : grid2.Coords, EltTy.bits .f32 = 32 ∨ (Rect.block (s := S100000x1) S5000x1.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x40.size a ≤ S100000x40.size a
  hwx2_5 : ∀ i : grid2.Coords, EltTy.bits .f32 = 32 ∨ (Rect.block (s := S100000x40) S5000x40.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x40.size a ≤ S100000x40.size a
  hwx3_0 : ∀ i : grid3.Coords, EltTy.bits .f32 = 32 ∨ (Rect.block (s := S100000x40) S5000x40.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x1.size a ≤ S100000x1.size a
  hwx3_1 : ∀ i : grid3.Coords, EltTy.bits .f32 = 32 ∨ (Rect.block (s := S100000x1) S5000x1.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x40.size a ≤ S1x40.size a
  hwx3_2 : ∀ i : grid3.Coords, EltTy.bits .f32 = 32 ∨ (Rect.block (s := S1x40) S1x40.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S5000x40.size a ≤ S100000x40.size a
  hwx3_3 : ∀ i : grid3.Coords, EltTy.bits .f32 = 32 ∨ (Rect.block (s := S100000x40) S5000x40.size (cc3_transform_3 i) (hinb3_3 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x40_S5000x40_1_0_0_1_n_n : DotDims S5000x128 S128x40 S5000x40 where
  lhsContracting := [1]
  rhsContracting := [0]
  lhsNonContracting := [0]
  rhsNonContracting := [1]
  lhsBatch := []
  rhsBatch := []
  wf := dot_S5000x128_S128x40_S5000x40_1_0_0_1_n_n_wf
def gather_S100000x40_S1600000x1_S1600000x40_1_0_n_n_0_1_140 : GatherDims S100000x40 S1600000x1 S1600000x40 where
  offsetDims := [1]
  collapsedSliceDims := [0]
  operandBatchingDims := []
  startIndicesBatchingDims := []
  startIndexMap := [0]
  indexVectorDim := 1
  sliceSizes := ![1, 40]
  wf := gather_S100000x40_S1600000x1_S1600000x40_1_0_n_n_0_1_140_wf
def scatter_S100000x40_S1600000x1_S1600000x40_1_0_0_1 : ScatterDims S100000x40 S1600000x1 S1600000x40 where
  updateWindowDims := [1]
  insertedWindowDims := [0]
  scatterDimsToOperandDims := [0]
  indexVectorDim := 1
  wf := scatter_S100000x40_S1600000x1_S1600000x40_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v16) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v22) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v32) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v18) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v19) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg4) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v16) S5000x1.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v33) S5000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v43) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v18) S5000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v20) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg6) S128x40.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v16) S5000x1.size cc2_transform_4 reads2_4 false false 2 stage2_4 sem2_4
    hrank2 hreads2_4 hinb2_4 nbuf2_4 (Memref.isWhole_whole _) hwx2_4 hstage2_4

abbrev win2_5 : Pipeline.Window sig grid2 :=
  Pipeline.Window.ofSpec (Memref.whole main_v44) S5000x40.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v54) S5000x40.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v18) S5000x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v21) S1x40.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v55) S5000x40.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x40 : Shape := ⟨2, ![128, 40]⟩
abbrev S40 : Shape := ⟨1, ![40]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1600000x128 : Shape := ⟨2, ![1600000, 128]⟩
abbrev S1x128 : Shape := ⟨2, ![1, 128]⟩
abbrev S100000x40 : Shape := ⟨2, ![100000, 40]⟩
abbrev S1600000x40 : Shape := ⟨2, ![1600000, 40]⟩
abbrev S1x40 : Shape := ⟨2, ![1, 40]⟩

abbrev nBuf : Space → Nat
  | .hbm => 120
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x40, .f32⟩
  | .hbm, ⟨7, _⟩ => ⟨S40, .f32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S_, .f32⟩
  | .hbm, ⟨13, _⟩ => ⟨S1600000, .f32⟩
  | .hbm, ⟨14, _⟩ => ⟨S_, .f32⟩
  | .hbm, ⟨15, _⟩ => ⟨S100000, .f32⟩
  | .hbm, ⟨16, _⟩ => ⟨S1600000x1, .i32⟩
  | .hbm, ⟨17, _⟩ => ⟨S100000, .f32⟩
  | .hbm, ⟨18, _⟩ => ⟨S_, .f32⟩
  | .hbm, ⟨19, _⟩ => ⟨S100000, .f32⟩
  | .hbm, ⟨20, _⟩ => ⟨S1600000x1, .i32⟩
  | .hbm, ⟨21, _⟩ => ⟨S100000, .f32⟩
  | .hbm, ⟨22, _⟩ => ⟨S_, .f32⟩
  | .hbm, ⟨23, _⟩ => ⟨S100000, .f32⟩
  | .hbm, ⟨24, _⟩ => ⟨S100000, .f32⟩
  | .hbm, ⟨25, _⟩ => ⟨S_, .f32⟩
  | .hbm, ⟨26, _⟩ => ⟨S100000, .f32⟩
  | .hbm, ⟨27, _⟩ => ⟨S100000, .f32⟩
  | .hbm, ⟨28, _⟩ => ⟨S100000, .f32⟩
  | .hbm, ⟨29, _⟩ => ⟨S100000, .f32⟩
  | .hbm, ⟨30, _⟩ => ⟨S100000x128, .f32⟩
  | .hbm, ⟨31, _⟩ => ⟨S100000x1, .f32⟩
  | .hbm, ⟨32, _⟩ => ⟨S100000x128, .f32⟩
  | .hbm, ⟨33, _⟩ => ⟨S100000x128, .f32⟩
  | .hbm, ⟨34, _⟩ => ⟨S_, .i32⟩
  | .hbm, ⟨35, _⟩ => ⟨S1600000, .i32⟩
  | .hbm, ⟨36, _⟩ => ⟨S1600000, .i1⟩
  | .hbm, ⟨37, _⟩ => ⟨S_, .i32⟩
  | .hbm, ⟨38, _⟩ => ⟨S1600000, .i32⟩
  | .hbm, ⟨39, _⟩ => ⟨S1600000, .i32⟩
  | .hbm, ⟨40, _⟩ => ⟨S1600000, .i32⟩
  | .hbm, ⟨41, _⟩ => ⟨S1600000x1, .i32⟩
  | .hbm, ⟨42, _⟩ => ⟨S1600000x128, .f32⟩
  | .hbm, ⟨43, _⟩ => ⟨S_, .f32⟩
  | .hbm, ⟨44, _⟩ => ⟨S100000x128, .f32⟩
  | .hbm, ⟨45, _⟩ => ⟨S1600000x1, .i32⟩
  | .hbm, ⟨46, _⟩ => ⟨S100000x128, .f32⟩
  | .hbm, ⟨47, _⟩ => ⟨S100000x1, .f32⟩
  | .hbm, ⟨48, _⟩ => ⟨S100000x128, .f32⟩
  | .hbm, ⟨49, _⟩ => ⟨S100000x128, .f32⟩
  | .hbm, ⟨50, _⟩ => ⟨S1x128, .f32⟩
  | .hbm, ⟨51, _⟩ => ⟨S100000x128, .f32⟩
  | .hbm, ⟨52, _⟩ => ⟨S100000x128, .f32⟩
  | .hbm, ⟨53, _⟩ => ⟨S_, .f32⟩
  | .hbm, ⟨54, _⟩ => ⟨S100000x128, .f32⟩
  | .hbm, ⟨55, _⟩ => ⟨S100000x128, .f32⟩
  | .hbm, ⟨56, _⟩ => ⟨S100000x128, .f32⟩
  | .hbm, ⟨57, _⟩ => ⟨S100000x1, .f32⟩
  | .hbm, ⟨58, _⟩ => ⟨S100000x128, .f32⟩
  | .hbm, ⟨59, _⟩ => ⟨S100000x128, .f32⟩
  | .hbm, ⟨60, _⟩ => ⟨S_, .i32⟩
  | .hbm, ⟨61, _⟩ => ⟨S1600000, .i32⟩
  | .hbm, ⟨62, _⟩ => ⟨S1600000, .i1⟩
  | .hbm, ⟨63, _⟩ => ⟨S_, .i32⟩
  | .hbm, ⟨64, _⟩ => ⟨S1600000, .i32⟩
  | .hbm, ⟨65, _⟩ => ⟨S1600000, .i32⟩
  | .hbm, ⟨66, _⟩ => ⟨S1600000, .i32⟩
  | .hbm, ⟨67, _⟩ => ⟨S1600000x1, .i32⟩
  | .hbm, ⟨68, _⟩ => ⟨S1600000x128, .f32⟩
  | .hbm, ⟨69, _⟩ => ⟨S_, .f32⟩
  | .hbm, ⟨70, _⟩ => ⟨S100000x128, .f32⟩
  | .hbm, ⟨71, _⟩ => ⟨S1600000x1, .i32⟩
  | .hbm, ⟨72, _⟩ => ⟨S100000x128, .f32⟩
  | .hbm, ⟨73, _⟩ => ⟨S100000x1, .f32⟩
  | .hbm, ⟨74, _⟩ => ⟨S100000x128, .f32⟩
  | .hbm, ⟨75, _⟩ => ⟨S100000x128, .f32⟩
  | .hbm, ⟨76, _⟩ => ⟨S1x128, .f32⟩
  | .hbm, ⟨77, _⟩ => ⟨S100000x128, .f32⟩
  | .hbm, ⟨78, _⟩ => ⟨S100000x128, .f32⟩
  | .hbm, ⟨79, _⟩ => ⟨S_, .f32⟩
  | .hbm, ⟨80, _⟩ => ⟨S100000x128, .f32⟩
  | .hbm, ⟨81, _⟩ => ⟨S100000x128, .f32⟩
  | .hbm, ⟨82, _⟩ => ⟨S100000x40, .f32⟩
  | .hbm, ⟨83, _⟩ => ⟨S100000x1, .f32⟩
  | .hbm, ⟨84, _⟩ => ⟨S100000x40, .f32⟩
  | .hbm, ⟨85, _⟩ => ⟨S100000x40, .f32⟩
  | .hbm, ⟨86, _⟩ => ⟨S_, .i32⟩
  | .hbm, ⟨87, _⟩ => ⟨S1600000, .i32⟩
  | .hbm, ⟨88, _⟩ => ⟨S1600000, .i1⟩
  | .hbm, ⟨89, _⟩ => ⟨S_, .i32⟩
  | .hbm, ⟨90, _⟩ => ⟨S1600000, .i32⟩
  | .hbm, ⟨91, _⟩ => ⟨S1600000, .i32⟩
  | .hbm, ⟨92, _⟩ => ⟨S1600000, .i32⟩
  | .hbm, ⟨93, _⟩ => ⟨S1600000x1, .i32⟩
  | .hbm, ⟨94, _⟩ => ⟨S1600000x40, .f32⟩
  | .hbm, ⟨95, _⟩ => ⟨S_, .f32⟩
  | .hbm, ⟨96, _⟩ => ⟨S100000x40, .f32⟩
  | .hbm, ⟨97, _⟩ => ⟨S1600000x1, .i32⟩
  | .hbm, ⟨98, _⟩ => ⟨S100000x40, .f32⟩
  | .hbm, ⟨99, _⟩ => ⟨S100000x1, .f32⟩
  | .hbm, ⟨100, _⟩ => ⟨S100000x40, .f32⟩
  | .hbm, ⟨101, _⟩ => ⟨S100000x40, .f32⟩
  | .hbm, ⟨102, _⟩ => ⟨S1x40, .f32⟩
  | .hbm, ⟨103, _⟩ => ⟨S100000x40, .f32⟩
  | .hbm, ⟨104, _⟩ => ⟨S100000x40, .f32⟩
  | .hbm, ⟨105, _⟩ => ⟨S_, .f32⟩
  | .hbm, ⟨106, _⟩ => ⟨S100000, .f32⟩
  | .hbm, ⟨107, _⟩ => ⟨S_, .f32⟩
  | .hbm, ⟨108, _⟩ => ⟨S100000, .f32⟩
  | .hbm, ⟨109, _⟩ => ⟨S100000, .f32⟩
  | .hbm, ⟨110, _⟩ => ⟨S100000x1, .f32⟩
  | .hbm, ⟨111, _⟩ => ⟨S100000x40, .f32⟩
  | .hbm, ⟨112, _⟩ => ⟨S100000x40, .f32⟩
  | .hbm, ⟨113, _⟩ => ⟨S100000x40, .f32⟩
  | .hbm, ⟨114, _⟩ => ⟨S_, .f32⟩
  | .hbm, ⟨115, _⟩ => ⟨S100000, .f32⟩
  | .hbm, ⟨116, _⟩ => ⟨S100000x1, .f32⟩
  | .hbm, ⟨117, _⟩ => ⟨S100000x1, .f32⟩
  | .hbm, ⟨118, _⟩ => ⟨S100000x40, .f32⟩
  | .hbm, ⟨119, _⟩ => ⟨S100000x40, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_2 : Ref sig .tc := ⟨.hbm, 22, rfl⟩
abbrev main_v11 : Ref sig .tc := ⟨.hbm, 23, rfl⟩
abbrev main_v12 : Ref sig .tc := ⟨.hbm, 24, rfl⟩
abbrev main_cst_3 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_c : Ref sig .tc := ⟨.hbm, 34, rfl⟩
abbrev main_v21 : Ref sig .tc := ⟨.hbm, 35, rfl⟩
abbrev main_v22 : Ref sig .tc := ⟨.hbm, 36, rfl⟩
abbrev main_c_4 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_cst_5 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_call0_cst : Ref sig .tc := ⟨.hbm, 53, rfl⟩
abbrev main_call0_v0 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_c_6 : Ref sig .tc := ⟨.hbm, 60, rfl⟩
abbrev main_v42 : Ref sig .tc := ⟨.hbm, 61, rfl⟩
abbrev main_v43 : Ref sig .tc := ⟨.hbm, 62, rfl⟩
abbrev main_c_7 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_cst_8 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_call1_cst : Ref sig .tc := ⟨.hbm, 79, rfl⟩
abbrev main_call1_v0 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_c_9 : Ref sig .tc := ⟨.hbm, 86, rfl⟩
abbrev main_v63 : Ref sig .tc := ⟨.hbm, 87, rfl⟩
abbrev main_v64 : Ref sig .tc := ⟨.hbm, 88, rfl⟩
abbrev main_c_10 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_cst_11 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_call2_cst : Ref sig .tc := ⟨.hbm, 105, rfl⟩
abbrev main_call2_v0 : Ref sig .tc := ⟨.hbm, 106, rfl⟩
abbrev main_call2_cst_0 : Ref sig .tc := ⟨.hbm, 107, rfl⟩
abbrev main_call2_v1 : Ref sig .tc := ⟨.hbm, 108, rfl⟩
abbrev main_call2_v2 : Ref sig .tc := ⟨.hbm, 109, rfl⟩
abbrev main_call2_v3 : Ref sig .tc := ⟨.hbm, 110, rfl⟩
abbrev main_call2_v4 : Ref sig .tc := ⟨.hbm, 111, rfl⟩
abbrev main_call2_v5 : Ref sig .tc := ⟨.hbm, 112, rfl⟩
abbrev main_call2_v6 : Ref sig .tc := ⟨.hbm, 113, rfl⟩
abbrev main_call2_cst_1 : Ref sig .tc := ⟨.hbm, 114, rfl⟩
abbrev main_call2_v7 : Ref sig .tc := ⟨.hbm, 115, rfl⟩
abbrev main_call2_v8 : Ref sig .tc := ⟨.hbm, 116, rfl⟩
abbrev main_call2_v9 : Ref sig .tc := ⟨.hbm, 117, rfl⟩
abbrev main_call2_v10 : Ref sig .tc := ⟨.hbm, 118, rfl⟩
abbrev main_v79 : Ref sig .tc := ⟨.hbm, 119, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S100000x1_S100000x40_0_1 : S100000x1.BroadcastsInDim S100000x40 (![0, 1] : Fin 2 → Fin S100000x40.rank)
  bcast_S_S100000x40 : S_.BroadcastsInDim S100000x40 (![] : Fin 0 → Fin S100000x40.rank)
  bcast_S40_S1x40_1 : S40.BroadcastsInDim S1x40 (![1] : Fin 1 → Fin S1x40.rank)
  bcast_S1x40_S100000x40_0_1 : S1x40.BroadcastsInDim S100000x40 (![0, 1] : Fin 2 → Fin S100000x40.rank)
  reducesTo_S100000x40_S100000_d1 : S100000x40.ReducesTo [1] S100000
  h_S_ : 0 < S_.numel
  scatter_S100000_S1600000x1_S1600000_n_0_0_1_wf : ScatterDims.WF S100000 S1600000x1 S1600000 [] [0] [0] 1
  dot_S100000x128_S128x128_S100000x128_1_0_0_1_n_n_wf : DotDims.WF S100000x128 S128x128 S100000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x40_S100000x40_1_0_0_1_n_n_wf : DotDims.WF S100000x128 S128x40 S100000x40 [1] [0] [0] [1] [] []
  gather_S100000x40_S1600000x1_S1600000x40_1_0_n_n_0_1_140_wf : GatherDims.WF S100000x40 S1600000x1 S1600000x40 [1] [0] [] [0] [] 1 ![1, 40]
  scatter_S100000x40_S1600000x1_S1600000x40_1_0_0_1_wf : ScatterDims.WF S100000x40 S1600000x1 S1600000x40 [1] [0] [0] 1

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x40_S100000x40_1_0_0_1_n_n : DotDims S100000x128 S128x40 S100000x40 where
  lhsContracting := [1]
  rhsContracting := [0]
  lhsNonContracting := [0]
  rhsNonContracting := [1]
  lhsBatch := []
  rhsBatch := []
  wf := dot_S100000x128_S128x40_S100000x40_1_0_0_1_n_n_wf
def gather_S100000x40_S1600000x1_S1600000x40_1_0_n_n_0_1_140 : GatherDims S100000x40 S1600000x1 S1600000x40 where
  offsetDims := [1]
  collapsedSliceDims := [0]
  operandBatchingDims := []
  startIndicesBatchingDims := []
  startIndexMap := [0]
  indexVectorDim := 1
  sliceSizes := ![1, 40]
  wf := gather_S100000x40_S1600000x1_S1600000x40_1_0_n_n_0_1_140_wf
def scatter_S100000x40_S1600000x1_S1600000x40_1_0_0_1 : ScatterDims S100000x40 S1600000x1 S1600000x40 where
  updateWindowDims := [1]
  insertedWindowDims := [0]
  scatterDimsToOperandDims := [0]
  indexVectorDim := 1
  wf := scatter_S100000x40_S1600000x1_S1600000x40_1_0_0_1_wf

class Facts : Prop extends Facts₀ where

variable [Facts]
-- ==== Proof.LibPlainDot.lean ====
/-
  A plain matrix product read at an entry.

  A contraction whose dimension numbers say "the second axis of an [A, K] operand against the first axis of a [K, B]
  operand, no batch axis, result [A, B]" reads its left operand at (row of the result, k) and its right operand at
  (k, column of the result), `k` ranging over the one contracted axis.  So the sum over the contraction index of the
  operands' products, at result entry (p, c), is `Σ_{k < K} l (p, k) · r (k, c)`; a `tpu.matmul` into the zero splat
  is exactly that sum at the ideal values.  Generic in A, K, B and in the record: the hypotheses are the record's six lists.
-/
import Idealize.ShloMosaic.PureOps.Ideal.Laws
import Idealize.ShloMosaic.Lib.ValueIdx

noncomputable section

namespace Cert.LibPlainDot

open Idealize.ShloMosaic Idealize.ShloMosaic.ValueIdx

/-- The dimension numbers of a plain product `[A, K] × [K, B] → [A, B]`. -/
structure Plain {A K B : Nat} (D : DotDims ⟨2, ![A, K]⟩ ⟨2, ![K, B]⟩ ⟨2, ![A, B]⟩) : Prop where
  lc : D.lhsContracting = [1]
  rc : D.rhsContracting = [0]
  ln : D.lhsNonContracting = [0]
  rn : D.rhsNonContracting = [1]
  lb : D.lhsBatch = []
  rb : D.rhsBatch = []

variable {A K B : Nat} {D : DotDims ⟨2, ![A, K]⟩ ⟨2, ![K, B]⟩ ⟨2, ![A, B]⟩}

/-- One axis is contracted. -/
theorem Plain.rank (h : Plain D) : D.contr.rank = 1 := by rw [D.rank_contr, h.lc]; rfl

/-- Its extent is `K`. -/
theorem Plain.size (h : Plain D) : D.contr.size ⟨0, by rw [h.rank]; exact Nat.one_pos⟩ = K := by
  rw [D.size_contr 0 (by rw [h.lc]; exact Nat.one_pos)]
  simp only [h.lc, List.getElem_cons_zero]
  rfl

/-- The left operand is read at the result's row … -/
theorem Plain.lhs0 (h : Plain D) (j : (⟨2, ![A, B]⟩ : Shape).Idx) (q : D.contr.Idx) : (D.lhsIdx j q 0).val = (j 0).val := by
  unfold DotDims.lhsIdx
  rw [dif_neg (by rw [h.lb]; exact List.not_mem_nil), dif_pos (by rw [h.ln]; exact List.mem_singleton.mpr rfl)]
  simp only [Fin.val_cast]
  have key : ∀ (a b : Nat) (ha : a < (⟨2, ![A, B]⟩ : Shape).rank) (hb : b < (⟨2, ![A, B]⟩ : Shape).rank), a = b →
      (j ⟨a, ha⟩).val = (j ⟨b, hb⟩).val := fun a b ha hb e => by subst e; rfl
  exact key _ _ _ _ (by simp [h.lb, h.ln])

/-- … and the contraction position, -/
theorem Plain.lhs1 (h : Plain D) (j : (⟨2, ![A, B]⟩ : Shape).Idx) (q : D.contr.Idx) :
    (D.lhsIdx j q 1).val = (q ⟨0, by rw [h.rank]; exact Nat.one_pos⟩).val :=
  D.lhsIdx_val_of_single h.lc j q

/-- the right operand at the contraction position … -/
theorem Plain.rhs0 (h : Plain D) (j : (⟨2, ![A, B]⟩ : Shape).Idx) (q : D.contr.Idx) :
    (D.rhsIdx j q 0).val = (q ⟨0, by rw [h.rank]; exact Nat.one_pos⟩).val :=
  D.rhsIdx_val_of_single h.rc j q

/-- … and the result's column. -/
theorem Plain.rhs1 (h : Plain D) (j : (⟨2, ![A, B]⟩ : Shape).Idx) (q : D.contr.Idx) : (D.rhsIdx j q 1).val = (j 1).val := by
  unfold DotDims.rhsIdx
  rw [dif_neg (by rw [h.rb]; exact List.not_mem_nil), dif_pos (by rw [h.rn]; exact List.mem_singleton.mpr rfl)]
  simp only [Fin.val_cast]
  have key : ∀ (a b : Nat) (ha : a < (⟨2, ![A, B]⟩ : Shape).rank) (hb : b < (⟨2, ![A, B]⟩ : Shape).rank), a = b →
      (j ⟨a, ha⟩).val = (j ⟨b, hb⟩).val := fun a b ha hb e => by subst e; rfl
  exact key _ _ _ _ (by simp [h.lb, h.ln, h.rn])

/-- The contraction sum at result entry `(p, c)` is `Σ_k l (p, k) · r (k, c)`. -/
theorem Plain.sum_eq (h : Plain D) (l : (⟨2, ![A, K]⟩ : Shape).Idx → EReal) (r : (⟨2, ![K, B]⟩ : Shape).Idx → EReal)
    (p : Fin A) (c : Fin B) :
    ∑ q : D.contr.Idx, l (D.lhsIdx (ix2 p c) q) * r (D.rhsIdx (ix2 p c) q) = ∑ k : Fin K, l (ix2 p k) * r (ix2 k c) := by
  rw [← Equiv.sum_comp (contrEquiv1 D K h.rank h.size).symm]
  refine Finset.sum_congr rfl fun k _ => ?_
  have hk := contrEquiv1_symm_val D K h.rank h.size k
  have el : D.lhsIdx (ix2 p c) ((contrEquiv1 D K h.rank h.size).symm k) = ix2 p k := funext fun a => Fin.ext (by
    match a with
    | ⟨0, _⟩ => exact h.lhs0 _ _
    | ⟨1, _⟩ => exact (h.lhs1 _ _).trans hk)
  have er : D.rhsIdx (ix2 p c) ((contrEquiv1 D K h.rank h.size).symm k) = ix2 k c := funext fun a => Fin.ext (by
    match a with
    | ⟨0, _⟩ => exact (h.rhs0 _ _).trans hk
    | ⟨1, _⟩ => exact h.rhs1 _ _)
  rw [el, er]

/-- A `tpu.matmul` of such dimension numbers into the zero accumulator, at the ideal values, read at `(p, c)`. -/
theorem Plain.matmul_zero_apply (h : Plain D) (prec : Option ContractPrecision)
    (l : FVec Ideal ⟨2, ![A, K]⟩ .f32) (r : FVec Ideal ⟨2, ![K, B]⟩ .f32) (p : Fin A) (c : Fin B) :
    FloatOps.matmul D prec l r (constant ⟨2, ![A, B]⟩ .f32 0x00000000#32) (ix2 p c) = ∑ k : Fin K, l (ix2 p k) * r (ix2 k c) :=
  (Ideal.matmul_constant_zero_apply D prec l r (ix2 p c)).trans (h.sum_eq l r p c)

/-- A host `dot_general` of such dimension numbers, at the ideal values, read at `(p, c)`. -/
theorem Plain.dotGeneral_apply (h : Plain D) (prec : Option ContractPrecision) (sched : HostSchedule)
    (l : FVec Ideal ⟨2, ![A, K]⟩ .f32) (r : FVec Ideal ⟨2, ![K, B]⟩ .f32) (p : Fin A) (c : Fin B) :
    FloatOps.dotGeneral D prec sched l r (ix2 p c) = ∑ k : Fin K, l (ix2 p k) * r (ix2 k c) :=
  (Ideal.dotGeneral_apply D prec sched l r (ix2 p c)).trans (h.sum_eq l r p c)

end Cert.LibPlainDot

end
-- ==== Proof.LibPlainDotFormats.lean ====
/-
  A plain matrix product `[A, K] × [K, B] → [A, B]` into the zero accumulator read at an entry, for operands of ANY
  float formats: over the extended reals a format only names the set the entries came from, so the sum
  `Σ_{k < K} l (p, k) · r (k, c)` is the same whatever the two formats are.
-/
import proofs.«133676_j45578192945656_1_alg».proof.Proof.LibPlainDot

noncomputable section

namespace Cert.LibPlainDot

open Idealize.ShloMosaic Idealize.ShloMosaic.ValueIdx

variable {A K B : Nat} {D : DotDims ⟨2, ![A, K]⟩ ⟨2, ![K, B]⟩ ⟨2, ![A, B]⟩}

/-- A `tpu.matmul` of plain dimension numbers into the zero accumulator, at the ideal values, read at `(p, c)`,
    whatever the operands' formats. -/
theorem Plain.matmul_zero_apply_formats (h : Plain D) (prec : Option ContractPrecision) {φ₁ φ₂ : FTy}
    (l : FVec Ideal ⟨2, ![A, K]⟩ φ₁) (r : FVec Ideal ⟨2, ![K, B]⟩ φ₂) (p : Fin A) (c : Fin B) :
    FloatOps.matmul D prec l r (constant ⟨2, ![A, B]⟩ .f32 0x00000000#32) (ix2 p c) = ∑ k : Fin K, l (ix2 p k) * r (ix2 k c) :=
  (Ideal.matmul_constant_zero_apply D prec l r (ix2 p c)).trans (h.sum_eq l r p c)

end Cert.LibPlainDot

end
-- ==== Proof.LibKeepdims.lean ====
/-
  Three layout facts a row reduction with kept dimensions meets, each read at an entry given by its coordinates:
  a vector of per-row values viewed as a one-column array, a one-column array spread across the columns of each
  row, and the sum along the second axis of a two-axis array.  They hold for arrays of any extents `[a]`,
  `[a, 1]`, `[a, b]` and, the first two, for entries of any type.
-/
import Idealize.ShloMosaic.Lib.Pipeline.Value
import Idealize.ShloMosaic.Lib.ValueIdx
import Idealize.ShloMosaic.PureOps.Ideal.Laws

noncomputable section

open scoped BigOperators

namespace Cert.LibKeepdims

open Idealize.ShloMosaic Idealize.ShloMosaic.ValueIdx

variable {α : Type}

/-- An `[a]` array cast to `[a, 1]` reads, at `(i, u)`, the operand at `i`: both sit at row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(i, j)`, the operand's one entry of row `i`. -/
theorem broadcastTo_a1_ab_apply {a b : ℕ} (v : (⟨2, ![a, 1]⟩ : Shape).Idx → α) (h : (⟨2, ![a, 1]⟩ : Shape).Broadcasts ⟨2, ![a, b]⟩)
    (i : Fin a) (j : Fin b) : broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

/-- Over the extended reals, the sum of a `[a, b]` array along its second axis, started from the zero word, is at
    row `i` the sum over the columns `k` of the entries `(i, k)`. -/
theorem multiReduction_add_rows_apply {a b : ℕ} (src : FVec Ideal ⟨2, ![a, b]⟩ .f32)
    (h : (⟨2, ![a, b]⟩ : Shape).Reduces [1] ⟨1, ![a]⟩) (hφ : FKind.Formats .f32)
    (hacc : (0x00000000#32 : BitVec 32) = FKind.add.neutral .f32 hφ) (i : Fin a) :
    multiReduction .add [1] ⟨1, ![a]⟩ src 0x00000000#32 h hφ hacc (ix1 i) = ∑ k : Fin b, src (ix2 i k) := by
  refine (Ideal.multiReduction_add_single src 0x00000000#32 h hφ hacc (ix1 i)).trans ?_
  refine Finset.sum_congr rfl fun k _ => congrArg src ?_
  funext ax
  apply Fin.ext
  match ax with
  | ⟨0, _⟩ => rfl
  | ⟨1, _⟩ => rfl

end Cert.LibKeepdims

end
-- ==== Proof.LibJoinedRows.lean ====
/-
  Layout reads a gather / scatter pipeline over an edge list meets, each at an entry given by its coordinates, generic in
  the extents and (but for the last section) the entry type:

  * a scalar spread over any shape reads the scalar everywhere;
  * a vector `[a]` made a column `[a, 1]` reads, at `(i, 0)`, the vector's entry `i`;
  * a column `[a, 1]` spread across `[a, b]` reads, at `(i, j)`, the column's entry `i`;
  * the transpose of an `[a, b]` matrix reads, at `(j, i)`, the matrix at `(i, j)`;
  * two arrays joined along their first axis (`[E₁, C]` and `[E₂, C]` into `[T, C]`; `[E₁]` and `[E₂]` into `[T]`) read
    the first piece at a row below `E₁` and the second piece, `E₁` rows up, at or above it;
  * a sum over the `T = E₁ + E₂` rows of a joined array is the sum over the first piece's rows plus the sum over the
    second piece's.
-/
import Idealize.ShloMosaic.Lib.Pipeline.Value
import Idealize.ShloMosaic.Lib.ValueIdx

noncomputable section

open scoped BigOperators

namespace Cert.LibJoinedRows

open Idealize.ShloMosaic Idealize.ShloMosaic.ValueIdx

variable {α : Type}

/-- A scalar spread over a shape reads the scalar at every index. -/
theorem bcast_scalar_apply {t : Shape} (h : (⟨0, ![]⟩ : Shape).BroadcastsInDim t (![] : Fin 0 → Fin t.rank))
    (x : (⟨0, ![]⟩ : Shape).Idx → α) (j : t.Idx) : broadcastInDim t ![] h x j = x ix0 :=
  broadcastInDim_apply _ h x j ix0 (fun a => a.elim0)

/-- A vector made a column reads the vector's entry. -/
theorem bcast_vec_col_apply {a : ℕ} (h : (⟨1, ![a]⟩ : Shape).BroadcastsInDim ⟨2, ![a, 1]⟩ (![0] : Fin 1 → Fin 2))
    (x : (⟨1, ![a]⟩ : Shape).Idx → α) (i : Fin a) (u : Fin 1) :
    broadcastInDim ⟨2, ![a, 1]⟩ ![0] h x (ix2 i u) = x (ix1 i) := by
  refine broadcastInDim_apply _ h x _ (ix1 i) fun ax => ?_
  match ax with
  | ⟨0, _⟩ =>
    show i.val = if a = 1 then 0 else i.val
    split
    · have := i.isLt; omega
    · rfl

/-- A column spread across the columns of each row reads the column's entry of that row. -/
theorem bcast_col_rows_apply {a b : ℕ} (h : (⟨2, ![a, 1]⟩ : Shape).BroadcastsInDim ⟨2, ![a, b]⟩ (![0, 1] : Fin 2 → Fin 2))
    (x : (⟨2, ![a, 1]⟩ : Shape).Idx → α) (i : Fin a) (j : Fin b) :
    broadcastInDim ⟨2, ![a, b]⟩ ![0, 1] h x (ix2 i j) = x (ix2 i (0 : Fin 1)) := by
  refine broadcastInDim_apply _ h x _ (ix2 i (0 : Fin 1)) fun ax => ?_
  match ax with
  | ⟨0, _⟩ =>
    show i.val = if a = 1 then 0 else i.val
    split
    · have := i.isLt; omega
    · rfl
  | ⟨1, _⟩ => rfl

/-- The transpose of a matrix reads the matrix at the swapped coordinates. -/
theorem transpose2_apply {a b : ℕ} (h : (⟨2, ![a, b]⟩ : Shape).Transposes [1, 0] ⟨2, ![b, a]⟩)
    (x : (⟨2, ![a, b]⟩ : Shape).Idx → α) (j : Fin b) (i : Fin a) :
    transpose ⟨2, ![b, a]⟩ [1, 0] x h (ix2 j i) = x (ix2 i j) := by
  refine transpose_apply [1, 0] x h (ix2 j i) (ix2 i j) fun bx => ?_
  match bx with
  | ⟨0, _⟩ => rfl
  | ⟨1, _⟩ => rfl

/-! ## Two arrays joined along the first axis -/

section Join
variable {E1 E2 T C : ℕ}

/-- A row below the first piece's extent reads the first piece. -/
theorem join_rows_left (h : Shape.Concatenates [(⟨2, ![E1, C]⟩ : Shape), ⟨2, ![E2, C]⟩] ⟨2, ![T, C]⟩ 0)
    (x₁ : (⟨2, ![E1, C]⟩ : Shape).Idx → α) (x₂ : (⟨2, ![E2, C]⟩ : Shape).Idx → α) (e : Fin E1) (he : e.val < T) (c : Fin C) :
    concatenate ⟨2, ![T, C]⟩ 0 [⟨_, x₁⟩, ⟨_, x₂⟩] h (ix2 ⟨e.val, he⟩ c) = x₁ (ix2 e c) :=
  concatenate_pair_apply_left 0 x₁ x₂ h _ rfl (ix2 e c) (fun b => by
    match b with
    | ⟨0, _⟩ => rfl
    | ⟨1, _⟩ => rfl)

/-- A row at or above it reads the second piece, that many rows up. -/
theorem join_rows_right (h : Shape.Concatenates [(⟨2, ![E1, C]⟩ : Shape), ⟨2, ![E2, C]⟩] ⟨2, ![T, C]⟩ 0)
    (x₁ : (⟨2, ![E1, C]⟩ : Shape).Idx → α) (x₂ : (⟨2, ![E2, C]⟩ : Shape).Idx → α) (e : Fin E2) (he : E1 + e.val < T) (c : Fin C) :
    concatenate ⟨2, ![T, C]⟩ 0 [⟨_, x₁⟩, ⟨_, x₂⟩] h (ix2 ⟨E1 + e.val, he⟩ c) = x₂ (ix2 e c) :=
  concatenate_pair_apply_right 0 x₁ x₂ h _ rfl rfl (ix2 e c) (fun b hb => by
    match b with
    | ⟨0, _⟩ => exact absurd rfl hb
    | ⟨1, _⟩ => rfl) (by show e.val + E1 = E1 + e.val; omega)

/-- The same for one-axis arrays: an entry below the first piece's extent … -/
theorem join_vec_left (h : Shape.Concatenates [(⟨1, ![E1]⟩ : Shape), ⟨1, ![E2]⟩] ⟨1, ![T]⟩ 0)
    (x₁ : (⟨1, ![E1]⟩ : Shape).Idx → α) (x₂ : (⟨1, ![E2]⟩ : Shape).Idx → α) (e : Fin E1) (he : e.val < T) :
    concatenate ⟨1, ![T]⟩ 0 [⟨_, x₁⟩, ⟨_, x₂⟩] h (ix1 ⟨e.val, he⟩) = x₁ (ix1 e) :=
  concatenate_pair_apply_left 0 x₁ x₂ h _ rfl (ix1 e) (fun b => by
    match b with
    | ⟨0, _⟩ => rfl)

/-- … and one at or above it. -/
theorem join_vec_right (h : Shape.Concatenates [(⟨1, ![E1]⟩ : Shape), ⟨1, ![E2]⟩] ⟨1, ![T]⟩ 0)
    (x₁ : (⟨1, ![E1]⟩ : Shape).Idx → α) (x₂ : (⟨1, ![E2]⟩ : Shape).Idx → α) (e : Fin E2) (he : E1 + e.val < T) :
    concatenate ⟨1, ![T]⟩ 0 [⟨_, x₁⟩, ⟨_, x₂⟩] h (ix1 ⟨E1 + e.val, he⟩) = x₂ (ix1 e) :=
  concatenate_pair_apply_right 0 x₁ x₂ h _ rfl rfl (ix1 e) (fun b hb => by
    match b with
    | ⟨0, _⟩ => exact absurd rfl hb) (by show e.val + E1 = E1 + e.val; omega)

/-- A sum over `T = E₁ + E₂` rows is the sum over the first `E₁` plus the sum over the last `E₂`. -/
theorem sum_rows_split {M : Type} [AddCommMonoid M] (hT : T = E1 + E2) (f : Fin T → M) :
    ∑ e', f e' = ∑ e : Fin E1, f ⟨e.val, by omega⟩ + ∑ e : Fin E2, f ⟨E1 + e.val, by omega⟩ := by
  subst hT
  rw [Fin.sum_univ_add]
  congr 1 <;> exact Finset.sum_congr rfl fun e _ => congrArg f (Fin.ext rfl)

end Join

end Cert.LibJoinedRows

end
-- ==== Proof.LibRowBcast.lean ====
/-
  A vector spread down the rows of a table by two host broadcasts, read at an entry: `[b] → [1, b]` (the vector laid
  along axis 1 of a one-row array) and `[1, b] → [a, b]` (the row repeated); entry `(i, j)` of the result is the
  vector's entry `j`.  Generic in the extents and the entry type.
-/
import Idealize.ShloMosaic.Lib.Pipeline.Value
import Idealize.ShloMosaic.Lib.ValueIdx

noncomputable section

namespace Cert.LibRowBcast

open Idealize.ShloMosaic Idealize.ShloMosaic.ValueIdx

variable {α : Type}

/-- A vector made a one-row array reads the vector's entry. -/
theorem bcast_vec_row_apply {b : ℕ} (h : (⟨1, ![b]⟩ : Shape).BroadcastsInDim ⟨2, ![1, b]⟩ (![1] : Fin 1 → Fin 2))
    (x : (⟨1, ![b]⟩ : Shape).Idx → α) (u : Fin 1) (j : Fin b) :
    broadcastInDim ⟨2, ![1, b]⟩ ![1] h x (ix2 u j) = x (ix1 j) := by
  refine broadcastInDim_apply _ h x _ (ix1 j) fun ax => ?_
  match ax with
  | ⟨0, _⟩ =>
    show j.val = if b = 1 then 0 else j.val
    split
    · have := j.isLt; omega
    · rfl

/-- A one-row array repeated down the rows reads the row's entry of that column. -/
theorem bcast_row_rows_apply {a b : ℕ} (h : (⟨2, ![1, b]⟩ : Shape).BroadcastsInDim ⟨2, ![a, b]⟩ (![0, 1] : Fin 2 → Fin 2))
    (x : (⟨2, ![1, b]⟩ : Shape).Idx → α) (i : Fin a) (j : Fin b) :
    broadcastInDim ⟨2, ![a, b]⟩ ![0, 1] h x (ix2 i j) = x (ix2 (0 : Fin 1) j) := by
  refine broadcastInDim_apply _ h x _ (ix2 (0 : Fin 1) j) fun ax => ?_
  match ax with
  | ⟨0, _⟩ => rfl
  | ⟨1, _⟩ =>
    show j.val = if b = 1 then 0 else j.val
    split
    · have := j.isLt; omega
    · rfl

/-- The two together: the vector's entry `j` at every row. -/
theorem bcast_vec_rows_apply {a b : ℕ} (h₁ : (⟨1, ![b]⟩ : Shape).BroadcastsInDim ⟨2, ![1, b]⟩ (![1] : Fin 1 → Fin 2))
    (h₂ : (⟨2, ![1, b]⟩ : Shape).BroadcastsInDim ⟨2, ![a, b]⟩ (![0, 1] : Fin 2 → Fin 2))
    (x : (⟨1, ![b]⟩ : Shape).Idx → α) (i : Fin a) (j : Fin b) :
    broadcastInDim ⟨2, ![a, b]⟩ ![0, 1] h₂ (broadcastInDim ⟨2, ![1, b]⟩ ![1] h₁ x) (ix2 i j) = x (ix1 j) :=
  (bcast_row_rows_apply h₂ _ i j).trans (bcast_vec_row_apply h₁ x 0 j)

end Cert.LibRowBcast

end
-- ==== Proof.LibTileOps.lean ====
/-
  The three array operations a two-layer graph convolution is made of, entry by entry, and the two ways each is spelt.

  * `matProd x w`: the matrix product, entry (p, c) the sum over k of x(p, k) · w(k, c).
  * `scaleRows x n`: row p of x multiplied by the p-th entry of a one-column array n.
  * `addRow x b`: a one-row array b added to every row of x; `addRowClamp x b` the same, then the maximum with the
    zero literal's value.

  Each is what a tiled kernel computes block by block, and each is also a composition of whole-array host operations:
  a dot_general; a product with a vector broadcast to one column and then along the rows; a sum with a vector broadcast
  to one row and then down the columns; and a maximum with a broadcast scalar.  A vector cast to a column (or a row)
  and the same vector broadcast to a column (or a row) are the same array, which is where the two spellings meet.
  Nothing here needs an entry to be finite: every equation is the same product, sum or maximum of the same entries.
  Generic in the extents A, K, B and in the records of the host operations.
-/
import Idealize.ShloMosaic.PureOps.Ideal.Laws
import Idealize.ShloMosaic.Lib.ValueIdx
import Idealize.ShloMosaic.Lib.ValueLayout
import Idealize.ShloMosaic.Lib.Pipeline.Value
import proofs.«133676_j45578192945656_1_alg».proof.Proof.LibPlainDotFormats
import proofs.«133676_j45578192945656_1_alg».proof.Proof.LibKeepdims
import proofs.«133676_j45578192945656_1_alg».proof.Proof.LibJoinedRows
import proofs.«133676_j45578192945656_1_alg».proof.Proof.LibRowBcast

noncomputable section

namespace Cert.LibTileOps

open Idealize.ShloMosaic Idealize.ShloMosaic.ValueIdx
open scoped BigOperators

variable {A K B : ℕ}

/-- The matrix product, entry by entry. -/
def matProd (x : FVec Ideal ⟨2, ![A, K]⟩ .f32) (w : FVec Ideal ⟨2, ![K, B]⟩ .f32) : FVec Ideal ⟨2, ![A, B]⟩ .f32 :=
  fun i => ∑ k : Fin K, x (ix2 (i 0) k) * w (ix2 k (i 1))

/-- Row `p` multiplied by entry `p` of a one-column array. -/
def scaleRows (x : FVec Ideal ⟨2, ![A, B]⟩ .f32) (n : FVec Ideal ⟨2, ![A, 1]⟩ .f32) : FVec Ideal ⟨2, ![A, B]⟩ .f32 :=
  fun i => x i * n (ix2 (i 0) (0 : Fin 1))

/-- A one-row array added to every row. -/
def addRow (x : FVec Ideal ⟨2, ![A, B]⟩ .f32) (b : FVec Ideal ⟨2, ![1, B]⟩ .f32) : FVec Ideal ⟨2, ![A, B]⟩ .f32 :=
  fun i => x i + b (ix2 (0 : Fin 1) (i 1))

/-- A one-row array added to every row, then the maximum with the zero literal's value. -/
def addRowClamp (x : FVec Ideal ⟨2, ![A, B]⟩ .f32) (b : FVec Ideal ⟨2, ![1, B]⟩ .f32) : FVec Ideal ⟨2, ![A, B]⟩ .f32 :=
  fun i => max (x i + b (ix2 (0 : Fin 1) (i 1))) (Ideal.ofBits .f32 0x00000000#32)

theorem matProd_apply (x : FVec Ideal ⟨2, ![A, K]⟩ .f32) (w : FVec Ideal ⟨2, ![K, B]⟩ .f32) (p : Fin A) (c : Fin B) :
    matProd x w (ix2 p c) = ∑ k : Fin K, x (ix2 p k) * w (ix2 k c) := rfl

theorem scaleRows_apply (x : FVec Ideal ⟨2, ![A, B]⟩ .f32) (n : FVec Ideal ⟨2, ![A, 1]⟩ .f32) (p : Fin A) (q : Fin B) :
    scaleRows x n (ix2 p q) = x (ix2 p q) * n (ix2 p (0 : Fin 1)) := rfl

theorem addRow_apply (x : FVec Ideal ⟨2, ![A, B]⟩ .f32) (b : FVec Ideal ⟨2, ![1, B]⟩ .f32) (p : Fin A) (q : Fin B) :
    addRow x b (ix2 p q) = x (ix2 p q) + b (ix2 (0 : Fin 1) q) := rfl

theorem addRowClamp_apply (x : FVec Ideal ⟨2, ![A, B]⟩ .f32) (b : FVec Ideal ⟨2, ![1, B]⟩ .f32) (p : Fin A) (q : Fin B) :
    addRowClamp x b (ix2 p q) = max (x (ix2 p q) + b (ix2 (0 : Fin 1) q)) (Ideal.ofBits .f32 0x00000000#32) := rfl

/-! ## The host spellings -/

/-- A host dot_general of plain dimension numbers is the matrix product. -/
theorem dotGeneral_eq_matProd {D : DotDims ⟨2, ![A, K]⟩ ⟨2, ![K, B]⟩ ⟨2, ![A, B]⟩} (h : Cert.LibPlainDot.Plain D)
    (prec : Option ContractPrecision) (x : FVec Ideal ⟨2, ![A, K]⟩ .f32) (w : FVec Ideal ⟨2, ![K, B]⟩ .f32) :
    Host.dotGeneral D prec x w = matProd x w := by
  funext i
  obtain ⟨p, c, rfl⟩ : ∃ (p : Fin A) (c : Fin B), i = ix2 p c := ⟨i 0, i 1, eq_ix2 i⟩
  simp only [Host.dotGeneral]
  exact h.dotGeneral_apply prec _ x w p c

/-- A product with a vector broadcast to one column and then along the rows scales row `p` by the vector's entry
    `p`: the vector cast to a column is the same column. -/
theorem mulf_bcast_col_eq_scaleRows
    (h1 : (⟨1, ![A]⟩ : Shape).BroadcastsInDim ⟨2, ![A, 1]⟩ (![0] : Fin 1 → Fin 2))
    (h2 : (⟨2, ![A, 1]⟩ : Shape).BroadcastsInDim ⟨2, ![A, B]⟩ (![0, 1] : Fin 2 → Fin 2))
    (hc : (⟨1, ![A]⟩ : Shape).ShapeCasts ⟨2, ![A, 1]⟩)
    (y : FVec Ideal ⟨2, ![A, B]⟩ .f32) (n : FVec Ideal ⟨1, ![A]⟩ .f32) :
    mulf y (broadcastInDim ⟨2, ![A, B]⟩ ![0, 1] h2 (broadcastInDim ⟨2, ![A, 1]⟩ ![0] h1 n))
      = scaleRows y (shapeCast ⟨2, ![A, 1]⟩ n hc) := by
  funext i
  obtain ⟨p, q, rfl⟩ : ∃ (p : Fin A) (q : Fin B), i = ix2 p q := ⟨i 0, i 1, eq_ix2 i⟩
  rw [scaleRows_apply, mulf_apply, Cert.LibJoinedRows.bcast_col_rows_apply, Cert.LibJoinedRows.bcast_vec_col_apply,
    Cert.LibKeepdims.shapeCast_a_a1_apply]

/-- A sum with a vector broadcast to one row and then down the columns adds the vector's entry `q` to column `q`:
    the vector cast to a row is the same row. -/
theorem addf_bcast_row_eq_addRow
    (h1 : (⟨1, ![B]⟩ : Shape).BroadcastsInDim ⟨2, ![1, B]⟩ (![1] : Fin 1 → Fin 2))
    (h2 : (⟨2, ![1, B]⟩ : Shape).BroadcastsInDim ⟨2, ![A, B]⟩ (![0, 1] : Fin 2 → Fin 2))
    (hc : (⟨1, ![B]⟩ : Shape).ShapeCasts ⟨2, ![1, B]⟩)
    (y : FVec Ideal ⟨2, ![A, B]⟩ .f32) (b : FVec Ideal ⟨1, ![B]⟩ .f32) :
    addf y (broadcastInDim ⟨2, ![A, B]⟩ ![0, 1] h2 (broadcastInDim ⟨2, ![1, B]⟩ ![1] h1 b))
      = addRow y (shapeCast ⟨2, ![1, B]⟩ b hc) := by
  funext i
  obtain ⟨p, q, rfl⟩ : ∃ (p : Fin A) (q : Fin B), i = ix2 p q := ⟨i 0, i 1, eq_ix2 i⟩
  rw [addRow_apply, addf_apply, Cert.LibRowBcast.bcast_vec_rows_apply, shapeCast_a_1a_apply]

/-- The same, followed by the maximum with a broadcast zero literal. -/
theorem maximumf_addf_bcast_row_eq_addRowClamp
    (h1 : (⟨1, ![B]⟩ : Shape).BroadcastsInDim ⟨2, ![1, B]⟩ (![1] : Fin 1 → Fin 2))
    (h2 : (⟨2, ![1, B]⟩ : Shape).BroadcastsInDim ⟨2, ![A, B]⟩ (![0, 1] : Fin 2 → Fin 2))
    (hc : (⟨1, ![B]⟩ : Shape).ShapeCasts ⟨2, ![1, B]⟩)
    (h0 : (⟨0, ![]⟩ : Shape).BroadcastsInDim ⟨2, ![A, B]⟩ (![] : Fin 0 → Fin 2))
    (y : FVec Ideal ⟨2, ![A, B]⟩ .f32) (b : FVec Ideal ⟨1, ![B]⟩ .f32) :
    maximumf (addf y (broadcastInDim ⟨2, ![A, B]⟩ ![0, 1] h2 (broadcastInDim ⟨2, ![1, B]⟩ ![1] h1 b)))
        (broadcastInDim ⟨2, ![A, B]⟩ ![] h0 (constant (F := Ideal) ⟨0, ![]⟩ .f32 0x00000000#32))
      = addRowClamp y (shapeCast ⟨2, ![1, B]⟩ b hc) := by
  funext i
  obtain ⟨p, q, rfl⟩ : ∃ (p : Fin A) (q : Fin B), i = ix2 p q := ⟨i 0, i 1, eq_ix2 i⟩
  rw [addRowClamp_apply, maximumf_apply, addf_apply, Cert.LibRowBcast.bcast_vec_rows_apply, shapeCast_a_1a_apply,
    Cert.LibJoinedRows.bcast_scalar_apply, constant_apply]

end Cert.LibTileOps

end
-- ==== Proof.Spec.lean ====
/-
  A three-layer graph convolution as whole-array functions.

  A layer multiplies the node features by a weight matrix, scales row p (node p) by the p-th entry of a one-column
  array (the inverse square root of the node's out-degree), aggregates the rows along the edges, scales row p by
  the in-degree factor and adds a bias row.  The aggregation sits between the dense stages, so a network splits
  into three kinds of dense stage around it:

  * `firstLayer x w n`: the product x·w with row p scaled by n(p);
  * `midLayer a nin b w nout`: the aggregated rows a scaled by nin, the bias row b added, the maximum with zero,
    then the product with w and the scaling by nout — the end of one layer fused with the start of the next;
  * `lastLayer a nin b`: the aggregated rows scaled, the bias added, and the logarithm of the softmax along each
    row: entry (p, q) of h becomes (h(p,q) − M) − log Σ_k exp(h(p,k) − M) with M the supremum of row p.

  Each entry of a stage's result depends only on row p of the row-indexed operands; the entry formulas below say so,
  and they are what a computation tiled over blocks of rows is compared with.  Nothing here needs an entry to be
  finite.  Generic in the extents.
-/
import Idealize.ShloMosaic.PureOps.Ideal.Laws
import Idealize.ShloMosaic.Lib.ValueIdx
import proofs.«133676_j45578192945656_1_alg».proof.Proof.LibTileOps

noncomputable section

namespace Cert.GraphNet

open Idealize.ShloMosaic Idealize.ShloMosaic.ValueIdx Cert.LibTileOps
open scoped BigOperators

variable {A K B : ℕ}

/-- The supremum of row `p`. -/
def rowSup (h : FVec Ideal ⟨2, ![A, B]⟩ .f32) (p : Fin A) : EReal := Finset.univ.sup fun k : Fin B => h (ix2 p k)

/-- The logarithm of the softmax along each row. -/
def logSoftmaxRows (h : FVec Ideal ⟨2, ![A, B]⟩ .f32) : FVec Ideal ⟨2, ![A, B]⟩ .f32 :=
  fun i => (h i - rowSup h (i 0)) - Ideal.log (∑ k : Fin B, Ideal.exp (h (ix2 (i 0) k) - rowSup h (i 0)))

theorem logSoftmaxRows_apply (h : FVec Ideal ⟨2, ![A, B]⟩ .f32) (p : Fin A) (q : Fin B) :
    logSoftmaxRows h (ix2 p q)
      = (h (ix2 p q) - rowSup h p) - Ideal.log (∑ k : Fin B, Ideal.exp (h (ix2 p k) - rowSup h p)) := rfl

/-- The first dense stage: x·w, row p scaled by n(p). -/
def firstLayer (x : FVec Ideal ⟨2, ![A, K]⟩ .f32) (w : FVec Ideal ⟨2, ![K, B]⟩ .f32) (n : FVec Ideal ⟨2, ![A, 1]⟩ .f32) :
    FVec Ideal ⟨2, ![A, B]⟩ .f32 :=
  scaleRows (matProd x w) n

/-- A middle dense stage: max(a·nin + b, 0), then the product with w, row p scaled by nout(p). -/
def midLayer (a : FVec Ideal ⟨2, ![A, K]⟩ .f32) (nin : FVec Ideal ⟨2, ![A, 1]⟩ .f32) (b : FVec Ideal ⟨2, ![1, K]⟩ .f32)
    (w : FVec Ideal ⟨2, ![K, B]⟩ .f32) (nout : FVec Ideal ⟨2, ![A, 1]⟩ .f32) : FVec Ideal ⟨2, ![A, B]⟩ .f32 :=
  scaleRows (matProd (addRowClamp (scaleRows a nin) b) w) nout

/-- The last dense stage: a·nin + b, then the logarithm of the softmax along each row. -/
def lastLayer (a : FVec Ideal ⟨2, ![A, B]⟩ .f32) (nin : FVec Ideal ⟨2, ![A, 1]⟩ .f32) (b : FVec Ideal ⟨2, ![1, B]⟩ .f32) :
    FVec Ideal ⟨2, ![A, B]⟩ .f32 :=
  logSoftmaxRows (addRow (scaleRows a nin) b)

theorem firstLayer_apply (x : FVec Ideal ⟨2, ![A, K]⟩ .f32) (w : FVec Ideal ⟨2, ![K, B]⟩ .f32) (n : FVec Ideal ⟨2, ![A, 1]⟩ .f32)
    (p : Fin A) (c : Fin B) :
    firstLayer x w n (ix2 p c) = (∑ k : Fin K, x (ix2 p k) * w (ix2 k c)) * n (ix2 p (0 : Fin 1)) := rfl

theorem midLayer_apply (a : FVec Ideal ⟨2, ![A, K]⟩ .f32) (nin : FVec Ideal ⟨2, ![A, 1]⟩ .f32) (b : FVec Ideal ⟨2, ![1, K]⟩ .f32)
    (w : FVec Ideal ⟨2, ![K, B]⟩ .f32) (nout : FVec Ideal ⟨2, ![A, 1]⟩ .f32) (p : Fin A) (c : Fin B) :
    midLayer a nin b w nout (ix2 p c)
      = (∑ k : Fin K, max (a (ix2 p k) * nin (ix2 p (0 : Fin 1)) + b (ix2 (0 : Fin 1) k)) (Ideal.ofBits .f32 0x00000000#32)
            * w (ix2 k c)) * nout (ix2 p (0 : Fin 1)) := rfl

/-- Row p of the last stage's pre-activation, as a function of the column. -/
def lastRow (a : FVec Ideal ⟨2, ![A, B]⟩ .f32) (nin : FVec Ideal ⟨2, ![A, 1]⟩ .f32) (b : FVec Ideal ⟨2, ![1, B]⟩ .f32)
    (p : Fin A) (k : Fin B) : EReal :=
  a (ix2 p k) * nin (ix2 p (0 : Fin 1)) + b (ix2 (0 : Fin 1) k)

theorem lastLayer_apply (a : FVec Ideal ⟨2, ![A, B]⟩ .f32) (nin : FVec Ideal ⟨2, ![A, 1]⟩ .f32) (b : FVec Ideal ⟨2, ![1, B]⟩ .f32)
    (p : Fin A) (q : Fin B) :
    lastLayer a nin b (ix2 p q)
      = (lastRow a nin b p q - Finset.univ.sup (lastRow a nin b p))
          - Ideal.log (∑ k : Fin B, Ideal.exp (lastRow a nin b p k - Finset.univ.sup (lastRow a nin b p))) := rfl

/-- The network: three dense stages around an aggregation of rows (`aggK` on K columns, `aggB` on B columns). -/
def net (aggK : FVec Ideal ⟨2, ![A, K]⟩ .f32 → FVec Ideal ⟨2, ![A, K]⟩ .f32)
    (aggB : FVec Ideal ⟨2, ![A, B]⟩ .f32 → FVec Ideal ⟨2, ![A, B]⟩ .f32)
    (nout nin : FVec Ideal ⟨2, ![A, 1]⟩ .f32)
    (x : FVec Ideal ⟨2, ![A, K]⟩ .f32) (w1 : FVec Ideal ⟨2, ![K, K]⟩ .f32) (b1 : FVec Ideal ⟨2, ![1, K]⟩ .f32)
    (w2 : FVec Ideal ⟨2, ![K, K]⟩ .f32) (b2 : FVec Ideal ⟨2, ![1, K]⟩ .f32)
    (w3 : FVec Ideal ⟨2, ![K, B]⟩ .f32) (b3 : FVec Ideal ⟨2, ![1, B]⟩ .f32) : FVec Ideal ⟨2, ![A, B]⟩ .f32 :=
  lastLayer (aggB (midLayer (aggK (midLayer (aggK (firstLayer x w1 nout)) nin b1 w2 nout)) nin b2 w3 nout)) nin b3

end Cert.GraphNet

end
-- ==== Proof.Shared.lean ====
/-
  The host-side pieces of the graph network, each as one named function of the edge list.

  Both programs compute them with the same host operations: the two rows of the edge list as index vectors
  (sources, destinations); a node's degree as a scatter-add of ones over an index vector, clamped below by one, and its
  inverse square root; a source index wrapped into range the way a gather wraps a negative index; and the
  aggregation of rows along the edges — a gather of the rows the sources name, scatter-added into zeros at the rows
  the destinations name.  They are never opened: the two programs apply them to equal arguments.  `result` is the
  network of Spec.lean over them.
-/
import proofs.«133676_j45578192945656_1_alg».proof.Proof.Gen.ReferenceIdeal
import proofs.«133676_j45578192945656_1_alg».proof.Proof.Spec

noncomputable section

namespace Cert.GraphNet.Host

open Cert.ReferenceIdeal Cert.ReferenceIdeal.Gen Idealize.ShloMosaic

/-- Row `r` of the edge list as a vector of node numbers. -/
def srcIdx (ei : (⟨S2x1600000, .i32⟩ : BufTy).Contents (Elt Ideal)) : (⟨S1600000, .i32⟩ : BufTy).Contents (Elt Ideal) :=
  shapeCast _ (extractStridedSlice S1x1600000 ![0, 0] ei slices_S2x1600000_S1x1600000_0_0) shapeCasts_S1x1600000_S1600000

def dstIdx (ei : (⟨S2x1600000, .i32⟩ : BufTy).Contents (Elt Ideal)) : (⟨S1600000, .i32⟩ : BufTy).Contents (Elt Ideal) :=
  shapeCast _ (extractStridedSlice S1x1600000 ![1, 0] ei slices_S2x1600000_S1x1600000_1_0) shapeCasts_S1x1600000_S1600000

/-- The inverse square root of the degree counted over an index vector, the degree clamped below by one. -/
def degNorm (idx : (⟨S1600000, .i32⟩ : BufTy).Contents (Elt Ideal)) : (⟨S100000, .f32⟩ : BufTy).Contents (Elt Ideal) :=
  Host.rsqrt (maximumf
    (Host.scatterAdd scatter_S100000_S1600000x1_S1600000_n_0_0_1
      (broadcastInDim S100000 ![] bcast_S_S100000 (constant (F := Ideal) S_ .f32 0x00000000#32))
      (broadcastInDim S1600000x1 ![0] bcast_S1600000_S1600000x1_0 idx)
      (broadcastInDim S1600000 ![] bcast_S_S1600000 (constant (F := Ideal) S_ .f32 0x3F800000#32)))
    (broadcastInDim S100000 ![] bcast_S_S100000 (constant (F := Ideal) S_ .f32 0x3F800000#32)))

/-- A negative node number wrapped by the number of nodes, as a gather wraps it. -/
def wrapIdx (s : (⟨S1600000, .i32⟩ : BufTy).Contents (Elt Ideal)) : (⟨S1600000, .i32⟩ : BufTy).Contents (Elt Ideal) :=
  select (cmpi .slt s (broadcastInDim S1600000 ![] bcast_S_S1600000 (constantI S_ 32 0#32)))
    (addi s (broadcastInDim S1600000 ![] bcast_S_S1600000 (constantI S_ 32 100000#32))) s

/-- The rows of `h` aggregated along the edges (128 columns). -/
def aggK (ei : (⟨S2x1600000, .i32⟩ : BufTy).Contents (Elt Ideal)) (h : (⟨S100000x128, .f32⟩ : BufTy).Contents (Elt Ideal)) :
    (⟨S100000x128, .f32⟩ : BufTy).Contents (Elt Ideal) :=
  Host.scatterAdd scatter_S100000x128_S1600000x1_S1600000x128_1_0_0_1
    (broadcastInDim S100000x128 ![] bcast_S_S100000x128 (constant (F := Ideal) S_ .f32 0x00000000#32))
    (broadcastInDim S1600000x1 ![0] bcast_S1600000_S1600000x1_0 (dstIdx ei))
    (Host.gather gather_S100000x128_S1600000x1_S1600000x128_1_0_n_n_0_1_1128 h
      (broadcastInDim S1600000x1 ![0] bcast_S1600000_S1600000x1_0 (wrapIdx (srcIdx ei))))

/-- The rows of `h` aggregated along the edges (40 columns). -/
def aggB (ei : (⟨S2x1600000, .i32⟩ : BufTy).Contents (Elt Ideal)) (h : (⟨S100000x40, .f32⟩ : BufTy).Contents (Elt Ideal)) :
    (⟨S100000x40, .f32⟩ : BufTy).Contents (Elt Ideal) :=
  Host.scatterAdd scatter_S100000x40_S1600000x1_S1600000x40_1_0_0_1
    (broadcastInDim S100000x40 ![] bcast_S_S100000x40 (constant (F := Ideal) S_ .f32 0x00000000#32))
    (broadcastInDim S1600000x1 ![0] bcast_S1600000_S1600000x1_0 (dstIdx ei))
    (Host.gather gather_S100000x40_S1600000x1_S1600000x40_1_0_n_n_0_1_140 h
      (broadcastInDim S1600000x1 ![0] bcast_S1600000_S1600000x1_0 (wrapIdx (srcIdx ei))))

theorem casts_col : S100000.ShapeCasts S100000x1 := by decide
theorem casts_row128 : S128.ShapeCasts S1x128 := by decide
theorem casts_row40 : S40.ShapeCasts S1x40 := by decide

/-- A per-node vector as a one-column array. -/
def col (v : (⟨S100000, .f32⟩ : BufTy).Contents (Elt Ideal)) : (⟨S100000x1, .f32⟩ : BufTy).Contents (Elt Ideal) :=
  shapeCast S100000x1 v casts_col

/-- A bias vector as a one-row array. -/
def row128 (b : (⟨S128, .f32⟩ : BufTy).Contents (Elt Ideal)) : (⟨S1x128, .f32⟩ : BufTy).Contents (Elt Ideal) :=
  shapeCast S1x128 b casts_row128

def row40 (b : (⟨S40, .f32⟩ : BufTy).Contents (Elt Ideal)) : (⟨S1x40, .f32⟩ : BufTy).Contents (Elt Ideal) :=
  shapeCast S1x40 b casts_row40

/-- The network's result as a function of the eight arguments. -/
def result (x : (⟨S100000x128, .f32⟩ : BufTy).Contents (Elt Ideal)) (ei : (⟨S2x1600000, .i32⟩ : BufTy).Contents (Elt Ideal))
    (w1 : (⟨S128x128, .f32⟩ : BufTy).Contents (Elt Ideal)) (b1 : (⟨S128, .f32⟩ : BufTy).Contents (Elt Ideal))
    (w2 : (⟨S128x128, .f32⟩ : BufTy).Contents (Elt Ideal)) (b2 : (⟨S128, .f32⟩ : BufTy).Contents (Elt Ideal))
    (w3 : (⟨S128x40, .f32⟩ : BufTy).Contents (Elt Ideal)) (b3 : (⟨S40, .f32⟩ : BufTy).Contents (Elt Ideal)) :
    (⟨S100000x40, .f32⟩ : BufTy).Contents (Elt Ideal) :=
  Cert.GraphNet.net (A := 100000) (K := 128) (B := 40) (aggK ei) (aggB ei) (col (degNorm (srcIdx ei))) (col (degNorm (dstIdx ei)))
    x w1 (row128 b1) w2 (row128 b2) w3 (row40 b3)

end Cert.GraphNet.Host

end
-- ==== Proof.LibKeeps.lean ====
/-
  A buffer that no operation of a stretch writes keeps its contents across the stretch.

  The contents after a list of host operations are a fold: each operation replaces the one buffer it writes. So for a
  literal list and a literal buffer the statement "the fold at this buffer is what was there" comes down to one
  inequality of buffer names per operation, each decided by evaluation. `keeps_host ops` closes a goal
  `after ops V (devRef b) = V (devRef b)` that way, `ops` being the name of the list's definition.
-/
import Idealize.ShloMosaic.Lib.StableHlo.Run

open Idealize.ShloMosaic in
/-- Closes `StableHlo.after ops V (Proc.devRef .tc b) = V (Proc.devRef .tc b)` for the literal list of host operations
    named `ops` and a literal buffer `b` none of them writes. -/
macro "keeps_host " ops:ident : tactic =>
  `(tactic| exact StableHlo.after_of_forall_not_mem _ _ (List.forall_iff_forall_mem.mp (by
      simp only [$ops:ident, List.flatten_cons, List.flatten_nil, List.append_nil, List.cons_append, List.nil_append, List.Forall,
        StableHlo.nullary_writes, StableHlo.unary_writes, StableHlo.binary_writes, StableHlo.ternary_writes,
        StableHlo.quaternary_writes, StableHlo.reshape_writes, StableHlo.binaryIndexed_writes, Finset.mem_singleton]
      repeat' apply And.intro
      all_goals exact StableHlo.devRef_ne_of_ne (by decide))))
-- ==== Proof.KernelHost.lean ====
/-
  The buffer contents at the boundaries of the idealized kernel's @main, read back.

  The contents at each boundary are a fold from the launch memory: a stretch of host operations replaces the buffers
  it writes, a tiled region replaces its output array.  Three kinds of fact are read off the fold here.  What a
  stretch computes: the first stretch turns the edge list into the two index vectors, the two degree-normalisation
  columns and the three bias rows; each later stretch aggregates the previous region's output array along the
  edges.  What a stretch leaves alone: a buffer none of its operations writes.  What a region leaves alone: every
  buffer but its output array (an input array is read, not written).  Together they walk every buffer a region
  reads back to the boundary where it was computed.
-/
import proofs.«133676_j45578192945656_1_alg».proof.Proof.Gen.KernelIdeal.Frame
import proofs.«133676_j45578192945656_1_alg».proof.Proof.Shared
import proofs.«133676_j45578192945656_1_alg».proof.Proof.LibKeeps
import Idealize.ShloMosaic.Lib.StableHlo.Run

set_option maxRecDepth 16384

noncomputable section

namespace Cert.KernelIdeal.Fold

open Cert.KernelIdeal Cert.KernelIdeal.Gen Idealize.ShloMosaic Idealize.ShloMosaic.TcCoe Idealize.SL.Sem Idealize.ShloMosaic.StableHlo
open Cert.GraphNet.Host

/-! ## What each stretch computes, from any contents -/

section Stretches

variable (Wv : Valuation τ sig (Elt Ideal))

/-- The first stretch's source-index vector: row 0 of the edge list. -/
theorem ops0_v1 : StableHlo.after (hostOps0 (F := Ideal)) Wv (Proc.devRef .tc main_v1) = srcIdx (Wv (Proc.devRef .tc main_arg1)) := by
  after_results; rfl

/-- The first stretch's destination-index vector: row 1 of the edge list. -/
theorem ops0_v3 : StableHlo.after (hostOps0 (F := Ideal)) Wv (Proc.devRef .tc main_v3) = dstIdx (Wv (Proc.devRef .tc main_arg1)) := by
  after_results; rfl

/-- The out-degree normalisation as a column. -/
theorem ops0_v16 : StableHlo.after (hostOps0 (F := Ideal)) Wv (Proc.devRef .tc main_v16)
    = col (degNorm (srcIdx (Wv (Proc.devRef .tc main_arg1)))) := by
  after_results; rfl

/-- The in-degree normalisation as a column. -/
theorem ops0_v18 : StableHlo.after (hostOps0 (F := Ideal)) Wv (Proc.devRef .tc main_v18)
    = col (degNorm (dstIdx (Wv (Proc.devRef .tc main_arg1)))) := by
  after_results; rfl

/-- The three bias vectors as rows. -/
theorem ops0_v19 : StableHlo.after (hostOps0 (F := Ideal)) Wv (Proc.devRef .tc main_v19) = row128 (Wv (Proc.devRef .tc main_arg3)) := by
  after_results; rfl
theorem ops0_v20 : StableHlo.after (hostOps0 (F := Ideal)) Wv (Proc.devRef .tc main_v20) = row128 (Wv (Proc.devRef .tc main_arg5)) := by
  after_results; rfl
theorem ops0_v21 : StableHlo.after (hostOps0 (F := Ideal)) Wv (Proc.devRef .tc main_v21) = row40 (Wv (Proc.devRef .tc main_arg7)) := by
  after_results; rfl

/-- The first stretch writes no argument. -/
theorem ops0_arg0 : StableHlo.after (hostOps0 (F := Ideal)) Wv (Proc.devRef .tc main_arg0) = Wv (Proc.devRef .tc main_arg0) := by keeps_host hostOps0
theorem ops0_arg2 : StableHlo.after (hostOps0 (F := Ideal)) Wv (Proc.devRef .tc main_arg2) = Wv (Proc.devRef .tc main_arg2) := by keeps_host hostOps0
theorem ops0_arg4 : StableHlo.after (hostOps0 (F := Ideal)) Wv (Proc.devRef .tc main_arg4) = Wv (Proc.devRef .tc main_arg4) := by keeps_host hostOps0
theorem ops0_arg6 : StableHlo.after (hostOps0 (F := Ideal)) Wv (Proc.devRef .tc main_arg6) = Wv (Proc.devRef .tc main_arg6) := by keeps_host hostOps0

variable (ei : (⟨Cert.ReferenceIdeal.S2x1600000, .i32⟩ : BufTy).Contents (Elt Ideal))

/-- The second stretch aggregates region 0's output along the edges. -/
theorem ops1_v32 (hs : Wv (Proc.devRef .tc main_v1) = srcIdx ei) (hd : Wv (Proc.devRef .tc main_v3) = dstIdx ei) :
    StableHlo.after (hostOps1 (F := Ideal)) Wv (Proc.devRef .tc main_v32) = aggK ei (Wv (Proc.devRef .tc main_v22)) := by
  after_results; rw [hs, hd]; rfl

/-- The third stretch aggregates region 1's output along the edges. -/
theorem ops2_v43 (hs : Wv (Proc.devRef .tc main_v1) = srcIdx ei) (hd : Wv (Proc.devRef .tc main_v3) = dstIdx ei) :
    StableHlo.after (hostOps2 (F := Ideal)) Wv (Proc.devRef .tc main_v43) = aggK ei (Wv (Proc.devRef .tc main_v33)) := by
  after_results; rw [hs, hd]; rfl

/-- The fourth stretch aggregates region 2's output along the edges. -/
theorem ops3_v54 (hs : Wv (Proc.devRef .tc main_v1) = srcIdx ei) (hd : Wv (Proc.devRef .tc main_v3) = dstIdx ei) :
    StableHlo.after (hostOps3 (F := Ideal)) Wv (Proc.devRef .tc main_v54) = aggB ei (Wv (Proc.devRef .tc main_v44)) := by
  after_results; rw [hs, hd]; rfl

end Stretches

/-! ## Each buffer a region reads, walked back to the boundary after the first stretch -/

variable (m : (ℓ : Loc nD τ sig) → Buf (Elt Ideal) ℓ) (ρ : Dev nD → PrngReg) (c : Dev nD)

theorem W2_v1 : W2 m ρ c (Proc.devRef .tc main_v1) = W1 m ρ c (Proc.devRef .tc main_v1) :=
  (W2_of_ne m ρ c main_v1 (by decide))
theorem W4_v1 : W4 m ρ c (Proc.devRef .tc main_v1) = W1 m ρ c (Proc.devRef .tc main_v1) :=
  ((W4_of_ne m ρ c main_v1 (by decide)).trans
      ((show StableHlo.after (hostOps1 (F := Ideal)) (W2 m ρ c) (Proc.devRef .tc main_v1) = W2 m ρ c (Proc.devRef .tc main_v1) by keeps_host hostOps1).trans
      (W2_v1 m ρ c)))
theorem W6_v1 : W6 m ρ c (Proc.devRef .tc main_v1) = W1 m ρ c (Proc.devRef .tc main_v1) :=
  ((W6_of_ne m ρ c main_v1 (by decide)).trans
      ((show StableHlo.after (hostOps2 (F := Ideal)) (W4 m ρ c) (Proc.devRef .tc main_v1) = W4 m ρ c (Proc.devRef .tc main_v1) by keeps_host hostOps2).trans
      (W4_v1 m ρ c)))
theorem W2_v3 : W2 m ρ c (Proc.devRef .tc main_v3) = W1 m ρ c (Proc.devRef .tc main_v3) :=
  (W2_of_ne m ρ c main_v3 (by decide))
theorem W4_v3 : W4 m ρ c (Proc.devRef .tc main_v3) = W1 m ρ c (Proc.devRef .tc main_v3) :=
  ((W4_of_ne m ρ c main_v3 (by decide)).trans
      ((show StableHlo.after (hostOps1 (F := Ideal)) (W2 m ρ c) (Proc.devRef .tc main_v3) = W2 m ρ c (Proc.devRef .tc main_v3) by keeps_host hostOps1).trans
      (W2_v3 m ρ c)))
theorem W6_v3 : W6 m ρ c (Proc.devRef .tc main_v3) = W1 m ρ c (Proc.devRef .tc main_v3) :=
  ((W6_of_ne m ρ c main_v3 (by decide)).trans
      ((show StableHlo.after (hostOps2 (F := Ideal)) (W4 m ρ c) (Proc.devRef .tc main_v3) = W4 m ρ c (Proc.devRef .tc main_v3) by keeps_host hostOps2).trans
      (W4_v3 m ρ c)))
theorem W3_v16 : W3 m ρ c (Proc.devRef .tc main_v16) = W1 m ρ c (Proc.devRef .tc main_v16) :=
  ((show StableHlo.after (hostOps1 (F := Ideal)) (W2 m ρ c) (Proc.devRef .tc main_v16) = W2 m ρ c (Proc.devRef .tc main_v16) by keeps_host hostOps1).trans
      ((W2_arr m ρ c 2).trans (((dat0 (V1 m ρ) c).arrAt_in 2 rfl _).trans (A_eq0 (V1 m ρ) c 2))))
theorem W5_v16 : W5 m ρ c (Proc.devRef .tc main_v16) = W1 m ρ c (Proc.devRef .tc main_v16) :=
  ((show StableHlo.after (hostOps2 (F := Ideal)) (W4 m ρ c) (Proc.devRef .tc main_v16) = W4 m ρ c (Proc.devRef .tc main_v16) by keeps_host hostOps2).trans
      (((W4_arr m ρ c 4).trans (((dat1 (V3 m ρ) c).arrAt_in 4 rfl _).trans (A_eq1 (V3 m ρ) c 4))).trans
      (W3_v16 m ρ c)))
theorem W3_v18 : W3 m ρ c (Proc.devRef .tc main_v18) = W1 m ρ c (Proc.devRef .tc main_v18) :=
  ((show StableHlo.after (hostOps1 (F := Ideal)) (W2 m ρ c) (Proc.devRef .tc main_v18) = W2 m ρ c (Proc.devRef .tc main_v18) by keeps_host hostOps1).trans
      (W2_of_ne m ρ c main_v18 (by decide)))
theorem W5_v18 : W5 m ρ c (Proc.devRef .tc main_v18) = W1 m ρ c (Proc.devRef .tc main_v18) :=
  ((show StableHlo.after (hostOps2 (F := Ideal)) (W4 m ρ c) (Proc.devRef .tc main_v18) = W4 m ρ c (Proc.devRef .tc main_v18) by keeps_host hostOps2).trans
      (((W4_arr m ρ c 1).trans (((dat1 (V3 m ρ) c).arrAt_in 1 rfl _).trans (A_eq1 (V3 m ρ) c 1))).trans
      (W3_v18 m ρ c)))
theorem W7_v18 : W7 m ρ c (Proc.devRef .tc main_v18) = W1 m ρ c (Proc.devRef .tc main_v18) :=
  ((show StableHlo.after (hostOps3 (F := Ideal)) (W6 m ρ c) (Proc.devRef .tc main_v18) = W6 m ρ c (Proc.devRef .tc main_v18) by keeps_host hostOps3).trans
      (((W6_arr m ρ c 1).trans (((dat2 (V5 m ρ) c).arrAt_in 1 rfl _).trans (A_eq2 (V5 m ρ) c 1))).trans
      (W5_v18 m ρ c)))
theorem W3_v19 : W3 m ρ c (Proc.devRef .tc main_v19) = W1 m ρ c (Proc.devRef .tc main_v19) :=
  ((show StableHlo.after (hostOps1 (F := Ideal)) (W2 m ρ c) (Proc.devRef .tc main_v19) = W2 m ρ c (Proc.devRef .tc main_v19) by keeps_host hostOps1).trans
      (W2_of_ne m ρ c main_v19 (by decide)))
theorem W5_v20 : W5 m ρ c (Proc.devRef .tc main_v20) = W1 m ρ c (Proc.devRef .tc main_v20) :=
  ((show StableHlo.after (hostOps2 (F := Ideal)) (W4 m ρ c) (Proc.devRef .tc main_v20) = W4 m ρ c (Proc.devRef .tc main_v20) by keeps_host hostOps2).trans
      ((W4_of_ne m ρ c main_v20 (by decide)).trans
      ((show StableHlo.after (hostOps1 (F := Ideal)) (W2 m ρ c) (Proc.devRef .tc main_v20) = W2 m ρ c (Proc.devRef .tc main_v20) by keeps_host hostOps1).trans
      (W2_of_ne m ρ c main_v20 (by decide)))))
theorem W7_v21 : W7 m ρ c (Proc.devRef .tc main_v21) = W1 m ρ c (Proc.devRef .tc main_v21) :=
  ((show StableHlo.after (hostOps3 (F := Ideal)) (W6 m ρ c) (Proc.devRef .tc main_v21) = W6 m ρ c (Proc.devRef .tc main_v21) by keeps_host hostOps3).trans
      ((W6_of_ne m ρ c main_v21 (by decide)).trans
      ((show StableHlo.after (hostOps2 (F := Ideal)) (W4 m ρ c) (Proc.devRef .tc main_v21) = W4 m ρ c (Proc.devRef .tc main_v21) by keeps_host hostOps2).trans
      ((W4_of_ne m ρ c main_v21 (by decide)).trans
      ((show StableHlo.after (hostOps1 (F := Ideal)) (W2 m ρ c) (Proc.devRef .tc main_v21) = W2 m ρ c (Proc.devRef .tc main_v21) by keeps_host hostOps1).trans
      (W2_of_ne m ρ c main_v21 (by decide)))))))
theorem W3_arg4 : W3 m ρ c (Proc.devRef .tc main_arg4) = W1 m ρ c (Proc.devRef .tc main_arg4) :=
  ((show StableHlo.after (hostOps1 (F := Ideal)) (W2 m ρ c) (Proc.devRef .tc main_arg4) = W2 m ρ c (Proc.devRef .tc main_arg4) by keeps_host hostOps1).trans
      (W2_of_ne m ρ c main_arg4 (by decide)))
theorem W5_arg6 : W5 m ρ c (Proc.devRef .tc main_arg6) = W1 m ρ c (Proc.devRef .tc main_arg6) :=
  ((show StableHlo.after (hostOps2 (F := Ideal)) (W4 m ρ c) (Proc.devRef .tc main_arg6) = W4 m ρ c (Proc.devRef .tc main_arg6) by keeps_host hostOps2).trans
      ((W4_of_ne m ρ c main_arg6 (by decide)).trans
      ((show StableHlo.after (hostOps1 (F := Ideal)) (W2 m ρ c) (Proc.devRef .tc main_arg6) = W2 m ρ c (Proc.devRef .tc main_arg6) by keeps_host hostOps1).trans
      (W2_of_ne m ρ c main_arg6 (by decide)))))

end Cert.KernelIdeal.Fold

end
-- ==== Proof.KernelRun.lean ====
/-
  The idealized kernel's run with every buffer named.

  @main is eight segments: four stretches of host operations, each followed by a tiled region.  The buffer contents
  at the segment boundaries are a fold from the launch memory: a stretch applies its operations, a region leaves its
  output array at what its blocks' write-backs add up to and every other buffer as it found it.  Every weakly fair
  execution ends with each buffer at the last boundary's contents; in particular the result buffer holds what the
  last region's write-backs leave, and the arguments are as launched.
-/
import proofs.«133676_j45578192945656_1_alg».proof.Proof.Gen.KernelIdeal.Frame

set_option maxRecDepth 16384

noncomputable section

namespace Cert.KernelIdeal.RunAll

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with every buffer the thread state holds at
    the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W8 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h => h)

/-- The run with the result buffer at the last region's output array and the arguments as launched. -/
theorem run_result : θ_run defs (onTc (τ := τ) (main (F := F))) ⟨m, fun _ => 0, ρ⟩ (fun r => ∀ c : Dev nD,
      r.2.mem ((c.tc : Thread nD τ).loc main_v55) = (dat3 (V7 m ρ) c).arrAt 3 cfg3.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c =>
      ⟨(h c _ (mem_uc main_v55 (by decide))).trans (W8_arr m ρ c 3),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c),
       (h c _ (mem_uc main_arg6 (by decide))).trans (W8_main_arg6 m ρ c),
       (h c _ (mem_uc main_arg7 (by decide))).trans (W8_main_arg7 m ρ c)⟩)
    (run_all m ρ)

end Cert.KernelIdeal.RunAll

end
-- ==== Proof.Region0.lean ====
/-
  The first tiled region computes the first dense stage.

  The region runs over 20 grid points; point t reads rows 5000·t … 5000·t + 4999 of the node features and of the
  one-column scaling array, reads the weight matrix whole, and writes rows 5000·t … 5000·t + 4999 of its output: the
  product of the feature block with the weights, each row scaled by its entry of the column.  An entry of a matrix
  product depends on one row of the left operand only, so the block point t writes is block t of the product of the
  WHOLE arrays with rows scaled — `Cert.GraphNet.firstLayer`.  The 20 blocks tile the 100000 rows, so after the
  region the output array is that function of the arrays the region found.  Rounding the operands to a shorter float
  format before the product is the identity over the extended reals.
-/
import proofs.«133676_j45578192945656_1_alg».proof.Proof.Gen.KernelIdeal.Frame
import proofs.«133676_j45578192945656_1_alg».proof.Proof.Spec
import proofs.«133676_j45578192945656_1_alg».proof.Proof.LibPlainDotFormats
import proofs.«133676_j45578192945656_1_alg».proof.Proof.LibKeepdims
import Idealize.ShloMosaic.Lib.ValueIdx
import Idealize.ShloMosaic.Lib.ValueLayout
import Idealize.ShloMosaic.Lib.Pipeline.Value

set_option maxRecDepth 16384

noncomputable section

namespace Cert.KernelIdeal.Regions

open Cert.KernelIdeal Cert.KernelIdeal.Gen Idealize.ShloMosaic Idealize.ShloMosaic.TcCoe Idealize.ShloMosaic.ValueIdx Idealize.SL.Sem
open scoped BigOperators

/-- The tile product's dimension numbers are those of a plain matrix product. -/
theorem plain0 : Cert.LibPlainDot.Plain dot_S5000x128_S128x128_S5000x128_1_0_0_1_n_n := ⟨rfl, rfl, rfl, rfl, rfl, rfl⟩

/-- Entry (p, q) of what the body stores, from the blocks it loaded: the tile product's entry times the row's
    scaling entry. -/
theorem pay0_apply (x0 : Vec Ideal S5000x128 .f32) (x1 : Vec Ideal S128x128 .f32) (x2 : Vec Ideal S5000x1 .f32)
    (p : Fin 5000) (q : Fin 128) :
    k0_pay1 (F := Ideal) x0 x1 x2 (ix2 p q) = (∑ k : Fin 128, x0 (ix2 p k) * x1 (ix2 k q)) * x2 (ix2 p (0 : Fin 1)) := by
  unfold k0_pay1
  have e1 := Cert.LibPlainDot.Plain.matmul_zero_apply_formats plain0 none (truncf .bf16 x0 bitsLt_bf16_f32)
    (truncf .bf16 x1 bitsLt_bf16_f32) p q
  have e2 : broadcastTo S5000x128 (shapeCast S5000x1 x2 shapeCasts_S5000x1_S5000x1) broadcasts_S5000x1_S5000x128 (ix2 p q)
      = x2 (ix2 p (0 : Fin 1)) := by
    rw [shapeCast_self]
    exact Cert.LibKeepdims.broadcastTo_a1_ab_apply x2 broadcasts_S5000x1_S5000x128 p q
  exact (mulf_apply _ _ _).trans (congrArg₂ (· * ·) e1 e2)

theorem hz : (![0, 0] : Fin 2 → Nat) = fun _ => 0 := funext fun a => by fin_cases a <;> rfl

/-- The printed index maps over the grid: point t's blocks of the node-indexed arrays start at row block t, the weight
    matrix is read whole. -/
theorem idx_facts0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

variable (V : (c : Dev nD) → (b : Ref sig .tc) → Buf (Elt Ideal) ((c : Thread nD τ).loc b))

/-- Entry (p, k) of point t's block of the features is entry (5000·t + p, k) of the array. -/
theorem read0_0 (c : Dev nD) (t : Fin cfg0.N) (p : Fin 5000) (k : Fin 128) (r : Fin 100000) (hr : r.val = t.val * 5000 + p.val) :
    iblk0 V c 0 t (ix2 p k) = V c main_arg0 (ix2 r k) := by
  show V c main_arg0 (((cfg0.win 0).blk t).view.emb (ix2 p k)) = V c main_arg0 (ix2 r k)
  refine congrArg (V c main_arg0) (funext fun a => Fin.ext ?_)
  obtain ⟨e0, e1, -⟩ := idx_facts0 t
  match a with
  | ⟨0, _⟩ => show win0_0.index t (0 : Fin 2) * 5000 + 1 * p.val = r.val; omega
  | ⟨1, _⟩ => show win0_0.index t (1 : Fin 2) * 128 + 1 * k.val = k.val; omega

/-- The weight matrix's block is the whole matrix at every point. -/
theorem read0_1 (c : Dev nD) (t : Fin cfg0.N) (k : Fin 128) (q : Fin 128) :
    iblk0 V c 1 t (ix2 k q) = V c main_arg2 (ix2 k q) := by
  show V c main_arg2 (((cfg0.win 1).blk t).view.emb (ix2 k q)) = V c main_arg2 (ix2 k q)
  refine congrArg (V c main_arg2) (funext fun a => Fin.ext ?_)
  obtain ⟨-, -, e2, e3, -⟩ := idx_facts0 t
  match a with
  | ⟨0, _⟩ => show win0_1.index t (0 : Fin 2) * 128 + 1 * k.val = k.val; omega
  | ⟨1, _⟩ => show win0_1.index t (1 : Fin 2) * 128 + 1 * q.val = q.val; omega

/-- Entry (p, 0) of point t's block of the scaling column is entry (5000·t + p, 0) of the column. -/
theorem read0_2 (c : Dev nD) (t : Fin cfg0.N) (p : Fin 5000) (r : Fin 100000) (hr : r.val = t.val * 5000 + p.val) :
    iblk0 V c 2 t (ix2 p (0 : Fin 1)) = V c main_v16 (ix2 r (0 : Fin 1)) := by
  show V c main_v16 (((cfg0.win 2).blk t).view.emb (ix2 p (0 : Fin 1))) = V c main_v16 (ix2 r (0 : Fin 1))
  refine congrArg (V c main_v16) (funext fun a => Fin.ext ?_)
  obtain ⟨-, -, -, -, e4, e5, -⟩ := idx_facts0 t
  match a with
  | ⟨0, _⟩ => show win0_2.index t (0 : Fin 2) * 5000 + 1 * p.val = r.val; omega
  | ⟨1, _⟩ => show win0_2.index t (1 : Fin 2) * 1 + 1 * 0 = 0; omega

/-- Entry (p, q) of point t's output block sits at (5000·t + p, q) of the output array. -/
theorem emb0_3 (t : Fin cfg0.N) (p : Fin 5000) (q : Fin 128) (r : Fin 100000) (hr : r.val = t.val * 5000 + p.val) :
    ((cfg0.win 3).blk t).view.emb (ix2 p q) = ix2 r q := by
  funext a
  apply Fin.ext
  obtain ⟨-, -, -, -, -, -, e6, e7⟩ := idx_facts0 t
  match a with
  | ⟨0, _⟩ => show win0_3.index t (0 : Fin 2) * 5000 + 1 * p.val = r.val; omega
  | ⟨1, _⟩ => show win0_3.index t (1 : Fin 2) * 128 + 1 * q.val = q.val; omega

/-- What point t writes back is block t of the first dense stage of the arrays the region finds. -/
theorem flushed0_eq (c : Dev nD) (t : Fin cfg0.N) :
    (dat0 (F := Ideal) V c).flushed 3 t
      = ((cfg0.win 3).blk t).view.read (Elt Ideal)
          (Cert.GraphNet.firstLayer (V c main_arg0) (V c main_arg2) (V c main_v16)) := by
  show (cfg0.win 3).cut (grid0.coords t) ((dat0 V c).after 3 t) = _
  rw [after0_3]
  unfold out0_3
  rw [View.canon_unit_zero hz]
  simp only [View.ld_unit_zero (S := S5000x128) hz, View.ld_unit_zero (S := S128x128) hz, View.ld_unit_zero (S := S5000x1) hz]
  funext j
  obtain ⟨p, q, rfl⟩ : ∃ (p : Fin 5000) (q : Fin 128), j = ix2 p q := ⟨j 0, j 1, eq_ix2 j⟩
  have hN : cfg0.N = 20 := N_0
  have hr : t.val * 5000 + p.val < 100000 := by have := t.isLt; have := p.isLt; omega
  refine (pay0_apply (iblk0 V c 0 t) (iblk0 V c 1 t) (iblk0 V c 2 t) p q).trans ?_
  show _ = Cert.GraphNet.firstLayer (V c main_arg0) (V c main_arg2) (V c main_v16) (((cfg0.win 3).blk t).view.emb (ix2 p q))
  rw [emb0_3 t p q ⟨t.val * 5000 + p.val, hr⟩ rfl, Cert.GraphNet.firstLayer_apply,
    read0_2 V c t p ⟨t.val * 5000 + p.val, hr⟩ rfl]
  refine congrArg (· * _) (Finset.sum_congr rfl fun k _ => ?_)
  rw [read0_0 V c t p k ⟨t.val * 5000 + p.val, hr⟩ rfl, read0_1 V c t k q]

/-- An index of the output array is in point t's block iff each coordinate is in the block's range on its axis. -/
theorem mem_blk0 (t : Fin cfg0.N) (i : S100000x128.Idx) :
    i ∈ ((cfg0.win 3).blk t).view.set ↔ ∀ a : Fin 2, win0_3.index t a * S5000x128.size a ≤ (i a).val ∧ (i a).val < win0_3.index t a * S5000x128.size a + S5000x128.size a := by
  show i ∈ ((View.whole main_v22).slice (win0_3.rect t)).set ↔ _
  rw [View.set_slice_whole, Rect.mem_set_unit]
  exact Iff.rfl

/-- Every index of the output array is in some point's block: row r is in block r / 5000. -/
theorem cover0 (i : S100000x128.Idx) :
    ∃ t : Fin cfg0.N, (cfg0.win 3).flush t = true ∧ i ∈ ((cfg0.win 3).blk t).view.set := by
  have hN : cfg0.N = 20 := N_0
  have hi0 : (i 0).val < 100000 := (i 0).isLt
  have hi1 : (i 1).val < 128 := (i 1).isLt
  refine ⟨⟨(i 0).val / 5000, by omega⟩, flush0_3 _, ?_⟩
  rw [mem_blk0]
  obtain ⟨-, -, -, -, -, -, e6, e7⟩ := idx_facts0 ⟨(i 0).val / 5000, by omega⟩
  intro a
  match a with
  | ⟨0, _⟩ => show win0_3.index _ (0 : Fin 2) * 5000 ≤ (i 0).val ∧ (i 0).val < win0_3.index _ (0 : Fin 2) * 5000 + 5000; rw [e6]; show (i 0).val / 5000 * 5000 ≤ (i 0).val ∧ (i 0).val < (i 0).val / 5000 * 5000 + 5000; omega
  | ⟨1, _⟩ => show win0_3.index _ (1 : Fin 2) * 128 ≤ (i 1).val ∧ (i 1).val < win0_3.index _ (1 : Fin 2) * 128 + 128; rw [e7]; omega

/-- Region 0's output array after the region: the first dense stage of the arrays the region finds. -/
theorem array0 (c : Dev nD) :
    (dat0 (F := Ideal) V c).arrAt 3 cfg0.N
      = Cert.GraphNet.firstLayer (V c main_arg0) (V c main_arg2) (V c main_v16) :=
  (dat0 V c).arrAt_eq_of_cover 3 _ (fun t _ => flushed0_eq V c t) cover0

end Cert.KernelIdeal.Regions

end
-- ==== Proof.Region1.lean ====
/-
  The second dense stage of the network, tiled over blocks of 5000 rows.

  At every grid point the body reads a block of 5000 aggregated rows, the matching 5000 entries of the two
  one-column scaling arrays, the whole bias row and the whole weight matrix, and writes the block
  max(a·nin + b, 0)·w scaled by nout.  Entry (p, c) of that block depends only on row p of the row-indexed operands, so
  the twenty blocks are the twenty restrictions of one whole-array function, the middle dense stage of the
  specification, and they tile the 100000 rows exactly.
-/
import proofs.«133676_j45578192945656_1_alg».proof.Proof.Gen.KernelIdeal.Frame
import proofs.«133676_j45578192945656_1_alg».proof.Proof.Spec
import proofs.«133676_j45578192945656_1_alg».proof.Proof.LibPlainDotFormats
import proofs.«133676_j45578192945656_1_alg».proof.Proof.LibKeepdims
import Idealize.ShloMosaic.Lib.ValueIdx
import Idealize.ShloMosaic.Lib.ValueLayout
import Idealize.ShloMosaic.Lib.Pipeline.Value

noncomputable section

namespace Cert.KernelIdeal.Regions

open Cert.KernelIdeal Cert.KernelIdeal.Gen Idealize.ShloMosaic Idealize.ShloMosaic.TcCoe Idealize.ShloMosaic.ValueIdx Idealize.SL.Sem
open scoped BigOperators

/-! ## The body's result at an entry -/

/-- The contraction of the body's matrix product is the plain one: the second axis of the left operand against the
    first axis of the right operand, no batch axis. -/
theorem plain1 : Cert.LibPlainDot.Plain dot_S5000x128_S128x128_S5000x128_1_0_0_1_n_n := ⟨rfl, rfl, rfl, rfl, rfl, rfl⟩

/-- Entry (p, q) of the block the body computes from the blocks it loaded: the sum over k of
    max(x0(p,k)·x1(p,0) + x2(0,k), 0)·x3(k,q), scaled by x4(p,0).  The narrowing of the two operands of the product is
    the identity on extended reals. -/
theorem pay1_apply (x0 : FVec Ideal S5000x128 .f32) (x1 : FVec Ideal S5000x1 .f32) (x2 : FVec Ideal S1x128 .f32)
    (x3 : FVec Ideal S128x128 .f32) (x4 : FVec Ideal S5000x1 .f32) (p : Fin 5000) (q : Fin 128) :
    k1_pay1 (F := Ideal) x0 x1 x2 x3 x4 (ix2 p q)
      = (∑ k : Fin 128, max (x0 (ix2 p k) * x1 (ix2 p (0 : Fin 1)) + x2 (ix2 (0 : Fin 1) k)) (Ideal.ofBits .f32 0x00000000#32)
            * x3 (ix2 k q)) * x4 (ix2 p (0 : Fin 1)) := by
  unfold k1_pay1
  refine (mulf_apply _ _ _).trans ?_
  refine congrArg₂ (· * ·) ?_ ?_
  · refine (Cert.LibPlainDot.Plain.matmul_zero_apply_formats plain1 none _ _ p q).trans ?_
    refine Finset.sum_congr rfl fun k _ => ?_
    refine congrArg₂ (· * ·) ?_ ?_
    · refine (truncf_apply (ψ := .bf16) _ bitsLt_bf16_f32 (ix2 p k)).trans ?_
      refine (maximumf_apply _ _ _).trans ?_
      refine congrArg₂ max ?_ ?_
      · refine (addf_apply _ _ _).trans ?_
        refine congrArg₂ (· + ·) ?_ ?_
        · refine (mulf_apply _ _ _).trans ?_
          refine congrArg₂ (· * ·) ?_ ?_
          · exact congrFun (shapeCast_self x0 _) (ix2 p k)
          · refine (Cert.LibKeepdims.broadcastTo_a1_ab_apply _ _ p k).trans ?_
            exact congrFun (shapeCast_self x1 _) _
        · refine (broadcastTo_1b_ab_apply _ _ p k).trans ?_
          exact congrFun (shapeCast_self x2 _) _
      · rfl
    · exact truncf_apply (ψ := .bf16) x3 bitsLt_bf16_f32 (ix2 k q)
  · refine (Cert.LibKeepdims.broadcastTo_a1_ab_apply _ _ p q).trans ?_
    exact congrFun (shapeCast_self x4 _) _

/-! ## From the blocks to the array -/

theorem hz1 : (![0, 0] : Fin 2 → Nat) = fun _ => 0 := funext fun a => by fin_cases a <;> rfl

/-- The block indices at grid point t: the three row-indexed inputs and the output are at block row t, the bias row
    and the weight matrix at their one block. -/
theorem block_indices1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0
    ∧ win1_5.index t (0 : Fin 2) = t.val ∧ win1_5.index t (1 : Fin 2) = 0 :=
  (by decide +kernel : ∀ t : Fin grid1.N, _)

/-- What grid point t writes back is block t of the middle dense stage of the arrays the region finds: row p of the
    block is row 5000·t + p of every row-indexed array, and the bias row and the weight matrix are read whole. -/
theorem flushed1 (V : (c : Dev nD) → (b : Ref sig .tc) → Buf (Elt Ideal) ((c : Thread nD τ).loc b)) (c : Dev nD) (t : Fin cfg1.N) :
    (dat1 (F := Ideal) V c).flushed 5 t
      = ((cfg1.win 5).blk t).view.read (Elt Ideal)
          (Cert.GraphNet.midLayer (V c main_v32) (V c main_v18) (V c main_v19) (V c main_arg4) (V c main_v16)) := by
  show (cfg1.win 5).cut (grid1.coords t) ((dat1 V c).after 5 t) = _
  rw [after1_5]
  unfold out1_5
  rw [View.canon_unit_zero hz1]
  simp only [View.ld_unit_zero (S := S5000x128) hz1, View.ld_unit_zero (S := S5000x1) hz1,
    View.ld_unit_zero (S := S1x128) hz1, View.ld_unit_zero (S := S128x128) hz1]
  obtain ⟨e00, e01, e10, e11, e20, e21, e30, e31, e40, e41, e50, e51⟩ := block_indices1 t
  have ht : t.val < 20 := by
    have h : t.val < grid1.N := t.isLt
    rw [N_1] at h; exact h
  refine funext fun (j : S5000x128.Idx) => ?_
  obtain ⟨p, q, rfl⟩ : ∃ (p : Fin 5000) (q : Fin 128), j = ix2 p q := ⟨j 0, j 1, eq_ix2 j⟩
  have hp : p.val < 5000 := p.isLt
  show k1_pay1 (F := Ideal) (iblk1 V c 0 t) (iblk1 V c 1 t) (iblk1 V c 2 t) (iblk1 V c 3 t) (iblk1 V c 4 t) (ix2 p q)
    = Cert.GraphNet.midLayer (V c main_v32) (V c main_v18) (V c main_v19) (V c main_arg4) (V c main_v16)
        (((cfg1.win 5).blk t).view.emb (ix2 p q))
  -- row p of block t is row 5000·t + p of the array
  have hrow : t.val * 5000 + p.val < 100000 := by omega
  have hout : ((cfg1.win 5).blk t).view.emb (ix2 p q) = ix2 (⟨t.val * 5000 + p.val, hrow⟩ : Fin 100000) q := by
    funext a; apply Fin.ext
    match a with
    | ⟨0, _⟩ => show win1_5.index t (0 : Fin 2) * 5000 + 1 * p.val = t.val * 5000 + p.val; omega
    | ⟨1, _⟩ => show win1_5.index t (1 : Fin 2) * 128 + 1 * q.val = q.val; omega
  have r0 : ∀ k : Fin 128, iblk1 V c 0 t (ix2 p k) = V c main_v32 (ix2 (⟨t.val * 5000 + p.val, hrow⟩ : Fin 100000) k) := fun k => by
    show V c main_v32 (((cfg1.win 0).blk t).view.emb (ix2 p k)) = _
    refine congrArg (V c main_v32) ?_
    funext a; apply Fin.ext
    match a with
    | ⟨0, _⟩ => show win1_0.index t (0 : Fin 2) * 5000 + 1 * p.val = t.val * 5000 + p.val; omega
    | ⟨1, _⟩ => show win1_0.index t (1 : Fin 2) * 128 + 1 * k.val = k.val; omega
  have r1 : iblk1 V c 1 t (ix2 p (0 : Fin 1)) = V c main_v18 (ix2 (⟨t.val * 5000 + p.val, hrow⟩ : Fin 100000) (0 : Fin 1)) := by
    show V c main_v18 (((cfg1.win 1).blk t).view.emb (ix2 p (0 : Fin 1))) = _
    refine congrArg (V c main_v18) ?_
    funext a; apply Fin.ext
    match a with
    | ⟨0, _⟩ => show win1_1.index t (0 : Fin 2) * 5000 + 1 * p.val = t.val * 5000 + p.val; omega
    | ⟨1, _⟩ => show win1_1.index t (1 : Fin 2) * 1 + 1 * 0 = 0; omega
  have r2 : ∀ k : Fin 128, iblk1 V c 2 t (ix2 (0 : Fin 1) k) = V c main_v19 (ix2 (0 : Fin 1) k) := fun k => by
    show V c main_v19 (((cfg1.win 2).blk t).view.emb (ix2 (0 : Fin 1) k)) = _
    refine congrArg (V c main_v19) ?_
    funext a; apply Fin.ext
    match a with
    | ⟨0, _⟩ => show win1_2.index t (0 : Fin 2) * 1 + 1 * 0 = 0; omega
    | ⟨1, _⟩ => show win1_2.index t (1 : Fin 2) * 128 + 1 * k.val = k.val; omega
  have r3 : ∀ k : Fin 128, iblk1 V c 3 t (ix2 k q) = V c main_arg4 (ix2 k q) := fun k => by
    show V c main_arg4 (((cfg1.win 3).blk t).view.emb (ix2 k q)) = _
    refine congrArg (V c main_arg4) ?_
    funext a; apply Fin.ext
    match a with
    | ⟨0, _⟩ => show win1_3.index t (0 : Fin 2) * 128 + 1 * k.val = k.val; omega
    | ⟨1, _⟩ => show win1_3.index t (1 : Fin 2) * 128 + 1 * q.val = q.val; omega
  have r4 : iblk1 V c 4 t (ix2 p (0 : Fin 1)) = V c main_v16 (ix2 (⟨t.val * 5000 + p.val, hrow⟩ : Fin 100000) (0 : Fin 1)) := by
    show V c main_v16 (((cfg1.win 4).blk t).view.emb (ix2 p (0 : Fin 1))) = _
    refine congrArg (V c main_v16) ?_
    funext a; apply Fin.ext
    match a with
    | ⟨0, _⟩ => show win1_4.index t (0 : Fin 2) * 5000 + 1 * p.val = t.val * 5000 + p.val; omega
    | ⟨1, _⟩ => show win1_4.index t (1 : Fin 2) * 1 + 1 * 0 = 0; omega
  rw [hout]
  refine (pay1_apply (iblk1 V c 0 t) (iblk1 V c 1 t) (iblk1 V c 2 t) (iblk1 V c 3 t) (iblk1 V c 4 t) p q).trans ?_
  refine ((Cert.GraphNet.midLayer_apply (V c main_v32) (V c main_v18) (V c main_v19) (V c main_arg4) (V c main_v16)
    (⟨t.val * 5000 + p.val, hrow⟩ : Fin 100000) q).trans ?_).symm
  rw [r1, r4]
  refine congrArg (· * _) (Finset.sum_congr rfl fun k _ => ?_)
  rw [r0 k, r2 k, r3 k]

/-- An index of the array is in grid point t's block iff each coordinate is in the block's range on its axis. -/
theorem mem_blk1 (t : Fin cfg1.N) (i : S100000x128.Idx) :
    i ∈ ((cfg1.win 5).blk t).view.set
      ↔ ∀ a : Fin 2, win1_5.index t a * S5000x128.size a ≤ (i a).val ∧ (i a).val < win1_5.index t a * S5000x128.size a + S5000x128.size a := by
  show i ∈ ((View.whole main_v33).slice (win1_5.rect t)).set ↔ _
  rw [View.set_slice_whole, Rect.mem_set_unit]
  exact Iff.rfl

/-- The twenty blocks of 5000 rows tile the 100000 rows: row r is in the block of grid point r / 5000. -/
theorem cover1 (i : S100000x128.Idx) :
    ∃ t : Fin cfg1.N, (cfg1.win 5).flush t = true ∧ i ∈ ((cfg1.win 5).blk t).view.set := by
  have hi0 : (i 0).val < 100000 := (i 0).isLt
  have hi1 : (i 1).val < 128 := (i 1).isLt
  have hlt : (i 0).val / 5000 < grid1.N := by rw [N_1]; omega
  obtain ⟨-, -, -, -, -, -, -, -, -, -, e50, e51⟩ := block_indices1 ⟨(i 0).val / 5000, hlt⟩
  refine ⟨⟨(i 0).val / 5000, hlt⟩, flush1_5 _, ?_⟩
  rw [mem_blk1]
  intro a
  match a with
  | ⟨0, _⟩ =>
    show win1_5.index ⟨(i 0).val / 5000, hlt⟩ (0 : Fin 2) * 5000 ≤ (i 0).val
      ∧ (i 0).val < win1_5.index ⟨(i 0).val / 5000, hlt⟩ (0 : Fin 2) * 5000 + 5000
    rw [e50]
    show (i 0).val / 5000 * 5000 ≤ (i 0).val ∧ (i 0).val < (i 0).val / 5000 * 5000 + 5000
    omega
  | ⟨1, _⟩ =>
    show win1_5.index ⟨(i 0).val / 5000, hlt⟩ (1 : Fin 2) * 128 ≤ (i 1).val
      ∧ (i 1).val < win1_5.index ⟨(i 0).val / 5000, hlt⟩ (1 : Fin 2) * 128 + 128
    rw [e51]
    omega

/-- Region 1's output array after the region, as one function of the arrays the region finds. -/
theorem array1 (V : (c : Dev nD) → (b : Ref sig .tc) → Buf (Elt Ideal) ((c : Thread nD τ).loc b)) (c : Dev nD) :
    (dat1 (F := Ideal) V c).arrAt 5 cfg1.N
      = Cert.GraphNet.midLayer (V c main_v32) (V c main_v18) (V c main_v19) (V c main_arg4) (V c main_v16) :=
  (dat1 (F := Ideal) V c).arrAt_eq_of_cover 5 _ (fun t _ => flushed1 V c t) cover1

end Cert.KernelIdeal.Regions

end
-- ==== Proof.Region2.lean ====
/-
  The third dense stage of the network, tiled over blocks of 5000 rows.

  At every grid point the body reads a block of 5000 aggregated rows, the matching 5000 entries of the two
  one-column scaling arrays, the whole bias row and the whole weight matrix, and writes the block
  max(a·nin + b, 0)·w scaled by nout, the weight matrix now 128 × 40.  Entry (p, c) of that block depends only on row p of
  the row-indexed operands, so the twenty blocks are the twenty restrictions of one whole-array function, the middle dense stage of the
  specification, and they tile the 100000 rows exactly.
-/
import proofs.«133676_j45578192945656_1_alg».proof.Proof.Gen.KernelIdeal.Frame
import proofs.«133676_j45578192945656_1_alg».proof.Proof.Spec
import proofs.«133676_j45578192945656_1_alg».proof.Proof.LibPlainDotFormats
import proofs.«133676_j45578192945656_1_alg».proof.Proof.LibKeepdims
import Idealize.ShloMosaic.Lib.ValueIdx
import Idealize.ShloMosaic.Lib.ValueLayout
import Idealize.ShloMosaic.Lib.Pipeline.Value

noncomputable section

namespace Cert.KernelIdeal.Regions

open Cert.KernelIdeal Cert.KernelIdeal.Gen Idealize.ShloMosaic Idealize.ShloMosaic.TcCoe Idealize.ShloMosaic.ValueIdx Idealize.SL.Sem
open scoped BigOperators

/-! ## The body's result at an entry -/

/-- The contraction of the body's matrix product is the plain one: the second axis of the left operand against the
    first axis of the right operand, no batch axis. -/
theorem plain2 : Cert.LibPlainDot.Plain dot_S5000x128_S128x40_S5000x40_1_0_0_1_n_n := ⟨rfl, rfl, rfl, rfl, rfl, rfl⟩

/-- Entry (p, q) of the block the body computes from the blocks it loaded: the sum over k of
    max(x0(p,k)·x1(p,0) + x2(0,k), 0)·x3(k,q), scaled by x4(p,0).  The narrowing of the two operands of the product is
    the identity on extended reals. -/
theorem pay2_apply (x0 : FVec Ideal S5000x128 .f32) (x1 : FVec Ideal S5000x1 .f32) (x2 : FVec Ideal S1x128 .f32)
    (x3 : FVec Ideal S128x40 .f32) (x4 : FVec Ideal S5000x1 .f32) (p : Fin 5000) (q : Fin 40) :
    k2_pay1 (F := Ideal) x0 x1 x2 x3 x4 (ix2 p q)
      = (∑ k : Fin 128, max (x0 (ix2 p k) * x1 (ix2 p (0 : Fin 1)) + x2 (ix2 (0 : Fin 1) k)) (Ideal.ofBits .f32 0x00000000#32)
            * x3 (ix2 k q)) * x4 (ix2 p (0 : Fin 1)) := by
  unfold k2_pay1
  refine (mulf_apply _ _ _).trans ?_
  refine congrArg₂ (· * ·) ?_ ?_
  · refine (Cert.LibPlainDot.Plain.matmul_zero_apply_formats plain2 none _ _ p q).trans ?_
    refine Finset.sum_congr rfl fun k _ => ?_
    refine congrArg₂ (· * ·) ?_ ?_
    · refine (truncf_apply (ψ := .bf16) _ bitsLt_bf16_f32 (ix2 p k)).trans ?_
      refine (maximumf_apply _ _ _).trans ?_
      refine congrArg₂ max ?_ ?_
      · refine (addf_apply _ _ _).trans ?_
        refine congrArg₂ (· + ·) ?_ ?_
        · refine (mulf_apply _ _ _).trans ?_
          refine congrArg₂ (· * ·) ?_ ?_
          · exact congrFun (shapeCast_self x0 _) (ix2 p k)
          · refine (Cert.LibKeepdims.broadcastTo_a1_ab_apply _ _ p k).trans ?_
            exact congrFun (shapeCast_self x1 _) _
        · refine (broadcastTo_1b_ab_apply _ _ p k).trans ?_
          exact congrFun (shapeCast_self x2 _) _
      · rfl
    · exact truncf_apply (ψ := .bf16) x3 bitsLt_bf16_f32 (ix2 k q)
  · refine (Cert.LibKeepdims.broadcastTo_a1_ab_apply _ _ p q).trans ?_
    exact congrFun (shapeCast_self x4 _) _

/-! ## From the blocks to the array -/

theorem hz2 : (![0, 0] : Fin 2 → Nat) = fun _ => 0 := funext fun a => by fin_cases a <;> rfl

/-- The block indices at grid point t: the three row-indexed inputs and the output are at block row t, the bias row
    and the weight matrix at their one block. -/
theorem block_indices2 : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = t.val ∧ win2_4.index t (1 : Fin 2) = 0
    ∧ win2_5.index t (0 : Fin 2) = t.val ∧ win2_5.index t (1 : Fin 2) = 0 :=
  (by decide +kernel : ∀ t : Fin grid2.N, _)

/-- What grid point t writes back is block t of the middle dense stage of the arrays the region finds: row p of the
    block is row 5000·t + p of every row-indexed array, and the bias row and the weight matrix are read whole. -/
theorem flushed2 (V : (c : Dev nD) → (b : Ref sig .tc) → Buf (Elt Ideal) ((c : Thread nD τ).loc b)) (c : Dev nD) (t : Fin cfg2.N) :
    (dat2 (F := Ideal) V c).flushed 5 t
      = ((cfg2.win 5).blk t).view.read (Elt Ideal)
          (Cert.GraphNet.midLayer (V c main_v43) (V c main_v18) (V c main_v20) (V c main_arg6) (V c main_v16)) := by
  show (cfg2.win 5).cut (grid2.coords t) ((dat2 V c).after 5 t) = _
  rw [after2_5]
  unfold out2_5
  rw [View.canon_unit_zero hz2]
  simp only [View.ld_unit_zero (S := S5000x128) hz2, View.ld_unit_zero (S := S5000x1) hz2,
    View.ld_unit_zero (S := S1x128) hz2, View.ld_unit_zero (S := S128x40) hz2]
  obtain ⟨e00, e01, e10, e11, e20, e21, e30, e31, e40, e41, e50, e51⟩ := block_indices2 t
  have ht : t.val < 20 := by
    have h : t.val < grid2.N := t.isLt
    rw [N_2] at h; exact h
  refine funext fun (j : S5000x40.Idx) => ?_
  obtain ⟨p, q, rfl⟩ : ∃ (p : Fin 5000) (q : Fin 40), j = ix2 p q := ⟨j 0, j 1, eq_ix2 j⟩
  have hp : p.val < 5000 := p.isLt
  show k2_pay1 (F := Ideal) (iblk2 V c 0 t) (iblk2 V c 1 t) (iblk2 V c 2 t) (iblk2 V c 3 t) (iblk2 V c 4 t) (ix2 p q)
    = Cert.GraphNet.midLayer (V c main_v43) (V c main_v18) (V c main_v20) (V c main_arg6) (V c main_v16)
        (((cfg2.win 5).blk t).view.emb (ix2 p q))
  -- row p of block t is row 5000·t + p of the array
  have hrow : t.val * 5000 + p.val < 100000 := by omega
  have hout : ((cfg2.win 5).blk t).view.emb (ix2 p q) = ix2 (⟨t.val * 5000 + p.val, hrow⟩ : Fin 100000) q := by
    funext a; apply Fin.ext
    match a with
    | ⟨0, _⟩ => show win2_5.index t (0 : Fin 2) * 5000 + 1 * p.val = t.val * 5000 + p.val; omega
    | ⟨1, _⟩ => show win2_5.index t (1 : Fin 2) * 40 + 1 * q.val = q.val; omega
  have r0 : ∀ k : Fin 128, iblk2 V c 0 t (ix2 p k) = V c main_v43 (ix2 (⟨t.val * 5000 + p.val, hrow⟩ : Fin 100000) k) := fun k => by
    show V c main_v43 (((cfg2.win 0).blk t).view.emb (ix2 p k)) = _
    refine congrArg (V c main_v43) ?_
    funext a; apply Fin.ext
    match a with
    | ⟨0, _⟩ => show win2_0.index t (0 : Fin 2) * 5000 + 1 * p.val = t.val * 5000 + p.val; omega
    | ⟨1, _⟩ => show win2_0.index t (1 : Fin 2) * 128 + 1 * k.val = k.val; omega
  have r1 : iblk2 V c 1 t (ix2 p (0 : Fin 1)) = V c main_v18 (ix2 (⟨t.val * 5000 + p.val, hrow⟩ : Fin 100000) (0 : Fin 1)) := by
    show V c main_v18 (((cfg2.win 1).blk t).view.emb (ix2 p (0 : Fin 1))) = _
    refine congrArg (V c main_v18) ?_
    funext a; apply Fin.ext
    match a with
    | ⟨0, _⟩ => show win2_1.index t (0 : Fin 2) * 5000 + 1 * p.val = t.val * 5000 + p.val; omega
    | ⟨1, _⟩ => show win2_1.index t (1 : Fin 2) * 1 + 1 * 0 = 0; omega
  have r2 : ∀ k : Fin 128, iblk2 V c 2 t (ix2 (0 : Fin 1) k) = V c main_v20 (ix2 (0 : Fin 1) k) := fun k => by
    show V c main_v20 (((cfg2.win 2).blk t).view.emb (ix2 (0 : Fin 1) k)) = _
    refine congrArg (V c main_v20) ?_
    funext a; apply Fin.ext
    match a with
    | ⟨0, _⟩ => show win2_2.index t (0 : Fin 2) * 1 + 1 * 0 = 0; omega
    | ⟨1, _⟩ => show win2_2.index t (1 : Fin 2) * 128 + 1 * k.val = k.val; omega
  have r3 : ∀ k : Fin 128, iblk2 V c 3 t (ix2 k q) = V c main_arg6 (ix2 k q) := fun k => by
    show V c main_arg6 (((cfg2.win 3).blk t).view.emb (ix2 k q)) = _
    refine congrArg (V c main_arg6) ?_
    funext a; apply Fin.ext
    match a with
    | ⟨0, _⟩ => show win2_3.index t (0 : Fin 2) * 128 + 1 * k.val = k.val; omega
    | ⟨1, _⟩ => show win2_3.index t (1 : Fin 2) * 40 + 1 * q.val = q.val; omega
  have r4 : iblk2 V c 4 t (ix2 p (0 : Fin 1)) = V c main_v16 (ix2 (⟨t.val * 5000 + p.val, hrow⟩ : Fin 100000) (0 : Fin 1)) := by
    show V c main_v16 (((cfg2.win 4).blk t).view.emb (ix2 p (0 : Fin 1))) = _
    refine congrArg (V c main_v16) ?_
    funext a; apply Fin.ext
    match a with
    | ⟨0, _⟩ => show win2_4.index t (0 : Fin 2) * 5000 + 1 * p.val = t.val * 5000 + p.val; omega
    | ⟨1, _⟩ => show win2_4.index t (1 : Fin 2) * 1 + 1 * 0 = 0; omega
  rw [hout]
  refine (pay2_apply (iblk2 V c 0 t) (iblk2 V c 1 t) (iblk2 V c 2 t) (iblk2 V c 3 t) (iblk2 V c 4 t) p q).trans ?_
  refine ((Cert.GraphNet.midLayer_apply (V c main_v43) (V c main_v18) (V c main_v20) (V c main_arg6) (V c main_v16)
    (⟨t.val * 5000 + p.val, hrow⟩ : Fin 100000) q).trans ?_).symm
  rw [r1, r4]
  refine congrArg (· * _) (Finset.sum_congr rfl fun k _ => ?_)
  rw [r0 k, r2 k, r3 k]

/-- An index of the array is in grid point t's block iff each coordinate is in the block's range on its axis. -/
theorem mem_blk2 (t : Fin cfg2.N) (i : S100000x40.Idx) :
    i ∈ ((cfg2.win 5).blk t).view.set
      ↔ ∀ a : Fin 2, win2_5.index t a * S5000x40.size a ≤ (i a).val ∧ (i a).val < win2_5.index t a * S5000x40.size a + S5000x40.size a := by
  show i ∈ ((View.whole main_v44).slice (win2_5.rect t)).set ↔ _
  rw [View.set_slice_whole, Rect.mem_set_unit]
  exact Iff.rfl

/-- The twenty blocks of 5000 rows tile the 100000 rows: row r is in the block of grid point r / 5000. -/
theorem cover2 (i : S100000x40.Idx) :
    ∃ t : Fin cfg2.N, (cfg2.win 5).flush t = true ∧ i ∈ ((cfg2.win 5).blk t).view.set := by
  have hi0 : (i 0).val < 100000 := (i 0).isLt
  have hi1 : (i 1).val < 40 := (i 1).isLt
  have hlt : (i 0).val / 5000 < grid2.N := by rw [N_2]; omega
  obtain ⟨-, -, -, -, -, -, -, -, -, -, e50, e51⟩ := block_indices2 ⟨(i 0).val / 5000, hlt⟩
  refine ⟨⟨(i 0).val / 5000, hlt⟩, flush2_5 _, ?_⟩
  rw [mem_blk2]
  intro a
  match a with
  | ⟨0, _⟩ =>
    show win2_5.index ⟨(i 0).val / 5000, hlt⟩ (0 : Fin 2) * 5000 ≤ (i 0).val
      ∧ (i 0).val < win2_5.index ⟨(i 0).val / 5000, hlt⟩ (0 : Fin 2) * 5000 + 5000
    rw [e50]
    show (i 0).val / 5000 * 5000 ≤ (i 0).val ∧ (i 0).val < (i 0).val / 5000 * 5000 + 5000
    omega
  | ⟨1, _⟩ =>
    show win2_5.index ⟨(i 0).val / 5000, hlt⟩ (1 : Fin 2) * 40 ≤ (i 1).val
      ∧ (i 1).val < win2_5.index ⟨(i 0).val / 5000, hlt⟩ (1 : Fin 2) * 40 + 40
    rw [e51]
    omega

/-- Region 2's output array after the region, as one function of the arrays the region finds. -/
theorem array2 (V : (c : Dev nD) → (b : Ref sig .tc) → Buf (Elt Ideal) ((c : Thread nD τ).loc b)) (c : Dev nD) :
    (dat2 (F := Ideal) V c).arrAt 5 cfg2.N
      = Cert.GraphNet.midLayer (V c main_v43) (V c main_v18) (V c main_v20) (V c main_arg6) (V c main_v16) :=
  (dat2 (F := Ideal) V c).arrAt_eq_of_cover 5 _ (fun t _ => flushed2 V c t) cover2

end Cert.KernelIdeal.Regions

end
-- ==== Proof.LibRowMax.lean ====
/-
  The maximum of a two-axis array along its second axis, read at a row: over the extended reals, started from the word
  of −∞ (which denotes the least extended real), the maximum of an `[a, b]` array along its columns is at row `i` the
  supremum over the columns `k` of the entries `(i, k)`.  It holds for any extents.
-/
import Idealize.ShloMosaic.Lib.ValueIdx
import Idealize.ShloMosaic.PureOps.Ideal.Laws

noncomputable section

open scoped BigOperators

namespace Cert.LibRowMax

open Idealize.ShloMosaic Idealize.ShloMosaic.ValueIdx

/-- The f32 word of −∞ denotes the least extended real. -/
theorem ofBits_neg_inf_f32 : Ideal.ofBits .f32 0xFF800000#32 = (⊥ : EReal) := by
  simp [Ideal.ofBits, Ideal.ieee]

/-- A fold of `max` from the least element is the supremum. -/
theorem fold_max_bot_eq_sup {ι : Type*} (s : Finset ι) (f : ι → EReal) : s.fold max ⊥ f = s.sup f := rfl

/-- Over the extended reals, the maximum of an `[a, b]` array along its second axis, started from the word of −∞, is
    at row `i` the supremum over the columns `k` of the entries `(i, k)`. -/
theorem multiReduction_max_rows_apply {a b : ℕ} (src : FVec Ideal ⟨2, ![a, b]⟩ .f32)
    (h : (⟨2, ![a, b]⟩ : Shape).Reduces [1] ⟨1, ![a]⟩) (hφ : FKind.Formats .f32)
    (hacc : (0xFF800000#32 : BitVec 32) = FKind.maximumf.neutral .f32 hφ) (i : Fin a) :
    multiReduction .maximumf [1] ⟨1, ![a]⟩ src 0xFF800000#32 h hφ hacc (ix1 i)
      = Finset.univ.sup fun k : Fin b => src (ix2 i k) := by
  refine (Ideal.multiReduction_maximumf_single src 0xFF800000#32 h hφ hacc (ix1 i)).trans ?_
  have hf : (src ∘ h.lift (ix1 i)) = fun k : Fin b => src (ix2 i k) :=
    funext fun k => congrArg src (funext fun ax => Fin.ext (by
      match ax with
      | ⟨0, _⟩ => rfl
      | ⟨1, _⟩ => rfl))
  rw [hf]
  show (Finset.univ : Finset (Fin b)).fold max (Ideal.ofBits .f32 0xFF800000#32) _ = _
  rw [ofBits_neg_inf_f32]
  exact fold_max_bot_eq_sup _ _

end Cert.LibRowMax

end
-- ==== Proof.LibRowLogSoftmax.lean ====
/-
  The logarithm of the softmax along each row of a two-axis array, as a tiled kernel spells it with vector operations,
  read at an entry.

  For an `[a, b]` array h the kernel takes the maximum of each row from the word of −∞, views the `[a]` result as one
  column and spreads it across the columns; subtracts it from h; takes the exponential entry by entry; sums each row from
  the zero word; views that as one column, takes the logarithm and spreads it across the columns; and subtracts it from
  the shifted array.  Entry (p, q) of the result is
      (h(p,q) − M) − log Σ_k exp (h(p,k) − M),   M the supremum of row p,
  which is entry (p, q) of `Cert.GraphNet.logSoftmaxRows h`.  Every step is the same operation on the same entries, so
  nothing needs an entry to be finite.  Generic in the extents; every side condition of the operations is a hypothesis.
-/
import Idealize.ShloMosaic.PureOps.Ideal.Laws
import Idealize.ShloMosaic.Lib.ValueIdx
import Idealize.ShloMosaic.Lib.Pipeline.Value
import proofs.«133676_j45578192945656_1_alg».proof.Proof.Spec
import proofs.«133676_j45578192945656_1_alg».proof.Proof.LibKeepdims
import proofs.«133676_j45578192945656_1_alg».proof.Proof.LibRowMax

noncomputable section

open scoped BigOperators

namespace Cert.LibRowLogSoftmax

open Idealize.ShloMosaic Idealize.ShloMosaic.ValueIdx Cert.GraphNet

variable {a b : ℕ}

/-- The row maximum, kept as one column and spread across the columns, is at `(p, q)` the supremum of row `p`. -/
theorem rowMax_keep_apply (h : FVec Ideal ⟨2, ![a, b]⟩ .f32)
    (hred : (⟨2, ![a, b]⟩ : Shape).Reduces [1] ⟨1, ![a]⟩) (hφ : FKind.Formats .f32)
    (hmax : (0xFF800000#32 : BitVec 32) = FKind.maximumf.neutral .f32 hφ)
    (hc : (⟨1, ![a]⟩ : Shape).ShapeCasts ⟨2, ![a, 1]⟩) (hb : (⟨2, ![a, 1]⟩ : Shape).Broadcasts ⟨2, ![a, b]⟩)
    (p : Fin a) (q : Fin b) :
    broadcastTo ⟨2, ![a, b]⟩
        (shapeCast ⟨2, ![a, 1]⟩ (multiReduction .maximumf [1] ⟨1, ![a]⟩ h 0xFF800000#32 hred hφ hmax) hc) hb (ix2 p q)
      = rowSup h p :=
  (Cert.LibKeepdims.broadcastTo_a1_ab_apply _ hb p q).trans
    ((Cert.LibKeepdims.shapeCast_a_a1_apply _ hc p 0).trans
      (Cert.LibRowMax.multiReduction_max_rows_apply h hred hφ hmax p))

/-- The array shifted by its row maxima: entry `(p, k)` is `h(p,k)` less the supremum of row `p`. -/
theorem shifted_apply (h : FVec Ideal ⟨2, ![a, b]⟩ .f32)
    (hred : (⟨2, ![a, b]⟩ : Shape).Reduces [1] ⟨1, ![a]⟩) (hφ : FKind.Formats .f32)
    (hmax : (0xFF800000#32 : BitVec 32) = FKind.maximumf.neutral .f32 hφ)
    (hc : (⟨1, ![a]⟩ : Shape).ShapeCasts ⟨2, ![a, 1]⟩) (hb : (⟨2, ![a, 1]⟩ : Shape).Broadcasts ⟨2, ![a, b]⟩)
    (p : Fin a) (k : Fin b) :
    subf h (broadcastTo ⟨2, ![a, b]⟩
        (shapeCast ⟨2, ![a, 1]⟩ (multiReduction .maximumf [1] ⟨1, ![a]⟩ h 0xFF800000#32 hred hφ hmax) hc) hb) (ix2 p k)
      = h (ix2 p k) - rowSup h p :=
  (subf_apply _ _ _).trans (congrArg (fun m => h (ix2 p k) - m) (rowMax_keep_apply h hred hφ hmax hc hb p k))

/-- The row sums of the exponentials of the shifted array. -/
theorem expSum_apply (h : FVec Ideal ⟨2, ![a, b]⟩ .f32)
    (hred : (⟨2, ![a, b]⟩ : Shape).Reduces [1] ⟨1, ![a]⟩) (hφ : FKind.Formats .f32)
    (hmax : (0xFF800000#32 : BitVec 32) = FKind.maximumf.neutral .f32 hφ)
    (hadd : (0x00000000#32 : BitVec 32) = FKind.add.neutral .f32 hφ)
    (hc : (⟨1, ![a]⟩ : Shape).ShapeCasts ⟨2, ![a, 1]⟩) (hb : (⟨2, ![a, 1]⟩ : Shape).Broadcasts ⟨2, ![a, b]⟩)
    (p : Fin a) :
    multiReduction .add [1] ⟨1, ![a]⟩
        (exp (subf h (broadcastTo ⟨2, ![a, b]⟩
          (shapeCast ⟨2, ![a, 1]⟩ (multiReduction .maximumf [1] ⟨1, ![a]⟩ h 0xFF800000#32 hred hφ hmax) hc) hb)))
        0x00000000#32 hred hφ hadd (ix1 p)
      = ∑ k : Fin b, Ideal.exp (h (ix2 p k) - rowSup h p) :=
  (Cert.LibKeepdims.multiReduction_add_rows_apply _ hred hφ hadd p).trans
    (Finset.sum_congr rfl fun k _ => congrArg Ideal.exp (shifted_apply h hred hφ hmax hc hb p k))

/-- The logarithm of the softmax along each row, spelt with the kernel's vector operations, read at `(p, q)`. -/
theorem rowLogSoftmax_apply (h : FVec Ideal ⟨2, ![a, b]⟩ .f32)
    (hred : (⟨2, ![a, b]⟩ : Shape).Reduces [1] ⟨1, ![a]⟩) (hφ : FKind.Formats .f32)
    (hmax : (0xFF800000#32 : BitVec 32) = FKind.maximumf.neutral .f32 hφ)
    (hadd : (0x00000000#32 : BitVec 32) = FKind.add.neutral .f32 hφ)
    (hc : (⟨1, ![a]⟩ : Shape).ShapeCasts ⟨2, ![a, 1]⟩) (hb : (⟨2, ![a, 1]⟩ : Shape).Broadcasts ⟨2, ![a, b]⟩)
    (p : Fin a) (q : Fin b) :
    subf
        (subf h (broadcastTo ⟨2, ![a, b]⟩
          (shapeCast ⟨2, ![a, 1]⟩ (multiReduction .maximumf [1] ⟨1, ![a]⟩ h 0xFF800000#32 hred hφ hmax) hc) hb))
        (broadcastTo ⟨2, ![a, b]⟩
          (log (shapeCast ⟨2, ![a, 1]⟩
            (multiReduction .add [1] ⟨1, ![a]⟩
              (exp (subf h (broadcastTo ⟨2, ![a, b]⟩
                (shapeCast ⟨2, ![a, 1]⟩ (multiReduction .maximumf [1] ⟨1, ![a]⟩ h 0xFF800000#32 hred hφ hmax) hc) hb)))
              0x00000000#32 hred hφ hadd) hc)) hb)
        (ix2 p q)
      = logSoftmaxRows h (ix2 p q) := by
  refine (subf_apply _ _ _).trans ?_
  rw [logSoftmaxRows_apply, shifted_apply h hred hφ hmax hc hb p q]
  refine congrArg (fun l => (h (ix2 p q) - rowSup h p) - l) ?_
  refine (Cert.LibKeepdims.broadcastTo_a1_ab_apply _ hb p q).trans ?_
  refine congrArg Ideal.log ?_
  exact (Cert.LibKeepdims.shapeCast_a_a1_apply _ hc p 0).trans (expSum_apply h hred hφ hmax hadd hc hb p)

end Cert.LibRowLogSoftmax

end
-- ==== Proof.Region3.lean ====
/-
  Region 3, the last dense stage, from blocks to the array.

  At grid point t the kernel reads rows 5000·t … 5000·t + 4999 of the aggregated array and of the one-column array, and
  the whole one-row array; it scales row p of the first block by entry p of the second, adds the row, and takes the
  logarithm of the softmax along each row.  Row p of the block it writes is therefore row 5000·t + p of
  `Cert.GraphNet.lastLayer` of the three whole arrays: the supremum, the sum, the exponentials and the logarithm are
  taken over the same forty entries.  The twenty blocks tile the 100000 rows, so the output array ends as that function.
-/
import proofs.«133676_j45578192945656_1_alg».proof.Proof.Gen.KernelIdeal.Frame
import proofs.«133676_j45578192945656_1_alg».proof.Proof.Spec
import proofs.«133676_j45578192945656_1_alg».proof.Proof.LibKeepdims
import proofs.«133676_j45578192945656_1_alg».proof.Proof.LibRowLogSoftmax
import Idealize.ShloMosaic.Lib.Pipeline.Value
import Idealize.ShloMosaic.Lib.ValueIdx
import Idealize.ShloMosaic.Lib.ValueLayout

noncomputable section
namespace Cert.KernelIdeal.Regions
open Cert.KernelIdeal Cert.KernelIdeal.Gen Idealize.ShloMosaic Idealize.ShloMosaic.TcCoe Idealize.ShloMosaic.ValueIdx Idealize.SL.Sem
open scoped BigOperators

/-- The block's pre-activation: row `p` of the aggregated block scaled by entry `p` of the one-column block, the
    one-row block added. -/
def pre3 (x0 : FVec Ideal S5000x40 .f32) (x1 : FVec Ideal S5000x1 .f32) (x2 : FVec Ideal S1x40 .f32) :
    FVec Ideal S5000x40 .f32 :=
  addf (mulf (shapeCast S5000x40 x0 shapeCasts_S5000x40_S5000x40)
      (broadcastTo S5000x40 (shapeCast S5000x1 x1 shapeCasts_S5000x1_S5000x1) broadcasts_S5000x1_S5000x40))
    (broadcastTo S5000x40 (shapeCast S1x40 x2 shapeCasts_S1x40_S1x40) broadcasts_S1x40_S5000x40)

/-- Entry `(p, q)` of the pre-activation. -/
theorem pre3_apply (x0 : FVec Ideal S5000x40 .f32) (x1 : FVec Ideal S5000x1 .f32) (x2 : FVec Ideal S1x40 .f32)
    (p : Fin 5000) (q : Fin 40) :
    pre3 x0 x1 x2 (ix2 p q) = x0 (ix2 p q) * x1 (ix2 p (0 : Fin 1)) + x2 (ix2 (0 : Fin 1) q) := by
  unfold pre3
  rw [shapeCast_self, shapeCast_self, shapeCast_self, addf_apply, mulf_apply,
    Cert.LibKeepdims.broadcastTo_a1_ab_apply, broadcastTo_1b_ab_apply]

/-- The payload is the logarithm of the softmax along the rows of the pre-activation. -/
theorem pay3_apply (x0 : FVec Ideal S5000x40 .f32) (x1 : FVec Ideal S5000x1 .f32) (x2 : FVec Ideal S1x40 .f32)
    (p : Fin 5000) (q : Fin 40) :
    k3_pay1 x0 x1 x2 (ix2 p q) = Cert.GraphNet.logSoftmaxRows (pre3 x0 x1 x2) (ix2 p q) := by
  unfold k3_pay1
  exact Cert.LibRowLogSoftmax.rowLogSoftmax_apply (pre3 x0 x1 x2) reduces_S5000x40_S5000 (.inl rfl) rfl rfl
    shapeCasts_S5000_S5000x1 broadcasts_S5000x1_S5000x40 p q

/-- One row of the block against one row of the arrays: where row `p` of the three blocks is row `r` of the aggregated
    array, entry `r` of the one-column array and the one-row array, row `p` of the payload is row `r` of the last stage. -/
theorem pay3_row (a : FVec Ideal S100000x40 .f32) (nin : FVec Ideal S100000x1 .f32) (b : FVec Ideal S1x40 .f32)
    (x0 : FVec Ideal S5000x40 .f32) (x1 : FVec Ideal S5000x1 .f32) (x2 : FVec Ideal S1x40 .f32)
    (r : Fin 100000) (p : Fin 5000)
    (h0 : ∀ k : Fin 40, x0 (ix2 p k) = a (ix2 r k)) (h1 : x1 (ix2 p (0 : Fin 1)) = nin (ix2 r (0 : Fin 1)))
    (h2 : ∀ k : Fin 40, x2 (ix2 (0 : Fin 1) k) = b (ix2 (0 : Fin 1) k)) (q : Fin 40) :
    k3_pay1 x0 x1 x2 (ix2 p q) = Cert.GraphNet.lastLayer a nin b (ix2 r q) := by
  have hrow : ∀ k : Fin 40, pre3 x0 x1 x2 (ix2 p k) = Cert.GraphNet.lastRow a nin b r k := fun k => by
    rw [pre3_apply, h0, h1, h2]; rfl
  have hsup : Cert.GraphNet.rowSup (pre3 x0 x1 x2) p = Finset.univ.sup (Cert.GraphNet.lastRow a nin b r) :=
    Finset.sup_congr rfl fun k _ => hrow k
  rw [pay3_apply, Cert.GraphNet.logSoftmaxRows_apply, Cert.GraphNet.lastLayer_apply, hsup, hrow q]
  have hsum : (∑ k : Fin 40, Ideal.exp (pre3 x0 x1 x2 (ix2 p k) - Finset.univ.sup (Cert.GraphNet.lastRow a nin b r)))
      = ∑ k : Fin 40, Ideal.exp (Cert.GraphNet.lastRow a nin b r k - Finset.univ.sup (Cert.GraphNet.lastRow a nin b r)) :=
    Finset.sum_congr rfl fun k _ => by rw [hrow k]
  rw [hsum]

theorem hz3 : (![0, 0] : Fin 2 → Nat) = fun _ => 0 := funext fun a => by fin_cases a <;> rfl

/-- The printed index maps over the grid: the two row-indexed inputs and the output sit at block row `t`, column block
    0; the one-row input at (0, 0). -/
theorem idx_facts3 : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0 :=
  (by decide +kernel : ∀ t : Fin grid3.N, _)

/-- Point `t` writes back block `t` of the last stage of the arrays the region finds. -/
theorem flushed3_eq (V : (c : Dev nD) → (b : Ref sig .tc) → Buf (Elt Ideal) ((c : Thread nD τ).loc b)) (c : Dev nD)
    (t : Fin cfg3.N) :
    (dat3 (F := Ideal) V c).flushed 3 t = ((cfg3.win 3).blk t).view.read (Elt Ideal)
      (Cert.GraphNet.lastLayer (V c main_v54 : FVec Ideal S100000x40 .f32) (V c main_v18 : FVec Ideal S100000x1 .f32)
        (V c main_v21 : FVec Ideal S1x40 .f32)) := by
  show (cfg3.win 3).cut (grid3.coords t) ((dat3 V c).after 3 t) = _
  rw [after3_3]
  unfold out3_3
  rw [View.canon_unit_zero hz3]
  simp only [View.ld_unit_zero (S := S5000x40) hz3, View.ld_unit_zero (S := S5000x1) hz3,
    View.ld_unit_zero (S := S1x40) hz3]
  obtain ⟨e00, e01, e10, e11, e20, e21, e30, e31⟩ := idx_facts3 t
  have ht : t.val < 20 := lt_of_lt_of_eq t.isLt N_3
  show (k3_pay1 (iblk3 V c 0 t) (iblk3 V c 1 t) (iblk3 V c 2 t) : S5000x40.Idx → EReal)
    = fun j : S5000x40.Idx => Cert.GraphNet.lastLayer (V c main_v54 : FVec Ideal S100000x40 .f32)
        (V c main_v18 : FVec Ideal S100000x1 .f32) (V c main_v21 : FVec Ideal S1x40 .f32)
        (((cfg3.win 3).blk t).view.emb j)
  funext j
  obtain ⟨p, q, rfl⟩ : ∃ (p : Fin 5000) (q : Fin 40), j = ix2 p q := ⟨j 0, j 1, eq_ix2 j⟩
  have hp : p.val < 5000 := p.isLt
  have hout : ((cfg3.win 3).blk t).view.emb (ix2 p q)
      = (ix2 (⟨t.val * 5000 + p.val, by omega⟩ : Fin 100000) q : S100000x40.Idx) := by
    funext a; apply Fin.ext
    match a with
    | ⟨0, _⟩ => show win3_3.index t (0 : Fin 2) * 5000 + 1 * p.val = t.val * 5000 + p.val; omega
    | ⟨1, _⟩ => show win3_3.index t (1 : Fin 2) * 40 + 1 * q.val = q.val; omega
  rw [hout]
  refine pay3_row _ _ _ _ _ _ ⟨t.val * 5000 + p.val, by omega⟩ p (fun k => ?_) ?_ (fun k => ?_) q
  · show V c main_v54 (((cfg3.win 0).blk t).view.emb (ix2 p k)) = V c main_v54 (ix2 ⟨t.val * 5000 + p.val, _⟩ k)
    refine congrArg (V c main_v54) (funext fun a => Fin.ext ?_)
    match a with
    | ⟨0, _⟩ => show win3_0.index t (0 : Fin 2) * 5000 + 1 * p.val = t.val * 5000 + p.val; omega
    | ⟨1, _⟩ => show win3_0.index t (1 : Fin 2) * 40 + 1 * k.val = k.val; omega
  · show V c main_v18 (((cfg3.win 1).blk t).view.emb (ix2 p (0 : Fin 1))) = V c main_v18 (ix2 ⟨t.val * 5000 + p.val, _⟩ (0 : Fin 1))
    refine congrArg (V c main_v18) (funext fun a => Fin.ext ?_)
    match a with
    | ⟨0, _⟩ => show win3_1.index t (0 : Fin 2) * 5000 + 1 * p.val = t.val * 5000 + p.val; omega
    | ⟨1, _⟩ => show win3_1.index t (1 : Fin 2) * 1 + 1 * 0 = 0; omega
  · show V c main_v21 (((cfg3.win 2).blk t).view.emb (ix2 (0 : Fin 1) k)) = V c main_v21 (ix2 (0 : Fin 1) k)
    refine congrArg (V c main_v21) (funext fun a => Fin.ext ?_)
    match a with
    | ⟨0, _⟩ => show win3_2.index t (0 : Fin 2) * 1 + 1 * 0 = 0; omega
    | ⟨1, _⟩ => show win3_2.index t (1 : Fin 2) * 40 + 1 * k.val = k.val; omega

/-- An index of the output array is in point `t`'s block iff each coordinate is in the block's range on its axis. -/
theorem mem_blk3 (t : Fin cfg3.N) (i : S100000x40.Idx) :
    i ∈ ((cfg3.win 3).blk t).view.set ↔ ∀ a : Fin 2, win3_3.index t a * S5000x40.size a ≤ (i a).val
      ∧ (i a).val < win3_3.index t a * S5000x40.size a + S5000x40.size a := by
  show i ∈ ((View.whole main_v55).slice (win3_3.rect t)).set ↔ _
  rw [View.set_slice_whole, Rect.mem_set_unit]
  exact Iff.rfl

/-- The twenty blocks of 5000 whole rows tile the 100000 rows: row `r` is in the block of point `r / 5000`. -/
theorem cover3 (i : S100000x40.Idx) :
    ∃ t : Fin cfg3.N, (cfg3.win 3).flush t = true ∧ i ∈ ((cfg3.win 3).blk t).view.set := by
  have hi0 : (i 0).val < 100000 := (i 0).isLt
  have hi1 : (i 1).val < 40 := (i 1).isLt
  have hN : grid3.N = 20 := N_3
  obtain ⟨t, ht⟩ : ∃ t : Fin cfg3.N, t.val = (i 0).val / 5000 :=
    ⟨⟨(i 0).val / 5000, by show (i 0).val / 5000 < grid3.N; omega⟩, rfl⟩
  obtain ⟨-, -, -, -, -, -, e30, e31⟩ := idx_facts3 t
  refine ⟨t, flush3_3 t, ?_⟩
  rw [mem_blk3]
  intro a
  match a with
  | ⟨0, _⟩ =>
    show win3_3.index t (0 : Fin 2) * 5000 ≤ (i 0).val ∧ (i 0).val < win3_3.index t (0 : Fin 2) * 5000 + 5000
    omega
  | ⟨1, _⟩ =>
    show win3_3.index t (1 : Fin 2) * 40 ≤ (i 1).val ∧ (i 1).val < win3_3.index t (1 : Fin 2) * 40 + 40
    omega

/-- Region 3's output array after the region, as one function of the arrays the region finds. -/
theorem array3 (V : (c : Dev nD) → (b : Ref sig .tc) → Buf (Elt Ideal) ((c : Thread nD τ).loc b)) (c : Dev nD) :
    (dat3 (F := Ideal) V c).arrAt 3 cfg3.N
      = Cert.GraphNet.lastLayer (V c main_v54 : FVec Ideal S100000x40 .f32) (V c main_v18 : FVec Ideal S100000x1 .f32)
          (V c main_v21 : FVec Ideal S1x40 .f32) :=
  (dat3 V c).arrAt_eq_of_cover 3 _ (fun t _ => flushed3_eq V c t) cover3

end Cert.KernelIdeal.Regions

end
-- ==== Proof.KernelValue.lean ====
/-
  The idealized kernel's result array as a function of its arguments.

  Walking the boundaries of @main: the first stretch computes the index vectors, the degree columns and the bias rows
  from the arguments; region 0 leaves the first dense stage of the features; each later stretch aggregates the previous
  region's output along the edges and each later region applies the next dense stage to it, reading the degree columns,
  bias rows and weights that nothing has written since the first stretch.  Composed, the last region's output array is
  the three-layer network of the arguments.
-/
import proofs.«133676_j45578192945656_1_alg».proof.Proof.KernelHost
import proofs.«133676_j45578192945656_1_alg».proof.Proof.KernelRun
import proofs.«133676_j45578192945656_1_alg».proof.Proof.Region0
import proofs.«133676_j45578192945656_1_alg».proof.Proof.Region1
import proofs.«133676_j45578192945656_1_alg».proof.Proof.Region2
import proofs.«133676_j45578192945656_1_alg».proof.Proof.Region3

set_option maxRecDepth 16384

noncomputable section

namespace Cert.KernelIdeal.Whole

open Cert.KernelIdeal Cert.KernelIdeal.Gen Cert.KernelIdeal.Fold Cert.KernelIdeal.Regions
open Idealize.ShloMosaic Idealize.ShloMosaic.TcCoe Idealize.SL.Sem Idealize.ShloMosaic.StableHlo
open Cert.GraphNet Cert.GraphNet.Host

variable (m : (ℓ : Loc nD τ sig) → Buf (Elt Ideal) ℓ) (ρ : Dev nD → PrngReg) (c : Dev nD)

/-! ## After the first stretch -/

theorem V1_arg0 : V1 m ρ c main_arg0 = m ((c.tc : Thread nD τ).loc main_arg0) := ops0_arg0 (W0 m ρ c)
theorem V1_arg2 : V1 m ρ c main_arg2 = m ((c.tc : Thread nD τ).loc main_arg2) := ops0_arg2 (W0 m ρ c)
theorem W1_arg4 : W1 m ρ c (Proc.devRef .tc main_arg4) = m ((c.tc : Thread nD τ).loc main_arg4) := ops0_arg4 (W0 m ρ c)
theorem W1_arg6 : W1 m ρ c (Proc.devRef .tc main_arg6) = m ((c.tc : Thread nD τ).loc main_arg6) := ops0_arg6 (W0 m ρ c)
theorem W1_v1 : W1 m ρ c (Proc.devRef .tc main_v1) = srcIdx (m ((c.tc : Thread nD τ).loc main_arg1)) := ops0_v1 (W0 m ρ c)
theorem W1_v3 : W1 m ρ c (Proc.devRef .tc main_v3) = dstIdx (m ((c.tc : Thread nD τ).loc main_arg1)) := ops0_v3 (W0 m ρ c)
theorem W1_v16 : W1 m ρ c (Proc.devRef .tc main_v16) = col (degNorm (srcIdx (m ((c.tc : Thread nD τ).loc main_arg1)))) := ops0_v16 (W0 m ρ c)
theorem W1_v18 : W1 m ρ c (Proc.devRef .tc main_v18) = col (degNorm (dstIdx (m ((c.tc : Thread nD τ).loc main_arg1)))) := ops0_v18 (W0 m ρ c)
theorem W1_v19 : W1 m ρ c (Proc.devRef .tc main_v19) = row128 (m ((c.tc : Thread nD τ).loc main_arg3)) := ops0_v19 (W0 m ρ c)
theorem W1_v20 : W1 m ρ c (Proc.devRef .tc main_v20) = row128 (m ((c.tc : Thread nD τ).loc main_arg5)) := ops0_v20 (W0 m ρ c)
theorem W1_v21 : W1 m ρ c (Proc.devRef .tc main_v21) = row40 (m ((c.tc : Thread nD τ).loc main_arg7)) := ops0_v21 (W0 m ρ c)

/-! ## The layers, one boundary at a time -/

/-- Region 0's output array: the first dense stage of the features. -/
theorem out0 : W2 m ρ c (Proc.devRef .tc main_v22)
    = firstLayer (m ((c.tc : Thread nD τ).loc main_arg0)) (m ((c.tc : Thread nD τ).loc main_arg2)) (col (degNorm (srcIdx (m ((c.tc : Thread nD τ).loc main_arg1))))) := by
  refine (W2_arr m ρ c 3).trans ((array0 (V1 m ρ) c).trans ?_)
  rw [V1_arg0, V1_arg2, show V1 m ρ c main_v16 = _ from W1_v16 m ρ c]

/-- Region 1's output array: the middle stage of region 0's output aggregated along the edges. -/
theorem out1 : W4 m ρ c (Proc.devRef .tc main_v33)
    = midLayer (aggK (m ((c.tc : Thread nD τ).loc main_arg1)) (firstLayer (m ((c.tc : Thread nD τ).loc main_arg0)) (m ((c.tc : Thread nD τ).loc main_arg2)) (col (degNorm (srcIdx (m ((c.tc : Thread nD τ).loc main_arg1)))))))
        (col (degNorm (dstIdx (m ((c.tc : Thread nD τ).loc main_arg1))))) (row128 (m ((c.tc : Thread nD τ).loc main_arg3))) (m ((c.tc : Thread nD τ).loc main_arg4))
        (col (degNorm (srcIdx (m ((c.tc : Thread nD τ).loc main_arg1))))) := by
  refine (W4_arr m ρ c 5).trans ((array1 (V3 m ρ) c).trans ?_)
  rw [show V3 m ρ c main_v32 = _ from (ops1_v32 (W2 m ρ c) (m ((c.tc : Thread nD τ).loc main_arg1)) ((W2_v1 m ρ c).trans (W1_v1 m ρ c)) ((W2_v3 m ρ c).trans (W1_v3 m ρ c))).trans (congrArg _ (out0 m ρ c)),
    show V3 m ρ c main_v18 = _ from (W3_v18 m ρ c).trans (W1_v18 m ρ c),
    show V3 m ρ c main_v19 = _ from (W3_v19 m ρ c).trans (W1_v19 m ρ c),
    show V3 m ρ c main_arg4 = _ from (W3_arg4 m ρ c).trans (W1_arg4 m ρ c),
    show V3 m ρ c main_v16 = _ from (W3_v16 m ρ c).trans (W1_v16 m ρ c)]

/-- Region 2's output array. -/
theorem out2 : W6 m ρ c (Proc.devRef .tc main_v44)
    = midLayer (aggK (m ((c.tc : Thread nD τ).loc main_arg1))
          (midLayer (aggK (m ((c.tc : Thread nD τ).loc main_arg1)) (firstLayer (m ((c.tc : Thread nD τ).loc main_arg0)) (m ((c.tc : Thread nD τ).loc main_arg2)) (col (degNorm (srcIdx (m ((c.tc : Thread nD τ).loc main_arg1)))))))
            (col (degNorm (dstIdx (m ((c.tc : Thread nD τ).loc main_arg1))))) (row128 (m ((c.tc : Thread nD τ).loc main_arg3))) (m ((c.tc : Thread nD τ).loc main_arg4))
            (col (degNorm (srcIdx (m ((c.tc : Thread nD τ).loc main_arg1)))))))
        (col (degNorm (dstIdx (m ((c.tc : Thread nD τ).loc main_arg1))))) (row128 (m ((c.tc : Thread nD τ).loc main_arg5))) (m ((c.tc : Thread nD τ).loc main_arg6))
        (col (degNorm (srcIdx (m ((c.tc : Thread nD τ).loc main_arg1))))) := by
  refine (W6_arr m ρ c 5).trans ((array2 (V5 m ρ) c).trans ?_)
  rw [show V5 m ρ c main_v43 = _ from (ops2_v43 (W4 m ρ c) (m ((c.tc : Thread nD τ).loc main_arg1)) ((W4_v1 m ρ c).trans (W1_v1 m ρ c)) ((W4_v3 m ρ c).trans (W1_v3 m ρ c))).trans (congrArg _ (out1 m ρ c)),
    show V5 m ρ c main_v18 = _ from (W5_v18 m ρ c).trans (W1_v18 m ρ c),
    show V5 m ρ c main_v20 = _ from (W5_v20 m ρ c).trans (W1_v20 m ρ c),
    show V5 m ρ c main_arg6 = _ from (W5_arg6 m ρ c).trans (W1_arg6 m ρ c),
    show V5 m ρ c main_v16 = _ from (W5_v16 m ρ c).trans (W1_v16 m ρ c)]

/-- The last region's output array is the network of the arguments. -/
theorem result : (dat3 (F := Ideal) (V7 m ρ) c).arrAt 3 cfg3.N
    = Host.result (m ((c.tc : Thread nD τ).loc main_arg0)) (m ((c.tc : Thread nD τ).loc main_arg1)) (m ((c.tc : Thread nD τ).loc main_arg2)) (m ((c.tc : Thread nD τ).loc main_arg3))
        (m ((c.tc : Thread nD τ).loc main_arg4)) (m ((c.tc : Thread nD τ).loc main_arg5)) (m ((c.tc : Thread nD τ).loc main_arg6)) (m ((c.tc : Thread nD τ).loc main_arg7)) := by
  refine (array3 (V7 m ρ) c).trans ?_
  rw [show V7 m ρ c main_v54 = _ from (ops3_v54 (W6 m ρ c) (m ((c.tc : Thread nD τ).loc main_arg1)) ((W6_v1 m ρ c).trans (W1_v1 m ρ c)) ((W6_v3 m ρ c).trans (W1_v3 m ρ c))).trans (congrArg _ (out2 m ρ c)),
    show V7 m ρ c main_v18 = _ from (W7_v18 m ρ c).trans (W1_v18 m ρ c),
    show V7 m ρ c main_v21 = _ from (W7_v21 m ρ c).trans (W1_v21 m ρ c)]
  rfl

/-- The kernel's run with its result named: the network of the arguments, the arguments as launched. -/
theorem run : θ_run (defs (F := Ideal)) (onTc (τ := τ) (main (F := Ideal))) ⟨m, fun _ => 0, ρ⟩ (fun r => ∀ c : Dev nD,
      r.2.mem ((c.tc : Thread nD τ).loc main_v55) = Host.result (m ((c.tc : Thread nD τ).loc main_arg0)) (m ((c.tc : Thread nD τ).loc main_arg1)) (m ((c.tc : Thread nD τ).loc main_arg2)) (m ((c.tc : Thread nD τ).loc main_arg3))
        (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => ⟨(h c).1.trans (result m ρ c), (h c).2⟩) (Cert.KernelIdeal.RunAll.run_result m ρ)

end Cert.KernelIdeal.Whole

end
-- ==== Proof.LibHostNet.lean ====
/-
  The dense stages of a graph convolution network, as the compositions of whole-array host operations an array
  program spells them with.

  Each of the three stages of the specification is a whole-array function given entry by entry.  An array program
  writes the same stage with a dot_general, element-wise products, sums and maxima, broadcasts of a per-row vector
  to a column and along the columns, broadcasts of a bias vector to a row and down the rows, a broadcast scalar, and —
  for the last stage — the logarithm of the softmax along each row written out: the row maximum taken by a reduction
  from −∞ (and once more against a broadcast −∞), the shifted entries, their exponentials summed by a reduction from
  zero, the logarithm of the sums, and the second subtraction.

  The theorems say that each such composition IS the specification's stage, as an equality of whole arrays over the
  extended reals:

  * firstLayer_eq_host: the product with a weight matrix, then row p scaled by entry p of a vector;
  * midLayer_eq_host: rows scaled, a bias row added, the maximum with zero, then the product and the scaling;
  * hostLogSoftmax_eq: the written-out logarithm of the softmax is entry (p, q) ↦ (X(p,q) − M) − log Σ_k exp(X(p,k) − M)
    with M the supremum of row p — the fold of max from −∞ over a row is the supremum, the maximum of −∞ with it is
    itself, and the sum from zero is the sum;
  * lastLayer_eq_host: rows scaled, a bias row added, then that logarithm of the softmax.

  Nothing here needs an entry to be finite: every step is the same product, sum, maximum, exponential or logarithm of
  the same entries.  Generic in the extents A, K, B and in the records of the host operations; every side condition is
  a hypothesis.
-/
import Idealize.ShloMosaic.PureOps.Ideal.Laws
import Idealize.ShloMosaic.PureOps.Reduce
import Idealize.ShloMosaic.Lib.ValueIdx
import Idealize.ShloMosaic.Lib.ValueLayout
import Idealize.ShloMosaic.Lib.Pipeline.Value
import proofs.«133676_j45578192945656_1_alg».proof.Proof.Spec
import proofs.«133676_j45578192945656_1_alg».proof.Proof.LibTileOps
import proofs.«133676_j45578192945656_1_alg».proof.Proof.LibJoinedRows
import proofs.«133676_j45578192945656_1_alg».proof.Proof.LibRowMax

noncomputable section

namespace Cert.LibHostNet

open Idealize.ShloMosaic Idealize.ShloMosaic.ValueIdx Cert.LibTileOps
open scoped BigOperators

variable {A K B : ℕ}

/-! ## The first and the middle stages -/

/-- A dot_general of plain dimension numbers, then a product with a per-row vector broadcast to a column and along the
    columns, is the first dense stage. -/
theorem firstLayer_eq_host
    (hv1 : (⟨1, ![A]⟩ : Shape).BroadcastsInDim ⟨2, ![A, 1]⟩ (![0] : Fin 1 → Fin 2))
    (hvB : (⟨2, ![A, 1]⟩ : Shape).BroadcastsInDim ⟨2, ![A, B]⟩ (![0, 1] : Fin 2 → Fin 2))
    (hcA : (⟨1, ![A]⟩ : Shape).ShapeCasts ⟨2, ![A, 1]⟩)
    {D : DotDims ⟨2, ![A, K]⟩ ⟨2, ![K, B]⟩ ⟨2, ![A, B]⟩} (hD : Cert.LibPlainDot.Plain D)
    (prec : Option ContractPrecision)
    (x : FVec Ideal ⟨2, ![A, K]⟩ .f32) (w : FVec Ideal ⟨2, ![K, B]⟩ .f32) (n : FVec Ideal ⟨1, ![A]⟩ .f32) :
    mulf (Host.dotGeneral D prec x w)
        (broadcastInDim ⟨2, ![A, B]⟩ ![0, 1] hvB (broadcastInDim ⟨2, ![A, 1]⟩ ![0] hv1 n))
      = Cert.GraphNet.firstLayer x w (shapeCast ⟨2, ![A, 1]⟩ n hcA) := by
  rw [dotGeneral_eq_matProd hD, mulf_bcast_col_eq_scaleRows hv1 hvB hcA]
  rfl

/-- Rows scaled by a broadcast vector, a broadcast bias row added, the maximum with a broadcast zero, then the
    dot_general and the scaling of its rows: a middle dense stage. -/
theorem midLayer_eq_host
    (hv1 : (⟨1, ![A]⟩ : Shape).BroadcastsInDim ⟨2, ![A, 1]⟩ (![0] : Fin 1 → Fin 2))
    (hvK : (⟨2, ![A, 1]⟩ : Shape).BroadcastsInDim ⟨2, ![A, K]⟩ (![0, 1] : Fin 2 → Fin 2))
    (hvB : (⟨2, ![A, 1]⟩ : Shape).BroadcastsInDim ⟨2, ![A, B]⟩ (![0, 1] : Fin 2 → Fin 2))
    (hr1K : (⟨1, ![K]⟩ : Shape).BroadcastsInDim ⟨2, ![1, K]⟩ (![1] : Fin 1 → Fin 2))
    (hr2K : (⟨2, ![1, K]⟩ : Shape).BroadcastsInDim ⟨2, ![A, K]⟩ (![0, 1] : Fin 2 → Fin 2))
    (h0K : (⟨0, ![]⟩ : Shape).BroadcastsInDim ⟨2, ![A, K]⟩ (![] : Fin 0 → Fin 2))
    (hcA : (⟨1, ![A]⟩ : Shape).ShapeCasts ⟨2, ![A, 1]⟩)
    (hcK : (⟨1, ![K]⟩ : Shape).ShapeCasts ⟨2, ![1, K]⟩)
    {D : DotDims ⟨2, ![A, K]⟩ ⟨2, ![K, B]⟩ ⟨2, ![A, B]⟩} (hD : Cert.LibPlainDot.Plain D)
    (prec : Option ContractPrecision)
    (a : FVec Ideal ⟨2, ![A, K]⟩ .f32) (nin : FVec Ideal ⟨1, ![A]⟩ .f32) (b : FVec Ideal ⟨1, ![K]⟩ .f32)
    (w : FVec Ideal ⟨2, ![K, B]⟩ .f32) (nout : FVec Ideal ⟨1, ![A]⟩ .f32) :
    mulf (Host.dotGeneral D prec
            (maximumf
              (addf (mulf a (broadcastInDim ⟨2, ![A, K]⟩ ![0, 1] hvK (broadcastInDim ⟨2, ![A, 1]⟩ ![0] hv1 nin)))
                    (broadcastInDim ⟨2, ![A, K]⟩ ![0, 1] hr2K (broadcastInDim ⟨2, ![1, K]⟩ ![1] hr1K b)))
              (broadcastInDim ⟨2, ![A, K]⟩ ![] h0K (constant (F := Ideal) ⟨0, ![]⟩ .f32 0x00000000#32)))
            w)
        (broadcastInDim ⟨2, ![A, B]⟩ ![0, 1] hvB (broadcastInDim ⟨2, ![A, 1]⟩ ![0] hv1 nout))
      = Cert.GraphNet.midLayer a (shapeCast ⟨2, ![A, 1]⟩ nin hcA) (shapeCast ⟨2, ![1, K]⟩ b hcK) w
          (shapeCast ⟨2, ![A, 1]⟩ nout hcA) := by
  rw [mulf_bcast_col_eq_scaleRows hv1 hvK hcA, maximumf_addf_bcast_row_eq_addRowClamp hr1K hr2K hcK h0K,
    dotGeneral_eq_matProd hD, mulf_bcast_col_eq_scaleRows hv1 hvB hcA]
  rfl

/-! ## The logarithm of the softmax along each row, written out -/

/-- The logarithm of the softmax along each row as an array program writes it: the row maximum from a reduction
    started at −∞ and taken once more against a broadcast −∞; the entries shifted by it; the exponentials of the
    shifted entries summed along each row from zero; the logarithm of the sums subtracted from the shifted entries. -/
def hostLogSoftmax
    (hv1 : (⟨1, ![A]⟩ : Shape).BroadcastsInDim ⟨2, ![A, 1]⟩ (![0] : Fin 1 → Fin 2))
    (hvB : (⟨2, ![A, 1]⟩ : Shape).BroadcastsInDim ⟨2, ![A, B]⟩ (![0, 1] : Fin 2 → Fin 2))
    (h0v : (⟨0, ![]⟩ : Shape).BroadcastsInDim ⟨1, ![A]⟩ (![] : Fin 0 → Fin 1))
    (hredTo : (⟨2, ![A, B]⟩ : Shape).ReducesTo [1] ⟨1, ![A]⟩)
    (hu : 0 < (⟨0, ![]⟩ : Shape).numel)
    (X : FVec Ideal ⟨2, ![A, B]⟩ .f32) : FVec Ideal ⟨2, ![A, B]⟩ .f32 :=
  subf
    (subf X (broadcastInDim ⟨2, ![A, B]⟩ ![0, 1] hvB (broadcastInDim ⟨2, ![A, 1]⟩ ![0] hv1
      (maximumf (broadcastInDim ⟨1, ![A]⟩ ![] h0v (constant (F := Ideal) ⟨0, ![]⟩ .f32 0xFF800000#32))
        (Host.reduce FloatOps.maximumf X (constant (F := Ideal) ⟨0, ![]⟩ .f32 0xFF800000#32) hredTo hu)))))
    (broadcastInDim ⟨2, ![A, B]⟩ ![0, 1] hvB (Host.log (broadcastInDim ⟨2, ![A, 1]⟩ ![0] hv1
      (Host.reduceAdd
        (Host.exp
          (subf X (broadcastInDim ⟨2, ![A, B]⟩ ![0, 1] hvB (broadcastInDim ⟨2, ![A, 1]⟩ ![0] hv1
            (maximumf (broadcastInDim ⟨1, ![A]⟩ ![] h0v (constant (F := Ideal) ⟨0, ![]⟩ .f32 0xFF800000#32))
              (Host.reduce FloatOps.maximumf X (constant (F := Ideal) ⟨0, ![]⟩ .f32 0xFF800000#32) hredTo hu))))))
        (constant (F := Ideal) ⟨0, ![]⟩ .f32 0x00000000#32) hredTo hu))))

/-- The host's logarithm reads, at an index, the logarithm of the entry there. -/
theorem hostLog_apply {s : Shape} (x : FVec Ideal s .f32) (i : s.Idx) : Host.log x i = Ideal.log (x i) := rfl

/-- The host's exponential reads, at an index, the exponential of the entry there. -/
theorem hostExp_apply {s : Shape} (x : FVec Ideal s .f32) (i : s.Idx) : Host.exp x i = Ideal.exp (x i) := rfl

/-- Row p with the column k put back on the reduced axis is the entry (p, k). -/
theorem lift_row (h : (⟨2, ![A, B]⟩ : Shape).Reduces [1] ⟨1, ![A]⟩) (p : Fin A)
    (k : Fin ((⟨2, ![A, B]⟩ : Shape).size 1)) : h.lift (ix1 p) k = ix2 p (⟨k.val, k.isLt⟩ : Fin B) := by
  funext c
  apply Fin.ext
  match c with
  | ⟨0, _⟩ => rfl
  | ⟨1, _⟩ => rfl

/-- The maximum of a broadcast −∞ with the reduction by maxima from −∞ along the rows is, at row p, the supremum of
    row p. -/
theorem hostRowMax_apply
    (h0v : (⟨0, ![]⟩ : Shape).BroadcastsInDim ⟨1, ![A]⟩ (![] : Fin 0 → Fin 1))
    (hredTo : (⟨2, ![A, B]⟩ : Shape).ReducesTo [1] ⟨1, ![A]⟩)
    (hu : 0 < (⟨0, ![]⟩ : Shape).numel)
    (X : FVec Ideal ⟨2, ![A, B]⟩ .f32) (p : Fin A) :
    maximumf (broadcastInDim ⟨1, ![A]⟩ ![] h0v (constant (F := Ideal) ⟨0, ![]⟩ .f32 0xFF800000#32))
        (Host.reduce FloatOps.maximumf X (constant (F := Ideal) ⟨0, ![]⟩ .f32 0xFF800000#32) hredTo hu) (ix1 p)
      = Cert.GraphNet.rowSup X p := by
  have hred : (⟨2, ![A, B]⟩ : Shape).Reduces [1] ⟨1, ![A]⟩ := ⟨hredTo.1, Nat.one_pos, hredTo.2⟩
  rw [maximumf_apply, Cert.LibJoinedRows.bcast_scalar_apply, constant_apply,
    Host.reduce_eq_fold_single FloatOps.maximumf X _ hredTo hred hu, constant_apply,
    Cert.LibRowMax.ofBits_neg_inf_f32]
  have hf : (X ∘ hred.lift (ix1 p)) = fun k : Fin B => X (ix2 p k) :=
    funext fun k => congrArg X (lift_row hred p k)
  rw [hf]
  show max (⊥ : EReal) ((Finset.univ : Finset (Fin B)).fold max ⊥ fun k => X (ix2 p k)) = _
  rw [Cert.LibRowMax.fold_max_bot_eq_sup, bot_sup_eq]
  rfl

/-- The reduction by sums from zero along the rows is, at row p, the sum of row p. -/
theorem hostRowSum_apply
    (hredTo : (⟨2, ![A, B]⟩ : Shape).ReducesTo [1] ⟨1, ![A]⟩)
    (hu : 0 < (⟨0, ![]⟩ : Shape).numel)
    (Y : FVec Ideal ⟨2, ![A, B]⟩ .f32) (p : Fin A) :
    Host.reduceAdd Y (constant (F := Ideal) ⟨0, ![]⟩ .f32 0x00000000#32) hredTo hu (ix1 p)
      = ∑ k : Fin B, Y (ix2 p k) := by
  have hred : (⟨2, ![A, B]⟩ : Shape).Reduces [1] ⟨1, ![A]⟩ := ⟨hredTo.1, Nat.one_pos, hredTo.2⟩
  show Ideal.hostReduceAdd hredTo Y _ (ix1 p) = _
  rw [Ideal.hostReduceAdd_single hredTo hred, constant_apply, Ideal.ofBits_zero_f32, zero_add]
  exact Finset.sum_congr rfl fun k _ => congrArg Y (lift_row hred p k)

/-- The written-out logarithm of the softmax is the specification's: entry (p, q) is
    (X(p,q) − M) − log Σ_k exp(X(p,k) − M) with M the supremum of row p. -/
theorem hostLogSoftmax_eq
    (hv1 : (⟨1, ![A]⟩ : Shape).BroadcastsInDim ⟨2, ![A, 1]⟩ (![0] : Fin 1 → Fin 2))
    (hvB : (⟨2, ![A, 1]⟩ : Shape).BroadcastsInDim ⟨2, ![A, B]⟩ (![0, 1] : Fin 2 → Fin 2))
    (h0v : (⟨0, ![]⟩ : Shape).BroadcastsInDim ⟨1, ![A]⟩ (![] : Fin 0 → Fin 1))
    (hredTo : (⟨2, ![A, B]⟩ : Shape).ReducesTo [1] ⟨1, ![A]⟩)
    (hu : 0 < (⟨0, ![]⟩ : Shape).numel)
    (X : FVec Ideal ⟨2, ![A, B]⟩ .f32) :
    hostLogSoftmax hv1 hvB h0v hredTo hu X = Cert.GraphNet.logSoftmaxRows X := by
  -- the shifted entries, read at (p, k)
  have hsh : ∀ (p : Fin A) (k : Fin B),
      subf X (broadcastInDim ⟨2, ![A, B]⟩ ![0, 1] hvB (broadcastInDim ⟨2, ![A, 1]⟩ ![0] hv1
        (maximumf (broadcastInDim ⟨1, ![A]⟩ ![] h0v (constant (F := Ideal) ⟨0, ![]⟩ .f32 0xFF800000#32))
          (Host.reduce FloatOps.maximumf X (constant (F := Ideal) ⟨0, ![]⟩ .f32 0xFF800000#32) hredTo hu))))
        (ix2 p k) = X (ix2 p k) - Cert.GraphNet.rowSup X p := by
    intro p k
    rw [subf_apply, Cert.LibJoinedRows.bcast_col_rows_apply, Cert.LibJoinedRows.bcast_vec_col_apply,
      hostRowMax_apply]
  funext i
  obtain ⟨p, q, rfl⟩ : ∃ (p : Fin A) (q : Fin B), i = ix2 p q := ⟨i 0, i 1, eq_ix2 i⟩
  rw [Cert.GraphNet.logSoftmaxRows_apply]
  unfold hostLogSoftmax
  rw [subf_apply, hsh, Cert.LibJoinedRows.bcast_col_rows_apply, hostLog_apply,
    Cert.LibJoinedRows.bcast_vec_col_apply, hostRowSum_apply]
  refine congrArg (fun s => (X (ix2 p q) - Cert.GraphNet.rowSup X p) - Ideal.log s) ?_
  refine Finset.sum_congr rfl fun k _ => ?_
  rw [hostExp_apply, hsh]

/-! ## The last stage -/

/-- Rows scaled by a broadcast vector, a broadcast bias row added, then the written-out logarithm of the softmax:
    the last dense stage. -/
theorem lastLayer_eq_host
    (hv1 : (⟨1, ![A]⟩ : Shape).BroadcastsInDim ⟨2, ![A, 1]⟩ (![0] : Fin 1 → Fin 2))
    (hvB : (⟨2, ![A, 1]⟩ : Shape).BroadcastsInDim ⟨2, ![A, B]⟩ (![0, 1] : Fin 2 → Fin 2))
    (hr1B : (⟨1, ![B]⟩ : Shape).BroadcastsInDim ⟨2, ![1, B]⟩ (![1] : Fin 1 → Fin 2))
    (hr2B : (⟨2, ![1, B]⟩ : Shape).BroadcastsInDim ⟨2, ![A, B]⟩ (![0, 1] : Fin 2 → Fin 2))
    (h0v : (⟨0, ![]⟩ : Shape).BroadcastsInDim ⟨1, ![A]⟩ (![] : Fin 0 → Fin 1))
    (hcA : (⟨1, ![A]⟩ : Shape).ShapeCasts ⟨2, ![A, 1]⟩)
    (hcB : (⟨1, ![B]⟩ : Shape).ShapeCasts ⟨2, ![1, B]⟩)
    (hredTo : (⟨2, ![A, B]⟩ : Shape).ReducesTo [1] ⟨1, ![A]⟩)
    (hu : 0 < (⟨0, ![]⟩ : Shape).numel)
    (a : FVec Ideal ⟨2, ![A, B]⟩ .f32) (nin : FVec Ideal ⟨1, ![A]⟩ .f32) (b : FVec Ideal ⟨1, ![B]⟩ .f32) :
    hostLogSoftmax hv1 hvB h0v hredTo hu
        (addf (mulf a (broadcastInDim ⟨2, ![A, B]⟩ ![0, 1] hvB (broadcastInDim ⟨2, ![A, 1]⟩ ![0] hv1 nin)))
              (broadcastInDim ⟨2, ![A, B]⟩ ![0, 1] hr2B (broadcastInDim ⟨2, ![1, B]⟩ ![1] hr1B b)))
      = Cert.GraphNet.lastLayer a (shapeCast ⟨2, ![A, 1]⟩ nin hcA) (shapeCast ⟨2, ![1, B]⟩ b hcB) := by
  rw [hostLogSoftmax_eq, mulf_bcast_col_eq_scaleRows hv1 hvB hcA, addf_bcast_row_eq_addRow hr1B hr2B hcB]
  rfl

end Cert.LibHostNet

end
-- ==== Proof.LibTRefCasts.lean ====
/-
  Contents carried to a typed reference's buffer and back.

  A module-local function's operations are stated over typed references: a reference together with a proof that its
  buffer's type is the tensor value's. Writing through one transports contents along that equation, reading transports
  them back. Written and then read through the same typed reference, contents are unchanged; and at a reference whose
  buffer type IS the value type each transport alone is the identity. General: nothing here depends on a program.
-/
import Idealize.ShloMosaic.Lib.StableHlo

namespace Cert.LibTRefCasts

open Idealize.ShloMosaic Idealize.ShloMosaic.StableHlo

variable {sig : RefSig} {Val : EltTy → Type}

/-- Contents written through a typed reference and read back through it are unchanged. -/
theorem ofBuf_toBuf {T : BufTy} (x : TRef sig T) (v : T.Contents Val) : x.ofBuf (x.toBuf v) = v := by
  obtain ⟨r, h, _, _⟩ := x
  subst h
  rfl

/-- Contents read through a typed reference and written back through it are unchanged. -/
theorem toBuf_ofBuf {T : BufTy} (x : TRef sig T) (v : x.ref.ty.Contents Val) : x.toBuf (x.ofBuf v) = v := by
  obtain ⟨r, h, _, _⟩ := x
  subst h
  rfl

/-- Contents written through a typed reference whose value type is the buffer's own type are unchanged. -/
theorem toBuf_self (r : Ref sig .tc) (h1 : r.ty = r.ty) (h2 : r.space ≠ .host) (h3 : r.isScoped = false) (v : r.ty.Contents Val) :
    (TRef.of (T := r.ty) r h1 h2 h3).toBuf v = v := rfl

/-- Contents read through a typed reference whose value type is the buffer's own type are unchanged. -/
theorem ofBuf_self (r : Ref sig .tc) (h1 : r.ty = r.ty) (h2 : r.space ≠ .host) (h3 : r.isScoped = false) (v : r.ty.Contents Val) :
    (TRef.of (T := r.ty) r h1 h2 h3).ofBuf v = v := rfl

end Cert.LibTRefCasts
-- ==== Proof.RefValue.lean ====
/-
  The reference program's run, with its result named as a function of the arguments.

  The reference's @main is a straight line of host operations, so the contents of every buffer at its end are a fold
  of the operations' results over the launch contents.  The fold is read in five stretches: the first turns the edge
  list into the two index vectors and the two degree normalisations; each of the next three is one layer — a product
  with a weight matrix, the scaling of its rows, the aggregation along the edges, the second scaling and the bias
  (and, for the first two, the maximum with zero); the last is the logarithm of the softmax along each row.  What a
  stretch computes is stated over any contents before it, with the edge-list pieces named by the shared host
  functions; what it leaves alone is every buffer none of its operations writes.  Composed, the result buffer holds
  the written-out composition of host operations over the arguments, and that composition is the network of the
  specification: each dense stage is its host spelling, by the general lemmas on the host spellings.
-/
import proofs.«133676_j45578192945656_1_alg».proof.Proof.RefRun
import proofs.«133676_j45578192945656_1_alg».proof.Proof.Shared
import proofs.«133676_j45578192945656_1_alg».proof.Proof.LibHostNet
import proofs.«133676_j45578192945656_1_alg».proof.Proof.LibKeeps
import proofs.«133676_j45578192945656_1_alg».proof.Proof.LibTRefCasts
import Idealize.ShloMosaic.Lib.StableHlo.Run

set_option maxRecDepth 16384

noncomputable section

namespace Cert.ReferenceIdeal.RefValue

open Cert.ReferenceIdeal Cert.ReferenceIdeal.Gen Idealize.ShloMosaic Idealize.ShloMosaic.TcCoe Idealize.SL.Sem Idealize.ShloMosaic.StableHlo
open Cert.GraphNet.Host

/-! ## The five stretches -/

section Lists

variable {F : FTy → Type} [FloatOps F]

/-- The edge list's two rows as index vectors, and the inverse square roots of the two clamped degrees. -/
abbrev opsA : List (HloOp τ sig (Elt F)) :=
  [ unary main_arg1 main_v0 ((extractStridedSlice S1x1600000 ![0, 0] · slices_S2x1600000_S1x1600000_0_0) : (⟨S2x1600000, .i32⟩ : BufTy).Contents (Elt F) → (⟨S1x1600000, .i32⟩ : BufTy).Contents (Elt F)),
    reshape main_v0 main_v1 rfl shapeCasts_S1x1600000_S1600000,
    unary main_arg1 main_v2 ((extractStridedSlice S1x1600000 ![1, 0] · slices_S2x1600000_S1x1600000_1_0) : (⟨S2x1600000, .i32⟩ : BufTy).Contents (Elt F) → (⟨S1x1600000, .i32⟩ : BufTy).Contents (Elt F)),
    reshape main_v2 main_v3 rfl shapeCasts_S1x1600000_S1600000,
    nullary main_cst (constant S_ .f32 0x3F800000#32),
    unary main_cst main_v4 (broadcastInDim S1600000 ![] bcast_S_S1600000 : (⟨S_, .f32⟩ : BufTy).Contents (Elt F) → (⟨S1600000, .f32⟩ : BufTy).Contents (Elt F)),
    nullary main_cst_0 (constant S_ .f32 0x00000000#32),
    unary main_cst_0 main_v5 (broadcastInDim S100000 ![] bcast_S_S100000 : (⟨S_, .f32⟩ : BufTy).Contents (Elt F) → (⟨S100000, .f32⟩ : BufTy).Contents (Elt F)),
    unary main_v1 main_v6 (broadcastInDim S1600000x1 ![0] bcast_S1600000_S1600000x1_0 : (⟨S1600000, .i32⟩ : BufTy).Contents (Elt F) → (⟨S1600000x1, .i32⟩ : BufTy).Contents (Elt F)),
    ternary main_v5 main_v6 main_v4 main_v7 ((fun x i u => Host.scatterAdd scatter_S100000_S1600000x1_S1600000_n_0_0_1 x i u) : (⟨S100000, .f32⟩ : BufTy).Contents (Elt F) → (⟨S1600000x1, .i32⟩ : BufTy).Contents (Elt F) → (⟨S1600000, .f32⟩ : BufTy).Contents (Elt F) → (⟨S100000, .f32⟩ : BufTy).Contents (Elt F)),
    nullary main_cst_1 (constant S_ .f32 0x00000000#32),
    unary main_cst_1 main_v8 (broadcastInDim S100000 ![] bcast_S_S100000 : (⟨S_, .f32⟩ : BufTy).Contents (Elt F) → (⟨S100000, .f32⟩ : BufTy).Contents (Elt F)),
    unary main_v3 main_v9 (broadcastInDim S1600000x1 ![0] bcast_S1600000_S1600000x1_0 : (⟨S1600000, .i32⟩ : BufTy).Contents (Elt F) → (⟨S1600000x1, .i32⟩ : BufTy).Contents (Elt F)),
    ternary main_v8 main_v9 main_v4 main_v10 ((fun x i u => Host.scatterAdd scatter_S100000_S1600000x1_S1600000_n_0_0_1 x i u) : (⟨S100000, .f32⟩ : BufTy).Contents (Elt F) → (⟨S1600000x1, .i32⟩ : BufTy).Contents (Elt F) → (⟨S1600000, .f32⟩ : BufTy).Contents (Elt F) → (⟨S100000, .f32⟩ : BufTy).Contents (Elt F)),
    nullary main_cst_2 (constant S_ .f32 0x3F800000#32),
    unary main_cst_2 main_v11 (broadcastInDim S100000 ![] bcast_S_S100000 : (⟨S_, .f32⟩ : BufTy).Contents (Elt F) → (⟨S100000, .f32⟩ : BufTy).Contents (Elt F)),
    binary main_v7 main_v11 main_v12 (maximumf : (⟨S100000, .f32⟩ : BufTy).Contents (Elt F) → (⟨S100000, .f32⟩ : BufTy).Contents (Elt F) → (⟨S100000, .f32⟩ : BufTy).Contents (Elt F)),
    nullary main_cst_3 (constant S_ .f32 0x3F800000#32),
    unary main_cst_3 main_v13 (broadcastInDim S100000 ![] bcast_S_S100000 : (⟨S_, .f32⟩ : BufTy).Contents (Elt F) → (⟨S100000, .f32⟩ : BufTy).Contents (Elt F)),
    binary main_v10 main_v13 main_v14 (maximumf : (⟨S100000, .f32⟩ : BufTy).Contents (Elt F) → (⟨S100000, .f32⟩ : BufTy).Contents (Elt F) → (⟨S100000, .f32⟩ : BufTy).Contents (Elt F)),
    unary main_v12 main_v15 (Host.rsqrt : (⟨S100000, .f32⟩ : BufTy).Contents (Elt F) → (⟨S100000, .f32⟩ : BufTy).Contents (Elt F)),
    unary main_v14 main_v16 (Host.rsqrt : (⟨S100000, .f32⟩ : BufTy).Contents (Elt F) → (⟨S100000, .f32⟩ : BufTy).Contents (Elt F)) ]

/-- The first layer: the product, the scaling, the aggregation, the second scaling, the bias, the maximum with zero. -/
abbrev opsL1 : List (HloOp τ sig (Elt F)) :=
  [ binary main_arg0 main_arg2 main_v17 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    unary main_v15 main_v18 (broadcastInDim S100000x1 ![0] bcast_S100000_S100000x1_0 : (⟨S100000, .f32⟩ : BufTy).Contents (Elt F) → (⟨S100000x1, .f32⟩ : BufTy).Contents (Elt F)),
    unary main_v18 main_v19 (broadcastInDim S100000x128 ![0, 1] bcast_S100000x1_S100000x128_0_1 : (⟨S100000x1, .f32⟩ : BufTy).Contents (Elt F) → (⟨S100000x128, .f32⟩ : BufTy).Contents (Elt F)),
    binary main_v17 main_v19 main_v20 (mulf : (⟨S100000x128, .f32⟩ : BufTy).Contents (Elt F) → (⟨S100000x128, .f32⟩ : BufTy).Contents (Elt F) → (⟨S100000x128, .f32⟩ : BufTy).Contents (Elt F)),
    nullary main_c (constantI S_ 32 0#32),
    unary main_c main_v21 (broadcastInDim S1600000 ![] bcast_S_S1600000 : (⟨S_, .i32⟩ : BufTy).Contents (Elt F) → (⟨S1600000, .i32⟩ : BufTy).Contents (Elt F)),
    binary main_v1 main_v21 main_v22 (cmpi .slt : (⟨S1600000, .i32⟩ : BufTy).Contents (Elt F) → (⟨S1600000, .i32⟩ : BufTy).Contents (Elt F) → (⟨S1600000, .i1⟩ : BufTy).Contents (Elt F)),
    nullary main_c_4 (constantI S_ 32 100000#32),
    unary main_c_4 main_v23 (broadcastInDim S1600000 ![] bcast_S_S1600000 : (⟨S_, .i32⟩ : BufTy).Contents (Elt F) → (⟨S1600000, .i32⟩ : BufTy).Contents (Elt F)),
    binary main_v1 main_v23 main_v24 (addi : (⟨S1600000, .i32⟩ : BufTy).Contents (Elt F) → (⟨S1600000, .i32⟩ : BufTy).Contents (Elt F) → (⟨S1600000, .i32⟩ : BufTy).Contents (Elt F)),
    ternary main_v22 main_v24 main_v1 main_v25 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v25 main_v26 (broadcastInDim S1600000x1 ![0] bcast_S1600000_S1600000x1_0 : (⟨S1600000, .i32⟩ : BufTy).Contents (Elt F) → (⟨S1600000x1, .i32⟩ : BufTy).Contents (Elt F)),
    binary main_v20 main_v26 main_v27 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    nullary main_cst_5 (constant S_ .f32 0x00000000#32),
    unary main_cst_5 main_v28 (broadcastInDim S100000x128 ![] bcast_S_S100000x128 : (⟨S_, .f32⟩ : BufTy).Contents (Elt F) → (⟨S100000x128, .f32⟩ : BufTy).Contents (Elt F)),
    unary main_v3 main_v29 (broadcastInDim S1600000x1 ![0] bcast_S1600000_S1600000x1_0 : (⟨S1600000, .i32⟩ : BufTy).Contents (Elt F) → (⟨S1600000x1, .i32⟩ : BufTy).Contents (Elt F)),
    ternary main_v28 main_v29 main_v27 main_v30 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    unary main_v16 main_v31 (broadcastInDim S100000x1 ![0] bcast_S100000_S100000x1_0 : (⟨S100000, .f32⟩ : BufTy).Contents (Elt F) → (⟨S100000x1, .f32⟩ : BufTy).Contents (Elt F)),
    unary main_v31 main_v32 (broadcastInDim S100000x128 ![0, 1] bcast_S100000x1_S100000x128_0_1 : (⟨S100000x1, .f32⟩ : BufTy).Contents (Elt F) → (⟨S100000x128, .f32⟩ : BufTy).Contents (Elt F)),
    binary main_v30 main_v32 main_v33 (mulf : (⟨S100000x128, .f32⟩ : BufTy).Contents (Elt F) → (⟨S100000x128, .f32⟩ : BufTy).Contents (Elt F) → (⟨S100000x128, .f32⟩ : BufTy).Contents (Elt F)),
    unary main_arg3 main_v34 (broadcastInDim S1x128 ![1] bcast_S128_S1x128_1 : (⟨S128, .f32⟩ : BufTy).Contents (Elt F) → (⟨S1x128, .f32⟩ : BufTy).Contents (Elt F)),
    unary main_v34 main_v35 (broadcastInDim S100000x128 ![0, 1] bcast_S1x128_S100000x128_0_1 : (⟨S1x128, .f32⟩ : BufTy).Contents (Elt F) → (⟨S100000x128, .f32⟩ : BufTy).Contents (Elt F)),
    binary main_v33 main_v35 main_v36 (addf : (⟨S100000x128, .f32⟩ : BufTy).Contents (Elt F) → (⟨S100000x128, .f32⟩ : BufTy).Contents (Elt F) → (⟨S100000x128, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S100000x128, .f32⟩) main_call0_v0) (broadcastInDim S100000x128 ![] bcast_S_S100000x128),
    TRef.binary (TRef.of (T := ⟨S100000x128, .f32⟩) main_v36) (TRef.of (T := ⟨S100000x128, .f32⟩) main_call0_v0) (TRef.of (T := ⟨S100000x128, .f32⟩) main_v37) maximumf ]

/-- The second layer, the same operations on the first layer's activation. -/
abbrev opsL2 : List (HloOp τ sig (Elt F)) :=
  [ binary main_v37 main_arg4 main_v38 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    unary main_v15 main_v39 (broadcastInDim S100000x1 ![0] bcast_S100000_S100000x1_0 : (⟨S100000, .f32⟩ : BufTy).Contents (Elt F) → (⟨S100000x1, .f32⟩ : BufTy).Contents (Elt F)),
    unary main_v39 main_v40 (broadcastInDim S100000x128 ![0, 1] bcast_S100000x1_S100000x128_0_1 : (⟨S100000x1, .f32⟩ : BufTy).Contents (Elt F) → (⟨S100000x128, .f32⟩ : BufTy).Contents (Elt F)),
    binary main_v38 main_v40 main_v41 (mulf : (⟨S100000x128, .f32⟩ : BufTy).Contents (Elt F) → (⟨S100000x128, .f32⟩ : BufTy).Contents (Elt F) → (⟨S100000x128, .f32⟩ : BufTy).Contents (Elt F)),
    nullary main_c_6 (constantI S_ 32 0#32),
    unary main_c_6 main_v42 (broadcastInDim S1600000 ![] bcast_S_S1600000 : (⟨S_, .i32⟩ : BufTy).Contents (Elt F) → (⟨S1600000, .i32⟩ : BufTy).Contents (Elt F)),
    binary main_v1 main_v42 main_v43 (cmpi .slt : (⟨S1600000, .i32⟩ : BufTy).Contents (Elt F) → (⟨S1600000, .i32⟩ : BufTy).Contents (Elt F) → (⟨S1600000, .i1⟩ : BufTy).Contents (Elt F)),
    nullary main_c_7 (constantI S_ 32 100000#32),
    unary main_c_7 main_v44 (broadcastInDim S1600000 ![] bcast_S_S1600000 : (⟨S_, .i32⟩ : BufTy).Contents (Elt F) → (⟨S1600000, .i32⟩ : BufTy).Contents (Elt F)),
    binary main_v1 main_v44 main_v45 (addi : (⟨S1600000, .i32⟩ : BufTy).Contents (Elt F) → (⟨S1600000, .i32⟩ : BufTy).Contents (Elt F) → (⟨S1600000, .i32⟩ : BufTy).Contents (Elt F)),
    ternary main_v43 main_v45 main_v1 main_v46 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v46 main_v47 (broadcastInDim S1600000x1 ![0] bcast_S1600000_S1600000x1_0 : (⟨S1600000, .i32⟩ : BufTy).Contents (Elt F) → (⟨S1600000x1, .i32⟩ : BufTy).Contents (Elt F)),
    binary main_v41 main_v47 main_v48 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    nullary main_cst_8 (constant S_ .f32 0x00000000#32),
    unary main_cst_8 main_v49 (broadcastInDim S100000x128 ![] bcast_S_S100000x128 : (⟨S_, .f32⟩ : BufTy).Contents (Elt F) → (⟨S100000x128, .f32⟩ : BufTy).Contents (Elt F)),
    unary main_v3 main_v50 (broadcastInDim S1600000x1 ![0] bcast_S1600000_S1600000x1_0 : (⟨S1600000, .i32⟩ : BufTy).Contents (Elt F) → (⟨S1600000x1, .i32⟩ : BufTy).Contents (Elt F)),
    ternary main_v49 main_v50 main_v48 main_v51 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    unary main_v16 main_v52 (broadcastInDim S100000x1 ![0] bcast_S100000_S100000x1_0 : (⟨S100000, .f32⟩ : BufTy).Contents (Elt F) → (⟨S100000x1, .f32⟩ : BufTy).Contents (Elt F)),
    unary main_v52 main_v53 (broadcastInDim S100000x128 ![0, 1] bcast_S100000x1_S100000x128_0_1 : (⟨S100000x1, .f32⟩ : BufTy).Contents (Elt F) → (⟨S100000x128, .f32⟩ : BufTy).Contents (Elt F)),
    binary main_v51 main_v53 main_v54 (mulf : (⟨S100000x128, .f32⟩ : BufTy).Contents (Elt F) → (⟨S100000x128, .f32⟩ : BufTy).Contents (Elt F) → (⟨S100000x128, .f32⟩ : BufTy).Contents (Elt F)),
    unary main_arg5 main_v55 (broadcastInDim S1x128 ![1] bcast_S128_S1x128_1 : (⟨S128, .f32⟩ : BufTy).Contents (Elt F) → (⟨S1x128, .f32⟩ : BufTy).Contents (Elt F)),
    unary main_v55 main_v56 (broadcastInDim S100000x128 ![0, 1] bcast_S1x128_S100000x128_0_1 : (⟨S1x128, .f32⟩ : BufTy).Contents (Elt F) → (⟨S100000x128, .f32⟩ : BufTy).Contents (Elt F)),
    binary main_v54 main_v56 main_v57 (addf : (⟨S100000x128, .f32⟩ : BufTy).Contents (Elt F) → (⟨S100000x128, .f32⟩ : BufTy).Contents (Elt F) → (⟨S100000x128, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S100000x128, .f32⟩) main_call1_v0) (broadcastInDim S100000x128 ![] bcast_S_S100000x128),
    TRef.binary (TRef.of (T := ⟨S100000x128, .f32⟩) main_v57) (TRef.of (T := ⟨S100000x128, .f32⟩) main_call1_v0) (TRef.of (T := ⟨S100000x128, .f32⟩) main_v58) maximumf ]

/-- The third layer, without the maximum, into 40 columns. -/
abbrev opsL3 : List (HloOp τ sig (Elt F)) :=
  [ binary main_v58 main_arg6 main_v59 ((fun l r => Host.dotGeneral dot_S100000x128_S128x40_S100000x40_1_0_0_1_n_n none l r) : (⟨S100000x128, .f32⟩ : BufTy).Contents (Elt F) → (⟨S128x40, .f32⟩ : BufTy).Contents (Elt F) → (⟨S100000x40, .f32⟩ : BufTy).Contents (Elt F)),
    unary main_v15 main_v60 (broadcastInDim S100000x1 ![0] bcast_S100000_S100000x1_0 : (⟨S100000, .f32⟩ : BufTy).Contents (Elt F) → (⟨S100000x1, .f32⟩ : BufTy).Contents (Elt F)),
    unary main_v60 main_v61 (broadcastInDim S100000x40 ![0, 1] bcast_S100000x1_S100000x40_0_1 : (⟨S100000x1, .f32⟩ : BufTy).Contents (Elt F) → (⟨S100000x40, .f32⟩ : BufTy).Contents (Elt F)),
    binary main_v59 main_v61 main_v62 (mulf : (⟨S100000x40, .f32⟩ : BufTy).Contents (Elt F) → (⟨S100000x40, .f32⟩ : BufTy).Contents (Elt F) → (⟨S100000x40, .f32⟩ : BufTy).Contents (Elt F)),
    nullary main_c_9 (constantI S_ 32 0#32),
    unary main_c_9 main_v63 (broadcastInDim S1600000 ![] bcast_S_S1600000 : (⟨S_, .i32⟩ : BufTy).Contents (Elt F) → (⟨S1600000, .i32⟩ : BufTy).Contents (Elt F)),
    binary main_v1 main_v63 main_v64 (cmpi .slt : (⟨S1600000, .i32⟩ : BufTy).Contents (Elt F) → (⟨S1600000, .i32⟩ : BufTy).Contents (Elt F) → (⟨S1600000, .i1⟩ : BufTy).Contents (Elt F)),
    nullary main_c_10 (constantI S_ 32 100000#32),
    unary main_c_10 main_v65 (broadcastInDim S1600000 ![] bcast_S_S1600000 : (⟨S_, .i32⟩ : BufTy).Contents (Elt F) → (⟨S1600000, .i32⟩ : BufTy).Contents (Elt F)),
    binary main_v1 main_v65 main_v66 (addi : (⟨S1600000, .i32⟩ : BufTy).Contents (Elt F) → (⟨S1600000, .i32⟩ : BufTy).Contents (Elt F) → (⟨S1600000, .i32⟩ : BufTy).Contents (Elt F)),
    ternary main_v64 main_v66 main_v1 main_v67 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v67 main_v68 (broadcastInDim S1600000x1 ![0] bcast_S1600000_S1600000x1_0 : (⟨S1600000, .i32⟩ : BufTy).Contents (Elt F) → (⟨S1600000x1, .i32⟩ : BufTy).Contents (Elt F)),
    binary main_v62 main_v68 main_v69 ((fun x i => Host.gather gather_S100000x40_S1600000x1_S1600000x40_1_0_n_n_0_1_140 x i) : (⟨S100000x40, .f32⟩ : BufTy).Contents (Elt F) → (⟨S1600000x1, .i32⟩ : BufTy).Contents (Elt F) → (⟨S1600000x40, .f32⟩ : BufTy).Contents (Elt F)),
    nullary main_cst_11 (constant S_ .f32 0x00000000#32),
    unary main_cst_11 main_v70 (broadcastInDim S100000x40 ![] bcast_S_S100000x40 : (⟨S_, .f32⟩ : BufTy).Contents (Elt F) → (⟨S100000x40, .f32⟩ : BufTy).Contents (Elt F)),
    unary main_v3 main_v71 (broadcastInDim S1600000x1 ![0] bcast_S1600000_S1600000x1_0 : (⟨S1600000, .i32⟩ : BufTy).Contents (Elt F) → (⟨S1600000x1, .i32⟩ : BufTy).Contents (Elt F)),
    ternary main_v70 main_v71 main_v69 main_v72 ((fun x i u => Host.scatterAdd scatter_S100000x40_S1600000x1_S1600000x40_1_0_0_1 x i u) : (⟨S100000x40, .f32⟩ : BufTy).Contents (Elt F) → (⟨S1600000x1, .i32⟩ : BufTy).Contents (Elt F) → (⟨S1600000x40, .f32⟩ : BufTy).Contents (Elt F) → (⟨S100000x40, .f32⟩ : BufTy).Contents (Elt F)),
    unary main_v16 main_v73 (broadcastInDim S100000x1 ![0] bcast_S100000_S100000x1_0 : (⟨S100000, .f32⟩ : BufTy).Contents (Elt F) → (⟨S100000x1, .f32⟩ : BufTy).Contents (Elt F)),
    unary main_v73 main_v74 (broadcastInDim S100000x40 ![0, 1] bcast_S100000x1_S100000x40_0_1 : (⟨S100000x1, .f32⟩ : BufTy).Contents (Elt F) → (⟨S100000x40, .f32⟩ : BufTy).Contents (Elt F)),
    binary main_v72 main_v74 main_v75 (mulf : (⟨S100000x40, .f32⟩ : BufTy).Contents (Elt F) → (⟨S100000x40, .f32⟩ : BufTy).Contents (Elt F) → (⟨S100000x40, .f32⟩ : BufTy).Contents (Elt F)),
    unary main_arg7 main_v76 (broadcastInDim S1x40 ![1] bcast_S40_S1x40_1 : (⟨S40, .f32⟩ : BufTy).Contents (Elt F) → (⟨S1x40, .f32⟩ : BufTy).Contents (Elt F)),
    unary main_v76 main_v77 (broadcastInDim S100000x40 ![0, 1] bcast_S1x40_S100000x40_0_1 : (⟨S1x40, .f32⟩ : BufTy).Contents (Elt F) → (⟨S100000x40, .f32⟩ : BufTy).Contents (Elt F)),
    binary main_v75 main_v77 main_v78 (addf : (⟨S100000x40, .f32⟩ : BufTy).Contents (Elt F) → (⟨S100000x40, .f32⟩ : BufTy).Contents (Elt F) → (⟨S100000x40, .f32⟩ : BufTy).Contents (Elt F)) ]

/-- The logarithm of the softmax along each row. -/
abbrev opsS : List (HloOp τ sig (Elt F)) :=
  [ TRef.nullary (TRef.of (T := ⟨S_, .f32⟩) main_call2_cst) (constant S_ .f32 0xFF800000#32),
    TRef.binary (TRef.of (T := ⟨S100000x40, .f32⟩) main_v78) (TRef.of (T := ⟨S_, .f32⟩) main_call2_cst) (TRef.of (T := ⟨S100000, .f32⟩) main_call2_v0) (fun x v => Host.reduce FloatOps.maximumf x v reducesTo_S100000x40_S100000_d1 h_S_),
    TRef.nullary (TRef.of (T := ⟨S_, .f32⟩) main_call2_cst_0) (constant S_ .f32 0xFF800000#32),
    TRef.unary (TRef.of (T := ⟨S_, .f32⟩) main_call2_cst_0) (TRef.of (T := ⟨S100000, .f32⟩) main_call2_v1) (broadcastInDim S100000 ![] bcast_S_S100000),
    TRef.binary (TRef.of (T := ⟨S100000, .f32⟩) main_call2_v1) (TRef.of (T := ⟨S100000, .f32⟩) main_call2_v0) (TRef.of (T := ⟨S100000, .f32⟩) main_call2_v2) maximumf,
    TRef.unary (TRef.of (T := ⟨S100000, .f32⟩) main_call2_v2) (TRef.of (T := ⟨S100000x1, .f32⟩) main_call2_v3) (broadcastInDim S100000x1 ![0] bcast_S100000_S100000x1_0),
    TRef.unary (TRef.of (T := ⟨S100000x1, .f32⟩) main_call2_v3) (TRef.of (T := ⟨S100000x40, .f32⟩) main_call2_v4) (broadcastInDim S100000x40 ![0, 1] bcast_S100000x1_S100000x40_0_1),
    TRef.binary (TRef.of (T := ⟨S100000x40, .f32⟩) main_v78) (TRef.of (T := ⟨S100000x40, .f32⟩) main_call2_v4) (TRef.of (T := ⟨S100000x40, .f32⟩) main_call2_v5) subf,
    TRef.unary (TRef.of (T := ⟨S100000x40, .f32⟩) main_call2_v5) (TRef.of (T := ⟨S100000x40, .f32⟩) main_call2_v6) Host.exp,
    TRef.nullary (TRef.of (T := ⟨S_, .f32⟩) main_call2_cst_1) (constant S_ .f32 0x00000000#32),
    TRef.binary (TRef.of (T := ⟨S100000x40, .f32⟩) main_call2_v6) (TRef.of (T := ⟨S_, .f32⟩) main_call2_cst_1) (TRef.of (T := ⟨S100000, .f32⟩) main_call2_v7) (fun x v => Host.reduceAdd x v reducesTo_S100000x40_S100000_d1 h_S_),
    TRef.unary (TRef.of (T := ⟨S100000, .f32⟩) main_call2_v7) (TRef.of (T := ⟨S100000x1, .f32⟩) main_call2_v8) (broadcastInDim S100000x1 ![0] bcast_S100000_S100000x1_0),
    TRef.unary (TRef.of (T := ⟨S100000x1, .f32⟩) main_call2_v8) (TRef.of (T := ⟨S100000x1, .f32⟩) main_call2_v9) Host.log,
    TRef.unary (TRef.of (T := ⟨S100000x1, .f32⟩) main_call2_v9) (TRef.of (T := ⟨S100000x40, .f32⟩) main_call2_v10) (broadcastInDim S100000x40 ![0, 1] bcast_S100000x1_S100000x40_0_1),
    TRef.binary (TRef.of (T := ⟨S100000x40, .f32⟩) main_call2_v5) (TRef.of (T := ⟨S100000x40, .f32⟩) main_call2_v10) (TRef.of (T := ⟨S100000x40, .f32⟩) main_v79) subf ]

/-- The first layer up to the bias. -/
abbrev opsL1a : List (HloOp τ sig (Elt F)) :=
  [ binary main_arg0 main_arg2 main_v17 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    unary main_v15 main_v18 (broadcastInDim S100000x1 ![0] bcast_S100000_S100000x1_0 : (⟨S100000, .f32⟩ : BufTy).Contents (Elt F) → (⟨S100000x1, .f32⟩ : BufTy).Contents (Elt F)),
    unary main_v18 main_v19 (broadcastInDim S100000x128 ![0, 1] bcast_S100000x1_S100000x128_0_1 : (⟨S100000x1, .f32⟩ : BufTy).Contents (Elt F) → (⟨S100000x128, .f32⟩ : BufTy).Contents (Elt F)),
    binary main_v17 main_v19 main_v20 (mulf : (⟨S100000x128, .f32⟩ : BufTy).Contents (Elt F) → (⟨S100000x128, .f32⟩ : BufTy).Contents (Elt F) → (⟨S100000x128, .f32⟩ : BufTy).Contents (Elt F)),
    nullary main_c (constantI S_ 32 0#32),
    unary main_c main_v21 (broadcastInDim S1600000 ![] bcast_S_S1600000 : (⟨S_, .i32⟩ : BufTy).Contents (Elt F) → (⟨S1600000, .i32⟩ : BufTy).Contents (Elt F)),
    binary main_v1 main_v21 main_v22 (cmpi .slt : (⟨S1600000, .i32⟩ : BufTy).Contents (Elt F) → (⟨S1600000, .i32⟩ : BufTy).Contents (Elt F) → (⟨S1600000, .i1⟩ : BufTy).Contents (Elt F)),
    nullary main_c_4 (constantI S_ 32 100000#32),
    unary main_c_4 main_v23 (broadcastInDim S1600000 ![] bcast_S_S1600000 : (⟨S_, .i32⟩ : BufTy).Contents (Elt F) → (⟨S1600000, .i32⟩ : BufTy).Contents (Elt F)),
    binary main_v1 main_v23 main_v24 (addi : (⟨S1600000, .i32⟩ : BufTy).Contents (Elt F) → (⟨S1600000, .i32⟩ : BufTy).Contents (Elt F) → (⟨S1600000, .i32⟩ : BufTy).Contents (Elt F)),
    ternary main_v22 main_v24 main_v1 main_v25 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v25 main_v26 (broadcastInDim S1600000x1 ![0] bcast_S1600000_S1600000x1_0 : (⟨S1600000, .i32⟩ : BufTy).Contents (Elt F) → (⟨S1600000x1, .i32⟩ : BufTy).Contents (Elt F)),
    binary main_v20 main_v26 main_v27 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    nullary main_cst_5 (constant S_ .f32 0x00000000#32),
    unary main_cst_5 main_v28 (broadcastInDim S100000x128 ![] bcast_S_S100000x128 : (⟨S_, .f32⟩ : BufTy).Contents (Elt F) → (⟨S100000x128, .f32⟩ : BufTy).Contents (Elt F)),
    unary main_v3 main_v29 (broadcastInDim S1600000x1 ![0] bcast_S1600000_S1600000x1_0 : (⟨S1600000, .i32⟩ : BufTy).Contents (Elt F) → (⟨S1600000x1, .i32⟩ : BufTy).Contents (Elt F)),
    ternary main_v28 main_v29 main_v27 main_v30 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    unary main_v16 main_v31 (broadcastInDim S100000x1 ![0] bcast_S100000_S100000x1_0 : (⟨S100000, .f32⟩ : BufTy).Contents (Elt F) → (⟨S100000x1, .f32⟩ : BufTy).Contents (Elt F)),
    unary main_v31 main_v32 (broadcastInDim S100000x128 ![0, 1] bcast_S100000x1_S100000x128_0_1 : (⟨S100000x1, .f32⟩ : BufTy).Contents (Elt F) → (⟨S100000x128, .f32⟩ : BufTy).Contents (Elt F)),
    binary main_v30 main_v32 main_v33 (mulf : (⟨S100000x128, .f32⟩ : BufTy).Contents (Elt F) → (⟨S100000x128, .f32⟩ : BufTy).Contents (Elt F) → (⟨S100000x128, .f32⟩ : BufTy).Contents (Elt F)),
    unary main_arg3 main_v34 (broadcastInDim S1x128 ![1] bcast_S128_S1x128_1 : (⟨S128, .f32⟩ : BufTy).Contents (Elt F) → (⟨S1x128, .f32⟩ : BufTy).Contents (Elt F)),
    unary main_v34 main_v35 (broadcastInDim S100000x128 ![0, 1] bcast_S1x128_S100000x128_0_1 : (⟨S1x128, .f32⟩ : BufTy).Contents (Elt F) → (⟨S100000x128, .f32⟩ : BufTy).Contents (Elt F)),
    binary main_v33 main_v35 main_v36 (addf : (⟨S100000x128, .f32⟩ : BufTy).Contents (Elt F) → (⟨S100000x128, .f32⟩ : BufTy).Contents (Elt F) → (⟨S100000x128, .f32⟩ : BufTy).Contents (Elt F)) ]

/-- The first layer's maximum with zero. -/
abbrev opsL1r : List (HloOp τ sig (Elt F)) :=
  [ TRef.nullary (TRef.of (T := ⟨S_, .f32⟩) main_call0_cst) (constant S_ .f32 0x00000000#32),
    TRef.unary (TRef.of (T := ⟨S_, .f32⟩) main_call0_cst) (TRef.of (T := ⟨S100000x128, .f32⟩) main_call0_v0) (broadcastInDim S100000x128 ![] bcast_S_S100000x128),
    TRef.binary (TRef.of (T := ⟨S100000x128, .f32⟩) main_v36) (TRef.of (T := ⟨S100000x128, .f32⟩) main_call0_v0) (TRef.of (T := ⟨S100000x128, .f32⟩) main_v37) maximumf ]

/-- The second layer up to the bias. -/
abbrev opsL2a : List (HloOp τ sig (Elt F)) :=
  [ binary main_v37 main_arg4 main_v38 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    unary main_v15 main_v39 (broadcastInDim S100000x1 ![0] bcast_S100000_S100000x1_0 : (⟨S100000, .f32⟩ : BufTy).Contents (Elt F) → (⟨S100000x1, .f32⟩ : BufTy).Contents (Elt F)),
    unary main_v39 main_v40 (broadcastInDim S100000x128 ![0, 1] bcast_S100000x1_S100000x128_0_1 : (⟨S100000x1, .f32⟩ : BufTy).Contents (Elt F) → (⟨S100000x128, .f32⟩ : BufTy).Contents (Elt F)),
    binary main_v38 main_v40 main_v41 (mulf : (⟨S100000x128, .f32⟩ : BufTy).Contents (Elt F) → (⟨S100000x128, .f32⟩ : BufTy).Contents (Elt F) → (⟨S100000x128, .f32⟩ : BufTy).Contents (Elt F)),
    nullary main_c_6 (constantI S_ 32 0#32),
    unary main_c_6 main_v42 (broadcastInDim S1600000 ![] bcast_S_S1600000 : (⟨S_, .i32⟩ : BufTy).Contents (Elt F) → (⟨S1600000, .i32⟩ : BufTy).Contents (Elt F)),
    binary main_v1 main_v42 main_v43 (cmpi .slt : (⟨S1600000, .i32⟩ : BufTy).Contents (Elt F) → (⟨S1600000, .i32⟩ : BufTy).Contents (Elt F) → (⟨S1600000, .i1⟩ : BufTy).Contents (Elt F)),
    nullary main_c_7 (constantI S_ 32 100000#32),
    unary main_c_7 main_v44 (broadcastInDim S1600000 ![] bcast_S_S1600000 : (⟨S_, .i32⟩ : BufTy).Contents (Elt F) → (⟨S1600000, .i32⟩ : BufTy).Contents (Elt F)),
    binary main_v1 main_v44 main_v45 (addi : (⟨S1600000, .i32⟩ : BufTy).Contents (Elt F) → (⟨S1600000, .i32⟩ : BufTy).Contents (Elt F) → (⟨S1600000, .i32⟩ : BufTy).Contents (Elt F)),
    ternary main_v43 main_v45 main_v1 main_v46 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v46 main_v47 (broadcastInDim S1600000x1 ![0] bcast_S1600000_S1600000x1_0 : (⟨S1600000, .i32⟩ : BufTy).Contents (Elt F) → (⟨S1600000x1, .i32⟩ : BufTy).Contents (Elt F)),
    binary main_v41 main_v47 main_v48 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    nullary main_cst_8 (constant S_ .f32 0x00000000#32),
    unary main_cst_8 main_v49 (broadcastInDim S100000x128 ![] bcast_S_S100000x128 : (⟨S_, .f32⟩ : BufTy).Contents (Elt F) → (⟨S100000x128, .f32⟩ : BufTy).Contents (Elt F)),
    unary main_v3 main_v50 (broadcastInDim S1600000x1 ![0] bcast_S1600000_S1600000x1_0 : (⟨S1600000, .i32⟩ : BufTy).Contents (Elt F) → (⟨S1600000x1, .i32⟩ : BufTy).Contents (Elt F)),
    ternary main_v49 main_v50 main_v48 main_v51 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    unary main_v16 main_v52 (broadcastInDim S100000x1 ![0] bcast_S100000_S100000x1_0 : (⟨S100000, .f32⟩ : BufTy).Contents (Elt F) → (⟨S100000x1, .f32⟩ : BufTy).Contents (Elt F)),
    unary main_v52 main_v53 (broadcastInDim S100000x128 ![0, 1] bcast_S100000x1_S100000x128_0_1 : (⟨S100000x1, .f32⟩ : BufTy).Contents (Elt F) → (⟨S100000x128, .f32⟩ : BufTy).Contents (Elt F)),
    binary main_v51 main_v53 main_v54 (mulf : (⟨S100000x128, .f32⟩ : BufTy).Contents (Elt F) → (⟨S100000x128, .f32⟩ : BufTy).Contents (Elt F) → (⟨S100000x128, .f32⟩ : BufTy).Contents (Elt F)),
    unary main_arg5 main_v55 (broadcastInDim S1x128 ![1] bcast_S128_S1x128_1 : (⟨S128, .f32⟩ : BufTy).Contents (Elt F) → (⟨S1x128, .f32⟩ : BufTy).Contents (Elt F)),
    unary main_v55 main_v56 (broadcastInDim S100000x128 ![0, 1] bcast_S1x128_S100000x128_0_1 : (⟨S1x128, .f32⟩ : BufTy).Contents (Elt F) → (⟨S100000x128, .f32⟩ : BufTy).Contents (Elt F)),
    binary main_v54 main_v56 main_v57 (addf : (⟨S100000x128, .f32⟩ : BufTy).Contents (Elt F) → (⟨S100000x128, .f32⟩ : BufTy).Contents (Elt F) → (⟨S100000x128, .f32⟩ : BufTy).Contents (Elt F)) ]

/-- The second layer's maximum with zero. -/
abbrev opsL2r : List (HloOp τ sig (Elt F)) :=
  [ TRef.nullary (TRef.of (T := ⟨S_, .f32⟩) main_call1_cst) (constant S_ .f32 0x00000000#32),
    TRef.unary (TRef.of (T := ⟨S_, .f32⟩) main_call1_cst) (TRef.of (T := ⟨S100000x128, .f32⟩) main_call1_v0) (broadcastInDim S100000x128 ![] bcast_S_S100000x128),
    TRef.binary (TRef.of (T := ⟨S100000x128, .f32⟩) main_v57) (TRef.of (T := ⟨S100000x128, .f32⟩) main_call1_v0) (TRef.of (T := ⟨S100000x128, .f32⟩) main_v58) maximumf ]

set_option maxRecDepth 8192 in
/-- The program's operations are the five stretches in order. -/
theorem ops_split : (RunP.ops (F := F)) = opsA ++ (opsL1 ++ (opsL2 ++ (opsL3 ++ opsS))) := rfl

/-- A layer with a maximum is its operations up to the bias, then the maximum's. -/
theorem opsL1_split : (opsL1 (F := F)) = opsL1a ++ opsL1r := rfl
theorem opsL2_split : (opsL2 (F := F)) = opsL2a ++ opsL2r := rfl

end Lists

/-- The contents after two lists of operations run one after the other. -/
theorem after_append {τ : Topo} {sig : RefSig} {Val : EltTy → Type} (l₁ l₂ : List (HloOp τ sig Val)) (V : Valuation τ sig Val) :
    after (l₁ ++ l₂) V = after l₂ (after l₁ V) := by
  induction l₁ generalizing V with
  | nil => rfl
  | cons op l ih => rw [List.cons_append, after_cons, after_cons, ih]

/-! ## The layers as host operations -/

/-- A layer before its maximum, into 128 columns: the product with the weights, row p scaled by the out-degree factor,
    aggregated along the edges, row p scaled by the in-degree factor, the bias added — as host operations. -/
def pre128 (ei : (⟨S2x1600000, .i32⟩ : BufTy).Contents (Elt Ideal)) (x : (⟨S100000x128, .f32⟩ : BufTy).Contents (Elt Ideal))
    (w : (⟨S128x128, .f32⟩ : BufTy).Contents (Elt Ideal)) (no ni : (⟨S100000, .f32⟩ : BufTy).Contents (Elt Ideal))
    (b : (⟨S128, .f32⟩ : BufTy).Contents (Elt Ideal)) : (⟨S100000x128, .f32⟩ : BufTy).Contents (Elt Ideal) :=
  addf (F := Ideal) (φ := .f32)
    (mulf (F := Ideal) (φ := .f32)
      (aggK ei
        (mulf (F := Ideal) (φ := .f32) (Host.dotGeneral (F := Ideal) (φ₁ := .f32) (φ₂ := .f32) dot_S100000x128_S128x128_S100000x128_1_0_0_1_n_n none x w)
          (broadcastInDim S100000x128 ![0, 1] bcast_S100000x1_S100000x128_0_1 (broadcastInDim S100000x1 ![0] bcast_S100000_S100000x1_0 no))))
      (broadcastInDim S100000x128 ![0, 1] bcast_S100000x1_S100000x128_0_1 (broadcastInDim S100000x1 ![0] bcast_S100000_S100000x1_0 ni)))
    (broadcastInDim S100000x128 ![0, 1] bcast_S1x128_S100000x128_0_1 (broadcastInDim S1x128 ![1] bcast_S128_S1x128_1 b))

/-- A layer's activation: the maximum of the above with zero. -/
def act (ei : (⟨S2x1600000, .i32⟩ : BufTy).Contents (Elt Ideal)) (x : (⟨S100000x128, .f32⟩ : BufTy).Contents (Elt Ideal))
    (w : (⟨S128x128, .f32⟩ : BufTy).Contents (Elt Ideal)) (no ni : (⟨S100000, .f32⟩ : BufTy).Contents (Elt Ideal))
    (b : (⟨S128, .f32⟩ : BufTy).Contents (Elt Ideal)) : (⟨S100000x128, .f32⟩ : BufTy).Contents (Elt Ideal) :=
  maximumf (F := Ideal) (φ := .f32) (pre128 ei x w no ni b)
    (broadcastInDim S100000x128 ![] bcast_S_S100000x128 (constant (F := Ideal) S_ .f32 0x00000000#32))

/-- The last layer before the softmax: the same without the maximum, into 40 columns. -/
def pre (ei : (⟨S2x1600000, .i32⟩ : BufTy).Contents (Elt Ideal)) (x : (⟨S100000x128, .f32⟩ : BufTy).Contents (Elt Ideal))
    (w : (⟨S128x40, .f32⟩ : BufTy).Contents (Elt Ideal)) (no ni : (⟨S100000, .f32⟩ : BufTy).Contents (Elt Ideal))
    (b : (⟨S40, .f32⟩ : BufTy).Contents (Elt Ideal)) : (⟨S100000x40, .f32⟩ : BufTy).Contents (Elt Ideal) :=
  addf (F := Ideal) (φ := .f32)
    (mulf (F := Ideal) (φ := .f32)
      (aggB ei
        (mulf (F := Ideal) (φ := .f32) (Host.dotGeneral (F := Ideal) (φ₁ := .f32) (φ₂ := .f32) dot_S100000x128_S128x40_S100000x40_1_0_0_1_n_n none x w)
          (broadcastInDim S100000x40 ![0, 1] bcast_S100000x1_S100000x40_0_1 (broadcastInDim S100000x1 ![0] bcast_S100000_S100000x1_0 no))))
      (broadcastInDim S100000x40 ![0, 1] bcast_S100000x1_S100000x40_0_1 (broadcastInDim S100000x1 ![0] bcast_S100000_S100000x1_0 ni)))
    (broadcastInDim S100000x40 ![0, 1] bcast_S1x40_S100000x40_0_1 (broadcastInDim S1x40 ![1] bcast_S40_S1x40_1 b))

/-! ## What each stretch computes, from any contents -/

section Stretches

variable (Wv : Valuation τ sig (Elt Ideal))

/-- The source-index vector: row 0 of the edge list. -/
theorem opsA_v1 : after (opsA (F := Ideal)) Wv (Proc.devRef .tc main_v1) = srcIdx (Wv (Proc.devRef .tc main_arg1)) := by
  after_results; rfl

/-- The destination-index vector: row 1 of the edge list. -/
theorem opsA_v3 : after (opsA (F := Ideal)) Wv (Proc.devRef .tc main_v3) = dstIdx (Wv (Proc.devRef .tc main_arg1)) := by
  after_results; rfl

/-- The out-degree normalisation. -/
theorem opsA_v15 : after (opsA (F := Ideal)) Wv (Proc.devRef .tc main_v15) = degNorm (srcIdx (Wv (Proc.devRef .tc main_arg1))) := by
  after_results; rfl

/-- The in-degree normalisation. -/
theorem opsA_v16 : after (opsA (F := Ideal)) Wv (Proc.devRef .tc main_v16) = degNorm (dstIdx (Wv (Proc.devRef .tc main_arg1))) := by
  after_results; rfl

/-- The maximum with zero that ends the first layer. -/
theorem opsL1r_v37 : after (opsL1r (F := Ideal)) Wv (Proc.devRef .tc main_v37)
    = maximumf (F := Ideal) (φ := .f32) (Wv (Proc.devRef .tc main_v36))
        (broadcastInDim S100000x128 ![] bcast_S_S100000x128 (constant (F := Ideal) S_ .f32 0x00000000#32)) := by
  after_results
  simp only [Cert.LibTRefCasts.ofBuf_toBuf]
  rfl

/-- The maximum with zero that ends the second layer. -/
theorem opsL2r_v58 : after (opsL2r (F := Ideal)) Wv (Proc.devRef .tc main_v58)
    = maximumf (F := Ideal) (φ := .f32) (Wv (Proc.devRef .tc main_v57))
        (broadcastInDim S100000x128 ![] bcast_S_S100000x128 (constant (F := Ideal) S_ .f32 0x00000000#32)) := by
  after_results
  simp only [Cert.LibTRefCasts.ofBuf_toBuf]
  rfl

set_option maxHeartbeats 4000000 in
/-- The logarithm of the softmax along each row of what the third layer left. -/
theorem opsS_v79 : after (opsS (F := Ideal)) Wv (Proc.devRef .tc main_v79)
    = Cert.LibHostNet.hostLogSoftmax (A := 100000) (B := 40) bcast_S100000_S100000x1_0 bcast_S100000x1_S100000x40_0_1
        bcast_S_S100000 reducesTo_S100000x40_S100000_d1 h_S_ (Wv (Proc.devRef .tc main_v78)) := by
  after_results_simp
  simp only [Cert.LibTRefCasts.ofBuf_toBuf]
  rfl

variable (ei : (⟨S2x1600000, .i32⟩ : BufTy).Contents (Elt Ideal))

set_option maxHeartbeats 4000000 in
/-- The first layer up to the bias. -/
theorem opsL1a_v36 (hs : Wv (Proc.devRef .tc main_v1) = srcIdx ei) (hd : Wv (Proc.devRef .tc main_v3) = dstIdx ei) :
    after (opsL1a (F := Ideal)) Wv (Proc.devRef .tc main_v36)
      = pre128 ei (Wv (Proc.devRef .tc main_arg0)) (Wv (Proc.devRef .tc main_arg2)) (Wv (Proc.devRef .tc main_v15))
          (Wv (Proc.devRef .tc main_v16)) (Wv (Proc.devRef .tc main_arg3)) := by
  after_results_simp
  rw [hs, hd]
  rfl

set_option maxHeartbeats 4000000 in
/-- The second layer up to the bias. -/
theorem opsL2a_v57 (hs : Wv (Proc.devRef .tc main_v1) = srcIdx ei) (hd : Wv (Proc.devRef .tc main_v3) = dstIdx ei) :
    after (opsL2a (F := Ideal)) Wv (Proc.devRef .tc main_v57)
      = pre128 ei (Wv (Proc.devRef .tc main_v37)) (Wv (Proc.devRef .tc main_arg4)) (Wv (Proc.devRef .tc main_v15))
          (Wv (Proc.devRef .tc main_v16)) (Wv (Proc.devRef .tc main_arg5)) := by
  after_results_simp
  rw [hs, hd]
  rfl

set_option maxHeartbeats 4000000 in
/-- The third layer before the softmax. -/
theorem opsL3_v78 (hs : Wv (Proc.devRef .tc main_v1) = srcIdx ei) (hd : Wv (Proc.devRef .tc main_v3) = dstIdx ei) :
    after (opsL3 (F := Ideal)) Wv (Proc.devRef .tc main_v78)
      = pre ei (Wv (Proc.devRef .tc main_v58)) (Wv (Proc.devRef .tc main_arg6)) (Wv (Proc.devRef .tc main_v15))
          (Wv (Proc.devRef .tc main_v16)) (Wv (Proc.devRef .tc main_arg7)) := by
  after_results_simp
  rw [hs, hd]
  rfl

/-- The first layer's activation. -/
theorem opsL1_v37 (hs : Wv (Proc.devRef .tc main_v1) = srcIdx ei) (hd : Wv (Proc.devRef .tc main_v3) = dstIdx ei) :
    after (opsL1 (F := Ideal)) Wv (Proc.devRef .tc main_v37)
      = act ei (Wv (Proc.devRef .tc main_arg0)) (Wv (Proc.devRef .tc main_arg2)) (Wv (Proc.devRef .tc main_v15))
          (Wv (Proc.devRef .tc main_v16)) (Wv (Proc.devRef .tc main_arg3)) := by
  rw [opsL1_split, after_append, opsL1r_v37, opsL1a_v36 Wv ei hs hd]
  rfl

/-- The second layer's activation. -/
theorem opsL2_v58 (hs : Wv (Proc.devRef .tc main_v1) = srcIdx ei) (hd : Wv (Proc.devRef .tc main_v3) = dstIdx ei) :
    after (opsL2 (F := Ideal)) Wv (Proc.devRef .tc main_v58)
      = act ei (Wv (Proc.devRef .tc main_v37)) (Wv (Proc.devRef .tc main_arg4)) (Wv (Proc.devRef .tc main_v15))
          (Wv (Proc.devRef .tc main_v16)) (Wv (Proc.devRef .tc main_arg5)) := by
  rw [opsL2_split, after_append, opsL2r_v58, opsL2a_v57 Wv ei hs hd]
  rfl

/-! ## What each stretch leaves alone -/

theorem opsA_arg0 : after (opsA (F := Ideal)) Wv (Proc.devRef .tc main_arg0) = Wv (Proc.devRef .tc main_arg0) := by keeps_host opsA
theorem opsA_arg2 : after (opsA (F := Ideal)) Wv (Proc.devRef .tc main_arg2) = Wv (Proc.devRef .tc main_arg2) := by keeps_host opsA
theorem opsA_arg3 : after (opsA (F := Ideal)) Wv (Proc.devRef .tc main_arg3) = Wv (Proc.devRef .tc main_arg3) := by keeps_host opsA
theorem opsA_arg4 : after (opsA (F := Ideal)) Wv (Proc.devRef .tc main_arg4) = Wv (Proc.devRef .tc main_arg4) := by keeps_host opsA
theorem opsA_arg5 : after (opsA (F := Ideal)) Wv (Proc.devRef .tc main_arg5) = Wv (Proc.devRef .tc main_arg5) := by keeps_host opsA
theorem opsA_arg6 : after (opsA (F := Ideal)) Wv (Proc.devRef .tc main_arg6) = Wv (Proc.devRef .tc main_arg6) := by keeps_host opsA
theorem opsA_arg7 : after (opsA (F := Ideal)) Wv (Proc.devRef .tc main_arg7) = Wv (Proc.devRef .tc main_arg7) := by keeps_host opsA
theorem opsL1_v1 : after (opsL1 (F := Ideal)) Wv (Proc.devRef .tc main_v1) = Wv (Proc.devRef .tc main_v1) := by keeps_host opsL1
theorem opsL1_v3 : after (opsL1 (F := Ideal)) Wv (Proc.devRef .tc main_v3) = Wv (Proc.devRef .tc main_v3) := by keeps_host opsL1
theorem opsL1_v15 : after (opsL1 (F := Ideal)) Wv (Proc.devRef .tc main_v15) = Wv (Proc.devRef .tc main_v15) := by keeps_host opsL1
theorem opsL1_v16 : after (opsL1 (F := Ideal)) Wv (Proc.devRef .tc main_v16) = Wv (Proc.devRef .tc main_v16) := by keeps_host opsL1
theorem opsL1_arg4 : after (opsL1 (F := Ideal)) Wv (Proc.devRef .tc main_arg4) = Wv (Proc.devRef .tc main_arg4) := by keeps_host opsL1
theorem opsL1_arg5 : after (opsL1 (F := Ideal)) Wv (Proc.devRef .tc main_arg5) = Wv (Proc.devRef .tc main_arg5) := by keeps_host opsL1
theorem opsL1_arg6 : after (opsL1 (F := Ideal)) Wv (Proc.devRef .tc main_arg6) = Wv (Proc.devRef .tc main_arg6) := by keeps_host opsL1
theorem opsL1_arg7 : after (opsL1 (F := Ideal)) Wv (Proc.devRef .tc main_arg7) = Wv (Proc.devRef .tc main_arg7) := by keeps_host opsL1
theorem opsL2_v1 : after (opsL2 (F := Ideal)) Wv (Proc.devRef .tc main_v1) = Wv (Proc.devRef .tc main_v1) := by keeps_host opsL2
theorem opsL2_v3 : after (opsL2 (F := Ideal)) Wv (Proc.devRef .tc main_v3) = Wv (Proc.devRef .tc main_v3) := by keeps_host opsL2
theorem opsL2_v15 : after (opsL2 (F := Ideal)) Wv (Proc.devRef .tc main_v15) = Wv (Proc.devRef .tc main_v15) := by keeps_host opsL2
theorem opsL2_v16 : after (opsL2 (F := Ideal)) Wv (Proc.devRef .tc main_v16) = Wv (Proc.devRef .tc main_v16) := by keeps_host opsL2
theorem opsL2_arg6 : after (opsL2 (F := Ideal)) Wv (Proc.devRef .tc main_arg6) = Wv (Proc.devRef .tc main_arg6) := by keeps_host opsL2
theorem opsL2_arg7 : after (opsL2 (F := Ideal)) Wv (Proc.devRef .tc main_arg7) = Wv (Proc.devRef .tc main_arg7) := by keeps_host opsL2

end Stretches

/-! ## The host composition is the network -/

theorem plain128 : Cert.LibPlainDot.Plain dot_S100000x128_S128x128_S100000x128_1_0_0_1_n_n := ⟨rfl, rfl, rfl, rfl, rfl, rfl⟩
theorem plain40 : Cert.LibPlainDot.Plain dot_S100000x128_S128x40_S100000x40_1_0_0_1_n_n := ⟨rfl, rfl, rfl, rfl, rfl, rfl⟩

/-- Three layers as host operations, then the written-out logarithm of the softmax, are the network of the
    specification over the shared host functions: each dense stage is its host spelling. -/
theorem net_eq (x : (⟨S100000x128, .f32⟩ : BufTy).Contents (Elt Ideal)) (ei : (⟨S2x1600000, .i32⟩ : BufTy).Contents (Elt Ideal))
    (w1 : (⟨S128x128, .f32⟩ : BufTy).Contents (Elt Ideal)) (b1 : (⟨S128, .f32⟩ : BufTy).Contents (Elt Ideal))
    (w2 : (⟨S128x128, .f32⟩ : BufTy).Contents (Elt Ideal)) (b2 : (⟨S128, .f32⟩ : BufTy).Contents (Elt Ideal))
    (w3 : (⟨S128x40, .f32⟩ : BufTy).Contents (Elt Ideal)) (b3 : (⟨S40, .f32⟩ : BufTy).Contents (Elt Ideal)) :
    Cert.LibHostNet.hostLogSoftmax (A := 100000) (B := 40) bcast_S100000_S100000x1_0 bcast_S100000x1_S100000x40_0_1
        bcast_S_S100000 reducesTo_S100000x40_S100000_d1 h_S_
        (pre ei (act ei (act ei x w1 (degNorm (srcIdx ei)) (degNorm (dstIdx ei)) b1) w2 (degNorm (srcIdx ei)) (degNorm (dstIdx ei)) b2)
          w3 (degNorm (srcIdx ei)) (degNorm (dstIdx ei)) b3)
      = result x ei w1 b1 w2 b2 w3 b3 := by
  unfold pre act pre128
  rw [Cert.LibHostNet.firstLayer_eq_host (A := 100000) (K := 128) (B := 128) bcast_S100000_S100000x1_0
      bcast_S100000x1_S100000x128_0_1 casts_col plain128 none x w1 (degNorm (srcIdx ei)),
    Cert.LibHostNet.midLayer_eq_host (A := 100000) (K := 128) (B := 128) bcast_S100000_S100000x1_0
      bcast_S100000x1_S100000x128_0_1 bcast_S100000x1_S100000x128_0_1 bcast_S128_S1x128_1 bcast_S1x128_S100000x128_0_1
      bcast_S_S100000x128 casts_col casts_row128 plain128 none _ (degNorm (dstIdx ei)) b1 w2 (degNorm (srcIdx ei)),
    Cert.LibHostNet.midLayer_eq_host (A := 100000) (K := 128) (B := 40) bcast_S100000_S100000x1_0
      bcast_S100000x1_S100000x128_0_1 bcast_S100000x1_S100000x40_0_1 bcast_S128_S1x128_1 bcast_S1x128_S100000x128_0_1
      bcast_S_S100000x128 casts_col casts_row128 plain40 none _ (degNorm (dstIdx ei)) b2 w3 (degNorm (srcIdx ei)),
    Cert.LibHostNet.lastLayer_eq_host (A := 100000) (B := 40) bcast_S100000_S100000x1_0 bcast_S100000x1_S100000x40_0_1
      bcast_S40_S1x40_1 bcast_S1x40_S100000x40_0_1 bcast_S_S100000 casts_col casts_row40 reducesTo_S100000x40_S100000_d1 h_S_
      _ (degNorm (dstIdx ei)) b3]
  rfl

/-! ## The program's result and arguments, from any launch contents -/

section Compose

variable (V : Valuation τ sig (Elt Ideal))

/-- The result buffer after the whole program: the network over the arguments' contents. -/
theorem ops_v79 : after (RunP.ops (F := Ideal)) V (Proc.devRef .tc main_v79)
    = result (V (Proc.devRef .tc main_arg0)) (V (Proc.devRef .tc main_arg1)) (V (Proc.devRef .tc main_arg2))
        (V (Proc.devRef .tc main_arg3)) (V (Proc.devRef .tc main_arg4)) (V (Proc.devRef .tc main_arg5))
        (V (Proc.devRef .tc main_arg6)) (V (Proc.devRef .tc main_arg7)) := by
  have hs1 := opsA_v1 V
  have hd1 := opsA_v3 V
  have hs2 := (opsL1_v1 (after (opsA (F := Ideal)) V)).trans hs1
  have hd2 := (opsL1_v3 (after (opsA (F := Ideal)) V)).trans hd1
  have hs3 := (opsL2_v1 (after (opsL1 (F := Ideal)) (after (opsA (F := Ideal)) V))).trans hs2
  have hd3 := (opsL2_v3 (after (opsL1 (F := Ideal)) (after (opsA (F := Ideal)) V))).trans hd2
  rw [ops_split, after_append, after_append, after_append, after_append, opsS_v79,
    opsL3_v78 _ _ hs3 hd3, opsL2_v58 _ _ hs2 hd2, opsL1_v37 _ _ hs1 hd1]
  rw [opsL2_v15, opsL2_v16, opsL2_arg6, opsL2_arg7,
    opsL1_v15, opsL1_v16, opsL1_arg4, opsL1_arg5, opsL1_arg6, opsL1_arg7,
    opsA_v15, opsA_v16, opsA_arg0, opsA_arg2, opsA_arg3, opsA_arg4, opsA_arg5, opsA_arg6, opsA_arg7]
  exact net_eq _ _ _ _ _ _ _ _

end Compose

section Args

variable (Wv : Valuation τ sig (Elt Ideal))

set_option maxHeartbeats 4000000 in
theorem ops_arg0 : after (RunP.ops (F := Ideal)) Wv (Proc.devRef .tc main_arg0) = Wv (Proc.devRef .tc main_arg0) := by keeps_host RunP.ops
set_option maxHeartbeats 4000000 in
theorem ops_arg1 : after (RunP.ops (F := Ideal)) Wv (Proc.devRef .tc main_arg1) = Wv (Proc.devRef .tc main_arg1) := by keeps_host RunP.ops
set_option maxHeartbeats 4000000 in
theorem ops_arg2 : after (RunP.ops (F := Ideal)) Wv (Proc.devRef .tc main_arg2) = Wv (Proc.devRef .tc main_arg2) := by keeps_host RunP.ops
set_option maxHeartbeats 4000000 in
theorem ops_arg3 : after (RunP.ops (F := Ideal)) Wv (Proc.devRef .tc main_arg3) = Wv (Proc.devRef .tc main_arg3) := by keeps_host RunP.ops
set_option maxHeartbeats 4000000 in
theorem ops_arg4 : after (RunP.ops (F := Ideal)) Wv (Proc.devRef .tc main_arg4) = Wv (Proc.devRef .tc main_arg4) := by keeps_host RunP.ops
set_option maxHeartbeats 4000000 in
theorem ops_arg5 : after (RunP.ops (F := Ideal)) Wv (Proc.devRef .tc main_arg5) = Wv (Proc.devRef .tc main_arg5) := by keeps_host RunP.ops
set_option maxHeartbeats 4000000 in
theorem ops_arg6 : after (RunP.ops (F := Ideal)) Wv (Proc.devRef .tc main_arg6) = Wv (Proc.devRef .tc main_arg6) := by keeps_host RunP.ops
set_option maxHeartbeats 4000000 in
theorem ops_arg7 : after (RunP.ops (F := Ideal)) Wv (Proc.devRef .tc main_arg7) = Wv (Proc.devRef .tc main_arg7) := by keeps_host RunP.ops

end Args

/-! ## The run -/

/-- On every device, over the extended reals, from any memory with zero counters: every weakly fair execution of the
    reference's @main terminates with the result buffer at the network of the specification over the arguments, and
    the arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v79)
          = result (m ((c.tc : Thread nD τ).loc main_arg0)) (m ((c.tc : Thread nD τ).loc main_arg1))
              (m ((c.tc : Thread nD τ).loc main_arg2)) (m ((c.tc : Thread nD τ).loc main_arg3))
              (m ((c.tc : Thread nD τ).loc main_arg4)) (m ((c.tc : Thread nD τ).loc main_arg5))
              (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c => ⟨(h c main_v79).trans (ops_v79 (launchContents m c)),
      (h c main_arg0).trans (ops_arg0 (launchContents m c)),
      (h c main_arg1).trans (ops_arg1 (launchContents m c)),
      (h c main_arg2).trans (ops_arg2 (launchContents m c)),
      (h c main_arg3).trans (ops_arg3 (launchContents m c)),
      (h c main_arg4).trans (ops_arg4 (launchContents m c)),
      (h c main_arg5).trans (ops_arg5 (launchContents m c)),
      (h c main_arg6).trans (ops_arg6 (launchContents m c)),
      (h c main_arg7).trans (ops_arg7 (launchContents m c))⟩)
    (run_seq RunP.scopedRefs_eq RunP.scopedSems_eq defs main (fun _ => RunP.ops) RunP.main_eq (fun _ => RunP.ops_sub) m ρ)

end Cert.ReferenceIdeal.RefValue

end
-- ==== Proof.lean ====
/-
  A three-layer graph convolution with a row log-softmax, tiled over blocks of 5000 nodes, against its plain
  array-level reference, over the extended reals.

  Both programs compute, for node features x, an edge list, three weight matrices and three bias vectors,

      log_softmax( L₃( relu( L₂( relu( L₁(x) ) ) ) ) ),    L(h) = in_norm · A( out_norm · (h · W) ) + b,

  where A aggregates rows along the edges (a gather of the source rows scatter-added at the destination rows) and
  in_norm, out_norm are the inverse square roots of the node degrees clamped below by one.  The degree norms, the index
  vectors and the aggregation are computed by the same host operations in both programs; they are carried as opaque
  functions of the edge list and never opened.  What differs is the dense part: the reference applies whole-array
  operations (a matrix product, a product with a broadcast column, a sum with a broadcast row, a maximum with zero, the
  row log-softmax), the kernel fuses "scale, add bias, clamp" of one layer with "multiply by the weights, scale" of the
  next into one tiled region over blocks of 5000 rows, rounding the matrix product's operands to a shorter float format
  first.  Over the extended reals the rounding is the identity, an entry of each dense stage depends on one row of the
  row-indexed operands only, and the blocks tile the rows, so each region's output array is the dense stage of the whole
  arrays; a tile product into a zero accumulator and the host's product are the same finite sum of the same products,
  and the two spellings of the row maximum, the row sum, the exponential and the logarithm are the same functions.  No
  law beyond that is used — no distributivity, no cancellation — so the equality holds at infinite entries too and the
  precondition that the inputs are finite is not needed.

  The idealization rewrote no operation, so the kernel's sanctioned idealization is its own text read over the extended
  reals.  The three frames: the two kernels' are the generated frame certificates; the reference's is its run with the
  result dropped.
-/
import proofs.«133676_j45578192945656_1_alg».proof.Defs
import proofs.«133676_j45578192945656_1_alg».proof.Proof.Gen.Kernel
import proofs.«133676_j45578192945656_1_alg».proof.Proof.Gen.Kernel.Frame
import proofs.«133676_j45578192945656_1_alg».proof.Proof.Gen.KernelIdeal
import proofs.«133676_j45578192945656_1_alg».proof.Proof.Gen.KernelIdeal.Frame
import proofs.«133676_j45578192945656_1_alg».proof.Proof.Gen.ReferenceIdeal
import proofs.«133676_j45578192945656_1_alg».proof.Proof.Gen.Pre_finite_inputs
import proofs.«133676_j45578192945656_1_alg».proof.Proof.KernelValue
import proofs.«133676_j45578192945656_1_alg».proof.Proof.RefValue
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernel_ideal : Cert.frame_KernelIdeal := fun m ρ _ => Cert.KernelIdeal.Gen.frame m ρ

/-- The reference's frame is its run with the result dropped. -/
theorem frame_reference_ideal : Cert.frame_ReferenceIdeal := fun m ρ _ =>
  (θ_run Cert.ReferenceIdeal.defs _ _).mono (fun _ h c => (h c).2) (Cert.ReferenceIdeal.RefValue.run m ρ)

/-- The idealization rewrote nothing. -/
theorem preserves : Cert.preserves_Kernel_KernelIdeal := trivial

/-- Both programs end with the network of the arguments in their result buffer: the kernel's last region leaves it
    (its dense stages composed through the aggregations), the reference's host operations compose to it, and the
    memories agree on the arguments. -/
theorem algebraic : Cert.algebraic_KernelIdeal_ReferenceIdeal := by
  intro m ρ m' ρ' _ hagree
  refine ⟨fun c => Cert.GraphNet.Host.result (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))
      (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)),
    Cert.KernelIdeal.Whole.run m ρ, ?_⟩
  refine (θ_run Cert.ReferenceIdeal.defs _ _).mono (fun _ h c => ⟨(h c).1.trans ?_, (h c).2⟩)
    (Cert.ReferenceIdeal.RefValue.run m' ρ')
  obtain ⟨e0, e1, e2, e3, e4, e5, e6, e7⟩ := hagree c
  rw [e0, e1, e2, e3, e4, e5, e6, e7]

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, preserves, algebraic⟩

end Cert.Proof

end
